-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x3 : Shape := ⟨2, ![10000, 3]⟩
abbrev S2x320000 : Shape := ⟨2, ![2, 320000]⟩
abbrev S10000 : Shape := ⟨1, ![10000]⟩
abbrev S16x3 : Shape := ⟨2, ![16, 3]⟩
abbrev S320000x64 : Shape := ⟨2, ![320000, 64]⟩
abbrev S64x192 : Shape := ⟨2, ![64, 192]⟩
abbrev S_ : Shape := ⟨0, ![]⟩

class Facts : Prop where
  bcast_S_S10000x3 : S_.BroadcastsInDim S10000x3 (![] : Fin 0 → Fin S10000x3.rank)
  reducesTo_S10000x3_S_d0_1 : S10000x3.ReducesTo [0, 1] S_
  h_S_ : 0 < S_.numel
  bcast_S_S16x3 : S_.BroadcastsInDim S16x3 (![] : Fin 0 → Fin S16x3.rank)
  reducesTo_S16x3_S_d0_1 : S16x3.ReducesTo [0, 1] S_
  bcast_S_S320000x64 : S_.BroadcastsInDim S320000x64 (![] : Fin 0 → Fin S320000x64.rank)
  reducesTo_S320000x64_S_d0_1 : S320000x64.ReducesTo [0, 1] S_
  bcast_S_S64x192 : S_.BroadcastsInDim S64x192 (![] : Fin 0 → Fin S64x192.rank)
  reducesTo_S64x192_S_d0_1 : S64x192.ReducesTo [0, 1] S_

variable [Facts]

def fn_part1 {F : FTy → Type} [FloatOps F] (main_v13 : IVec S_ 1) (main_v16 : IVec S64x192 1) : IVec S_ 1 :=
  let main_c_5 : IVec S_ 1 := constantI S_ 1 1#1
  let main_v17 : IVec S_ 1 := (fun x v => Host.reduce IntOp.andi x v reducesTo_S64x192_S_d0_1 h_S_) main_v16 main_c_5
  let main_v18 : IVec S_ 1 := andi main_v13 main_v17
  main_v18

def fn {F : FTy → Type} [FloatOps F] (main_arg0 : FVec F S10000x3 .f32) (main_arg1 : IVec S2x320000 32) (main_arg2 : IVec S10000 32) (main_arg3 : FVec F S16x3 .f32) (main_arg4 : FVec F S320000x64 .f32) (main_arg5 : FVec F S64x192 .f32) : IVec S_ 1 :=
  let main_v0 : FVec F S10000x3 .f32 := Host.absf main_arg0
  let main_cst : FVec F S_ .f32 := constant S_ .f32 0x7F800000#32
  let main_v1 : FVec F S10000x3 .f32 := broadcastInDim S10000x3 ![] bcast_S_S10000x3 main_cst
  let main_v2 : IVec S10000x3 1 := cmpf .olt main_v0 main_v1
  let main_c : IVec S_ 1 := constantI S_ 1 1#1
  let main_v3 : IVec S_ 1 := (fun x v => Host.reduce IntOp.andi x v reducesTo_S10000x3_S_d0_1 h_S_) main_v2 main_c
  let main_v4 : FVec F S16x3 .f32 := Host.absf main_arg3
  let main_cst_0 : FVec F S_ .f32 := constant S_ .f32 0x7F800000#32
  let main_v5 : FVec F S16x3 .f32 := broadcastInDim S16x3 ![] bcast_S_S16x3 main_cst_0
  let main_v6 : IVec S16x3 1 := cmpf .olt main_v4 main_v5
  let main_c_1 : IVec S_ 1 := constantI S_ 1 1#1
  let main_v7 : IVec S_ 1 := (fun x v => Host.reduce IntOp.andi x v reducesTo_S16x3_S_d0_1 h_S_) main_v6 main_c_1
  let main_v8 : IVec S_ 1 := andi main_v3 main_v7
  let main_v9 : FVec F S320000x64 .f32 := Host.absf main_arg4
  let main_cst_2 : FVec F S_ .f32 := constant S_ .f32 0x7F800000#32
  let main_v10 : FVec F S320000x64 .f32 := broadcastInDim S320000x64 ![] bcast_S_S320000x64 main_cst_2
  let main_v11 : IVec S320000x64 1 := cmpf .olt main_v9 main_v10
  let main_c_3 : IVec S_ 1 := constantI S_ 1 1#1
  let main_v12 : IVec S_ 1 := (fun x v => Host.reduce IntOp.andi x v reducesTo_S320000x64_S_d0_1 h_S_) main_v11 main_c_3
  let main_v13 : IVec S_ 1 := andi main_v8 main_v12
  let main_v14 : FVec F S64x192 .f32 := Host.absf main_arg5
  let main_cst_4 : FVec F S_ .f32 := constant S_ .f32 0x7F800000#32
  let main_v15 : FVec F S64x192 .f32 := broadcastInDim S64x192 ![] bcast_S_S64x192 main_cst_4
  let main_v16 : IVec S64x192 1 := cmpf .olt main_v14 main_v15
  fn_part1 (F := F) main_v13 main_v16
-- ==== Kernel.lean ====
abbrev S10000x3 : Shape := ⟨2, ![10000, 3]⟩
abbrev S2x320000 : Shape := ⟨2, ![2, 320000]⟩
abbrev S10000 : Shape := ⟨1, ![10000]⟩
abbrev S16x3 : Shape := ⟨2, ![16, 3]⟩
abbrev S320000x64 : Shape := ⟨2, ![320000, 64]⟩
abbrev S64x192 : Shape := ⟨2, ![64, 192]⟩
abbrev S576 : Shape := ⟨1, ![576]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x3 : Shape := ⟨2, ![320000, 3]⟩
abbrev S320000x9 : Shape := ⟨2, ![320000, 9]⟩
abbrev S16x1 : Shape := ⟨2, ![16, 1]⟩
abbrev S16 : Shape := ⟨1, ![16]⟩
abbrev S16x9 : Shape := ⟨2, ![16, 9]⟩
abbrev S320000x18 : Shape := ⟨2, ![320000, 18]⟩
abbrev S576x1 : Shape := ⟨2, ![576, 1]⟩
abbrev S1 : Shape := ⟨1, ![1]⟩
abbrev S1x1 : Shape := ⟨2, ![1, 1]⟩
abbrev S64x576 : Shape := ⟨2, ![64, 576]⟩
abbrev S320000x576 : Shape := ⟨2, ![320000, 576]⟩
abbrev S6400x64 : Shape := ⟨2, ![6400, 64]⟩
abbrev S6400x18 : Shape := ⟨2, ![6400, 18]⟩
abbrev S6400x576 : Shape := ⟨2, ![6400, 576]⟩
abbrev S320000x32x18 : Shape := ⟨3, ![320000, 32, 18]⟩

abbrev nBuf : Space → Nat
  | .hbm => 191
  | .vmem => 7
  | .smem => 0
  | _ => 0

abbrev hbmTy0_0 (i : Nat) : BufTy := match i % 128 with
  | 0 => ⟨S10000x3, .f32⟩
  | 1 => ⟨S2x320000, .i32⟩
  | 2 => ⟨S10000, .i32⟩
  | 3 => ⟨S16x3, .f32⟩
  | 4 => ⟨S320000x64, .f32⟩
  | 5 => ⟨S64x192, .f32⟩
  | 6 => ⟨S576, .i32⟩
  | 7 => ⟨S1x320000, .i32⟩
  | 8 => ⟨S320000, .i32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S320000x3, .f32⟩
  | 18 => ⟨S1x320000, .i32⟩
  | 19 => ⟨S320000, .i32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000x3, .f32⟩
  | 29 => ⟨S320000x3, .f32⟩
  | 30 => ⟨S320000x3, .f32⟩
  | 31 => ⟨S_, .f32⟩
  | 32 => ⟨S320000, .f32⟩
  | 33 => ⟨S320000x1, .f32⟩
  | 34 => ⟨S320000x1, .f32⟩
  | 35 => ⟨S320000x3, .f32⟩
  | 36 => ⟨S320000x3, .f32⟩
  | 37 => ⟨S320000x1, .f32⟩
  | 38 => ⟨S320000, .f32⟩
  | 39 => ⟨S320000x1, .f32⟩
  | 40 => ⟨S320000, .f32⟩
  | 41 => ⟨S320000x1, .f32⟩
  | 42 => ⟨S320000, .f32⟩
  | 43 => ⟨S320000, .f32⟩
  | 44 => ⟨S320000, .f32⟩
  | 45 => ⟨S320000, .f32⟩
  | 46 => ⟨S_, .f32⟩
  | 47 => ⟨S320000, .f32⟩
  | 48 => ⟨S_, .f32⟩
  | 49 => ⟨S320000, .f32⟩
  | 50 => ⟨S320000, .f32⟩
  | 51 => ⟨S_, .f32⟩
  | 52 => ⟨S320000, .f32⟩
  | 53 => ⟨S320000, .f32⟩
  | 54 => ⟨S_, .f32⟩
  | 55 => ⟨S320000, .f32⟩
  | 56 => ⟨S320000, .f32⟩
  | 57 => ⟨S_, .f32⟩
  | 58 => ⟨S320000, .f32⟩
  | 59 => ⟨S320000, .f32⟩
  | 60 => ⟨S320000, .f32⟩
  | 61 => ⟨S_, .f32⟩
  | 62 => ⟨S320000, .f32⟩
  | 63 => ⟨S320000, .f32⟩
  | 64 => ⟨S320000, .f32⟩
  | 65 => ⟨S320000, .f32⟩
  | 66 => ⟨S_, .f32⟩
  | 67 => ⟨S320000, .f32⟩
  | 68 => ⟨S320000, .f32⟩
  | 69 => ⟨S320000, .f32⟩
  | 70 => ⟨S_, .f32⟩
  | 71 => ⟨S320000, .f32⟩
  | 72 => ⟨S320000, .f32⟩
  | 73 => ⟨S_, .f32⟩
  | 74 => ⟨S320000, .f32⟩
  | 75 => ⟨S320000, .f32⟩
  | 76 => ⟨S320000, .f32⟩
  | 77 => ⟨S320000, .f32⟩
  | 78 => ⟨S_, .f32⟩
  | 79 => ⟨S320000, .f32⟩
  | 80 => ⟨S320000, .f32⟩
  | 81 => ⟨S320000x1, .f32⟩
  | 82 => ⟨S320000x1, .f32⟩
  | 83 => ⟨S320000x1, .f32⟩
  | 84 => ⟨S320000x1, .f32⟩
  | 85 => ⟨S320000x1, .f32⟩
  | 86 => ⟨S320000x1, .f32⟩
  | 87 => ⟨S320000x1, .f32⟩
  | 88 => ⟨S320000x1, .f32⟩
  | 89 => ⟨S320000x1, .f32⟩
  | 90 => ⟨S320000x9, .f32⟩
  | 91 => ⟨S16x1, .f32⟩
  | 92 => ⟨S16, .f32⟩
  | 93 => ⟨S16x1, .f32⟩
  | 94 => ⟨S16, .f32⟩
  | 95 => ⟨S16x1, .f32⟩
  | 96 => ⟨S16, .f32⟩
  | 97 => ⟨S16, .f32⟩
  | 98 => ⟨S16, .f32⟩
  | 99 => ⟨S16, .f32⟩
  | 100 => ⟨S_, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S16, .f32⟩
  | 115 => ⟨S_, .f32⟩
  | 116 => ⟨S16, .f32⟩
  | 117 => ⟨S16, .f32⟩
  | 118 => ⟨S16, .f32⟩
  | 119 => ⟨S16, .f32⟩
  | 120 => ⟨S_, .f32⟩
  | 121 => ⟨S16, .f32⟩
  | 122 => ⟨S16, .f32⟩
  | 123 => ⟨S16, .f32⟩
  | 124 => ⟨S_, .f32⟩
  | 125 => ⟨S16, .f32⟩
  | 126 => ⟨S16, .f32⟩
  | 127 => ⟨S_, .f32⟩
  | _ => ⟨S10000x3, .f32⟩

abbrev hbmTy0_1 (i : Nat) : BufTy := match i % 128 with
  | 0 => ⟨S16, .f32⟩
  | 1 => ⟨S16, .f32⟩
  | 2 => ⟨S16, .f32⟩
  | 3 => ⟨S16, .f32⟩
  | 4 => ⟨S_, .f32⟩
  | 5 => ⟨S16, .f32⟩
  | 6 => ⟨S16, .f32⟩
  | 7 => ⟨S16x1, .f32⟩
  | 8 => ⟨S16x1, .f32⟩
  | 9 => ⟨S16x1, .f32⟩
  | 10 => ⟨S16x1, .f32⟩
  | 11 => ⟨S16x1, .f32⟩
  | 12 => ⟨S16x1, .f32⟩
  | 13 => ⟨S16x1, .f32⟩
  | 14 => ⟨S16x1, .f32⟩
  | 15 => ⟨S16x1, .f32⟩
  | 16 => ⟨S16x9, .f32⟩
  | 17 => ⟨S1x320000, .i32⟩
  | 18 => ⟨S320000, .i32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S320000, .i32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x9, .f32⟩
  | 37 => ⟨S320000x18, .f32⟩
  | 38 => ⟨S_, .i32⟩
  | 39 => ⟨S576, .i32⟩
  | 40 => ⟨S576, .i1⟩
  | 41 => ⟨S_, .i32⟩
  | 42 => ⟨S576, .i32⟩
  | 43 => ⟨S576, .i32⟩
  | 44 => ⟨S576, .i32⟩
  | 45 => ⟨S576x1, .i32⟩
  | 46 => ⟨S1, .i32⟩
  | 47 => ⟨S_, .i32⟩
  | 48 => ⟨S576x1, .i32⟩
  | 49 => ⟨S576x1, .i1⟩
  | 50 => ⟨S1x1, .i32⟩
  | 51 => ⟨S576x1, .i32⟩
  | 52 => ⟨S576x1, .i1⟩
  | 53 => ⟨S576x1, .i1⟩
  | 54 => ⟨S_, .i1⟩
  | 55 => ⟨S576, .i1⟩
  | 56 => ⟨S64x576, .f32⟩
  | 57 => ⟨S64x576, .i1⟩
  | 58 => ⟨S_, .f32⟩
  | 59 => ⟨S64x576, .f32⟩
  | 60 => ⟨S64x576, .f32⟩
  | 61 => ⟨S320000x576, .f32⟩
  | 62 => ⟨S320000x32x18, .f32⟩
  | _ => ⟨S10000x3, .f32⟩

abbrev hbmTy (i : Nat) : BufTy := match i / 128 with
  | 0 => hbmTy0_0 i
  | 1 => hbmTy0_1 i
  | _ => ⟨S10000x3, .f32⟩

abbrev bufTy : (tb : Table) → Fin (tcTables nBuf tb) → BufTy
  | .hbm, ⟨i, _⟩ => hbmTy i
  | .local _ .vmem, ⟨0, _⟩ => ⟨S6400x64, .f32⟩
  | .local _ .vmem, ⟨1, _⟩ => ⟨S6400x64, .f32⟩
  | .local _ .vmem, ⟨2, _⟩ => ⟨S6400x18, .f32⟩
  | .local _ .vmem, ⟨3, _⟩ => ⟨S6400x18, .f32⟩
  | .local _ .vmem, ⟨4, _⟩ => ⟨S64x576, .f32⟩
  | .local _ .vmem, ⟨5, _⟩ => ⟨S6400x576, .f32⟩
  | .local _ .vmem, ⟨6, _⟩ => ⟨S6400x576, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_call0_v2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_18 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_20 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_22 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_c_23 : Ref sig .tc := ⟨.hbm, 147, rfl⟩
abbrev main_v112 : Ref sig .tc := ⟨.hbm, 148, rfl⟩
abbrev main_v113 : Ref sig .tc := ⟨.hbm, 149, rfl⟩
abbrev main_c_24 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_c_25 : Ref sig .tc := ⟨.hbm, 156, rfl⟩
abbrev main_v119 : Ref sig .tc := ⟨.hbm, 157, rfl⟩
abbrev main_v120 : Ref sig .tc := ⟨.hbm, 158, rfl⟩
abbrev main_c_26 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_call1_c : Ref sig .tc := ⟨.hbm, 166, rfl⟩
abbrev main_call1_v0 : Ref sig .tc := ⟨.hbm, 167, rfl⟩
abbrev main_call1_v1 : Ref sig .tc := ⟨.hbm, 168, rfl⟩
abbrev main_call1_c_0 : Ref sig .tc := ⟨.hbm, 169, rfl⟩
abbrev main_call1_v2 : Ref sig .tc := ⟨.hbm, 170, rfl⟩
abbrev main_call1_v3 : Ref sig .tc := ⟨.hbm, 171, rfl⟩
abbrev main_call1_v4 : Ref sig .tc := ⟨.hbm, 172, rfl⟩
abbrev main_call1_v5 : Ref sig .tc := ⟨.hbm, 173, rfl⟩
abbrev main_call1_c_1 : Ref sig .tc := ⟨.hbm, 174, rfl⟩
abbrev main_call1_c_2 : Ref sig .tc := ⟨.hbm, 175, rfl⟩
abbrev main_call1_v6 : Ref sig .tc := ⟨.hbm, 176, rfl⟩
abbrev main_call1_v7 : Ref sig .tc := ⟨.hbm, 177, rfl⟩
abbrev main_call1_v8 : Ref sig .tc := ⟨.hbm, 178, rfl⟩
abbrev main_call1_v9 : Ref sig .tc := ⟨.hbm, 179, rfl⟩
abbrev main_call1_v10 : Ref sig .tc := ⟨.hbm, 180, rfl⟩
abbrev main_call1_v11 : Ref sig .tc := ⟨.hbm, 181, rfl⟩
abbrev main_call1_c_3 : Ref sig .tc := ⟨.hbm, 182, rfl⟩
abbrev main_call1_v12 : Ref sig .tc := ⟨.hbm, 183, rfl⟩
abbrev main_call1_v13 : Ref sig .tc := ⟨.hbm, 184, rfl⟩
abbrev main_call1_v14 : Ref sig .tc := ⟨.hbm, 185, rfl⟩
abbrev main_call1_cst : Ref sig .tc := ⟨.hbm, 186, rfl⟩
abbrev main_call1_v15 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x18 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x320000_S1x320000_1_0 : S2x320000.Slices ![1, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  slices_S2x320000_S1x320000_0_0 : S2x320000.Slices ![0, 0] S1x320000
  reducesTo_S320000x3_S320000_d1 : S320000x3.ReducesTo [1] S320000
  h_S_ : 0 < S_.numel
  bcast_S320000x1_S320000x3_0_1 : S320000x1.BroadcastsInDim S320000x3 (![0, 1] : Fin 2 → Fin S320000x3.rank)
  slices_S320000x3_S320000x1_0_0 : S320000x3.Slices ![0, 0] S320000x1
  shapeCasts_S320000x1_S320000 : S320000x1.ShapeCasts S320000
  slices_S320000x3_S320000x1_0_1 : S320000x3.Slices ![0, 1] S320000x1
  slices_S320000x3_S320000x1_0_2 : S320000x3.Slices ![0, 2] S320000x1
  concatenates_S320000x1_S320000x1_S320000x1_S320000x1_S320000x1_S320000x1_S320000x1_S320000x1_S320000x1_S320000x9_d1 : Shape.Concatenates [S320000x1, S320000x1, S320000x1, S320000x1, S320000x1, S320000x1, S320000x1, S320000x1, S320000x1] S320000x9 1
  slices_S16x3_S16x1_0_0 : S16x3.Slices ![0, 0] S16x1
  shapeCasts_S16x1_S16 : S16x1.ShapeCasts S16
  slices_S16x3_S16x1_0_1 : S16x3.Slices ![0, 1] S16x1
  slices_S16x3_S16x1_0_2 : S16x3.Slices ![0, 2] S16x1
  bcast_S_S16 : S_.BroadcastsInDim S16 (![] : Fin 0 → Fin S16.rank)
  bcast_S16_S16x1_0 : S16.BroadcastsInDim S16x1 (![0] : Fin 1 → Fin S16x1.rank)
  concatenates_S16x1_S16x1_S16x1_S16x1_S16x1_S16x1_S16x1_S16x1_S16x1_S16x9_d1 : Shape.Concatenates [S16x1, S16x1, S16x1, S16x1, S16x1, S16x1, S16x1, S16x1, S16x1] S16x9 1
  concatenates_S320000x9_S320000x9_S320000x18_d1 : Shape.Concatenates [S320000x9, S320000x9] S320000x18 1
  bcast_S_S576 : S_.BroadcastsInDim S576 (![] : Fin 0 → Fin S576.rank)
  bcast_S576_S576x1_0 : S576.BroadcastsInDim S576x1 (![0] : Fin 1 → Fin S576x1.rank)
  bcast_S_S576x1 : S_.BroadcastsInDim S576x1 (![] : Fin 0 → Fin S576x1.rank)
  bcast_S1_S1x1_1 : S1.BroadcastsInDim S1x1 (![1] : Fin 1 → Fin S1x1.rank)
  bcast_S1x1_S576x1_0_1 : S1x1.BroadcastsInDim S576x1 (![0, 1] : Fin 2 → Fin S576x1.rank)
  reducesTo_S576x1_S576_d1 : S576x1.ReducesTo [1] S576
  bcast_S576_S64x576_1 : S576.BroadcastsInDim S64x576 (![1] : Fin 1 → Fin S64x576.rank)
  bcast_S_S64x576 : S_.BroadcastsInDim S64x576 (![] : Fin 0 → Fin S64x576.rank)
  inb_S6400x64_S6400x64_0_0 : ∀ a, (![0, 0] : Fin 2 → Nat) a + S6400x64.size a ≤ S6400x64.size a
  h_S6400x64 : 0 < S6400x64.numel
  inb_S64x576_S64x576_0_0 : ∀ a, (![0, 0] : Fin 2 → Nat) a + S64x576.size a ≤ S64x576.size a
  h_S64x576 : 0 < S64x576.numel
  shapeCasts_S64x576_S64x576 : S64x576.ShapeCasts S64x576
  inb_S6400x18_S6400x18_0_0 : ∀ a, (![0, 0] : Fin 2 → Nat) a + S6400x18.size a ≤ S6400x18.size a
  h_S6400x18 : 0 < S6400x18.numel
  shapeCasts_S6400x18_S6400x18 : S6400x18.ShapeCasts S6400x18
  concatenates_S6400x18_S6400x18_S6400x18_S6400x18_S6400x18_S6400x18_S6400x18_S6400x18_S6400x18_S6400x18_S6400x18_S6400x18_S6400x18_S6400x18_S6400x18_S6400x18_S6400x18_S6400x18_S6400x18_S6400x18_S6400x18_S6400x18_S6400x18_S6400x18_S6400x18_S6400x18_S6400x18_S6400x18_S6400x18_S6400x18_S6400x18_S6400x18_S6400x576_d1 : Shape.Concatenates [S6400x18, S6400x18, S6400x18, S6400x18, S6400x18, S6400x18, S6400x18, S6400x18, S6400x18, S6400x18, S6400x18, S6400x18, S6400x18, S6400x18, S6400x18, S6400x18, S6400x18, S6400x18, S6400x18, S6400x18, S6400x18, S6400x18, S6400x18, S6400x18, S6400x18, S6400x18, S6400x18, S6400x18, S6400x18, S6400x18, S6400x18, S6400x18] S6400x576 1
  inb_S6400x576_S6400x576_0_0 : ∀ a, (![0, 0] : Fin 2 → Nat) a + S6400x576.size a ≤ S6400x576.size a
  h_S6400x576 : 0 < S6400x576.numel
  shapeCasts_S320000x576_S320000x32x18 : S320000x576.ShapeCasts S320000x32x18
  gather_S10000x3_S320000x1_S320000x3_1_0_n_n_0_1_13_wf : GatherDims.WF S10000x3 S320000x1 S320000x3 [1] [0] [] [0] [] 1 ![1, 3]
  gather_S10000_S320000x1_S320000_n_0_n_n_0_1_1_wf : GatherDims.WF S10000 S320000x1 S320000 [] [0] [] [0] [] 1 ![1]
  gather_S16x9_S320000x1_S320000x9_1_0_n_n_0_1_19_wf : GatherDims.WF S16x9 S320000x1 S320000x9 [1] [0] [] [0] [] 1 ![1, 9]
  gather_S64x192_S576x1_S64x576_0_1_n_n_1_1_641_wf : GatherDims.WF S64x192 S576x1 S64x576 [0] [1] [] [1] [] 1 ![64, 1]
  dot_S6400x64_S64x576_S6400x576_1_0_0_1_n_n_wf : DotDims.WF S6400x64 S64x576 S6400x576 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S320000x64.size a
  hwx0_0 : ∀ i : grid0.Coords, EltTy.bits .f32 = 32 ∨ (Rect.block (s := S320000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x18.size a ≤ S320000x18.size a
  hwx0_1 : ∀ i : grid0.Coords, EltTy.bits .f32 = 32 ∨ (Rect.block (s := S320000x18) S6400x18.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x576.size a ≤ S64x576.size a
  hwx0_2 : ∀ i : grid0.Coords, EltTy.bits .f32 = 32 ∨ (Rect.block (s := S64x576) S64x576.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x576.size a ≤ S320000x576.size a
  hwx0_3 : ∀ i : grid0.Coords, EltTy.bits .f32 = 32 ∨ (Rect.block (s := S320000x576) S6400x576.size (cc0_transform_3 i) (hinb0_3 i)).WholeWords (EltTy.packing .f32)

variable [Facts₀]

def gather_S10000x3_S320000x1_S320000x3_1_0_n_n_0_1_13 : GatherDims S10000x3 S320000x1 S320000x3 where
  offsetDims := [1]
  collapsedSliceDims := [0]
  operandBatchingDims := []
  startIndicesBatchingDims := []
  startIndexMap := [0]
  indexVectorDim := 1
  sliceSizes := ![1, 3]
  wf := gather_S10000x3_S320000x1_S320000x3_1_0_n_n_0_1_13_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S16x9_S320000x1_S320000x9_1_0_n_n_0_1_19 : GatherDims S16x9 S320000x1 S320000x9 where
  offsetDims := [1]
  collapsedSliceDims := [0]
  operandBatchingDims := []
  startIndicesBatchingDims := []
  startIndexMap := [0]
  indexVectorDim := 1
  sliceSizes := ![1, 9]
  wf := gather_S16x9_S320000x1_S320000x9_1_0_n_n_0_1_19_wf
def gather_S64x192_S576x1_S64x576_0_1_n_n_1_1_641 : GatherDims S64x192 S576x1 S64x576 where
  offsetDims := [0]
  collapsedSliceDims := [1]
  operandBatchingDims := []
  startIndicesBatchingDims := []
  startIndexMap := [1]
  indexVectorDim := 1
  sliceSizes := ![64, 1]
  wf := gather_S64x192_S576x1_S64x576_0_1_n_n_1_1_641_wf
def dot_S6400x64_S64x576_S6400x576_1_0_0_1_n_n : DotDims S6400x64 S64x576 S6400x576 where
  lhsContracting := [1]
  rhsContracting := [0]
  lhsNonContracting := [0]
  rhsNonContracting := [1]
  lhsBatch := []
  rhsBatch := []
  wf := dot_S6400x64_S64x576_S6400x576_1_0_0_1_n_n_wf

abbrev win0_0 : Pipeline.Window sig grid0 :=
  Pipeline.Window.ofSpec (Memref.whole main_arg4) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v126) S6400x18.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v127) S64x576.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v128) S6400x576.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x3 : Shape := ⟨2, ![10000, 3]⟩
abbrev S2x320000 : Shape := ⟨2, ![2, 320000]⟩
abbrev S10000 : Shape := ⟨1, ![10000]⟩
abbrev S16x3 : Shape := ⟨2, ![16, 3]⟩
abbrev S320000x64 : Shape := ⟨2, ![320000, 64]⟩
abbrev S64x192 : Shape := ⟨2, ![64, 192]⟩
abbrev S18 : Shape := ⟨1, ![18]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x3 : Shape := ⟨2, ![320000, 3]⟩
abbrev S320000x9 : Shape := ⟨2, ![320000, 9]⟩
abbrev S16x1 : Shape := ⟨2, ![16, 1]⟩
abbrev S16 : Shape := ⟨1, ![16]⟩
abbrev S16x9 : Shape := ⟨2, ![16, 9]⟩
abbrev S320000x18 : Shape := ⟨2, ![320000, 18]⟩
abbrev S320000x192 : Shape := ⟨2, ![320000, 192]⟩
abbrev S320000x32x6 : Shape := ⟨3, ![320000, 32, 6]⟩
abbrev S18x1 : Shape := ⟨2, ![18, 1]⟩
abbrev S320000x32x18 : Shape := ⟨3, ![320000, 32, 18]⟩
abbrev S320000x1x18 : Shape := ⟨3, ![320000, 1, 18]⟩

abbrev nBuf : Space → Nat
  | .hbm => 178
  | .vmem => 0
  | .smem => 0
  | _ => 0

abbrev hbmTy0_0 (i : Nat) : BufTy := match i % 128 with
  | 0 => ⟨S10000x3, .f32⟩
  | 1 => ⟨S2x320000, .i32⟩
  | 2 => ⟨S10000, .i32⟩
  | 3 => ⟨S16x3, .f32⟩
  | 4 => ⟨S320000x64, .f32⟩
  | 5 => ⟨S64x192, .f32⟩
  | 6 => ⟨S18, .i32⟩
  | 7 => ⟨S18, .i1⟩
  | 8 => ⟨S1x320000, .i32⟩
  | 9 => ⟨S320000, .i32⟩
  | 10 => ⟨S_, .i32⟩
  | 11 => ⟨S320000, .i32⟩
  | 12 => ⟨S320000, .i1⟩
  | 13 => ⟨S_, .i32⟩
  | 14 => ⟨S320000, .i32⟩
  | 15 => ⟨S320000, .i32⟩
  | 16 => ⟨S320000, .i32⟩
  | 17 => ⟨S320000x1, .i32⟩
  | 18 => ⟨S320000x3, .f32⟩
  | 19 => ⟨S1x320000, .i32⟩
  | 20 => ⟨S320000, .i32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S320000x3, .f32⟩
  | 30 => ⟨S320000x3, .f32⟩
  | 31 => ⟨S320000x3, .f32⟩
  | 32 => ⟨S_, .f32⟩
  | 33 => ⟨S320000, .f32⟩
  | 34 => ⟨S320000x1, .f32⟩
  | 35 => ⟨S320000x1, .f32⟩
  | 36 => ⟨S320000x3, .f32⟩
  | 37 => ⟨S320000x3, .f32⟩
  | 38 => ⟨S320000x1, .f32⟩
  | 39 => ⟨S320000, .f32⟩
  | 40 => ⟨S320000x1, .f32⟩
  | 41 => ⟨S320000, .f32⟩
  | 42 => ⟨S320000x1, .f32⟩
  | 43 => ⟨S320000, .f32⟩
  | 44 => ⟨S320000, .f32⟩
  | 45 => ⟨S320000, .f32⟩
  | 46 => ⟨S320000, .f32⟩
  | 47 => ⟨S_, .f32⟩
  | 48 => ⟨S320000, .f32⟩
  | 49 => ⟨S_, .f32⟩
  | 50 => ⟨S320000, .f32⟩
  | 51 => ⟨S320000, .f32⟩
  | 52 => ⟨S_, .f32⟩
  | 53 => ⟨S320000, .f32⟩
  | 54 => ⟨S320000, .f32⟩
  | 55 => ⟨S_, .f32⟩
  | 56 => ⟨S320000, .f32⟩
  | 57 => ⟨S320000, .f32⟩
  | 58 => ⟨S_, .f32⟩
  | 59 => ⟨S320000, .f32⟩
  | 60 => ⟨S320000, .f32⟩
  | 61 => ⟨S320000, .f32⟩
  | 62 => ⟨S_, .f32⟩
  | 63 => ⟨S320000, .f32⟩
  | 64 => ⟨S320000, .f32⟩
  | 65 => ⟨S320000, .f32⟩
  | 66 => ⟨S320000, .f32⟩
  | 67 => ⟨S_, .f32⟩
  | 68 => ⟨S320000, .f32⟩
  | 69 => ⟨S320000, .f32⟩
  | 70 => ⟨S320000, .f32⟩
  | 71 => ⟨S_, .f32⟩
  | 72 => ⟨S320000, .f32⟩
  | 73 => ⟨S320000, .f32⟩
  | 74 => ⟨S_, .f32⟩
  | 75 => ⟨S320000, .f32⟩
  | 76 => ⟨S320000, .f32⟩
  | 77 => ⟨S320000, .f32⟩
  | 78 => ⟨S320000, .f32⟩
  | 79 => ⟨S_, .f32⟩
  | 80 => ⟨S320000, .f32⟩
  | 81 => ⟨S320000, .f32⟩
  | 82 => ⟨S320000x1, .f32⟩
  | 83 => ⟨S320000x1, .f32⟩
  | 84 => ⟨S320000x1, .f32⟩
  | 85 => ⟨S320000x1, .f32⟩
  | 86 => ⟨S320000x1, .f32⟩
  | 87 => ⟨S320000x1, .f32⟩
  | 88 => ⟨S320000x1, .f32⟩
  | 89 => ⟨S320000x1, .f32⟩
  | 90 => ⟨S320000x1, .f32⟩
  | 91 => ⟨S320000x9, .f32⟩
  | 92 => ⟨S16x1, .f32⟩
  | 93 => ⟨S16, .f32⟩
  | 94 => ⟨S16x1, .f32⟩
  | 95 => ⟨S16, .f32⟩
  | 96 => ⟨S16x1, .f32⟩
  | 97 => ⟨S16, .f32⟩
  | 98 => ⟨S16, .f32⟩
  | 99 => ⟨S16, .f32⟩
  | 100 => ⟨S16, .f32⟩
  | 101 => ⟨S_, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S16, .f32⟩
  | 116 => ⟨S_, .f32⟩
  | 117 => ⟨S16, .f32⟩
  | 118 => ⟨S16, .f32⟩
  | 119 => ⟨S16, .f32⟩
  | 120 => ⟨S16, .f32⟩
  | 121 => ⟨S_, .f32⟩
  | 122 => ⟨S16, .f32⟩
  | 123 => ⟨S16, .f32⟩
  | 124 => ⟨S16, .f32⟩
  | 125 => ⟨S_, .f32⟩
  | 126 => ⟨S16, .f32⟩
  | 127 => ⟨S16, .f32⟩
  | _ => ⟨S10000x3, .f32⟩

abbrev hbmTy0_1 (i : Nat) : BufTy := match i % 128 with
  | 0 => ⟨S_, .f32⟩
  | 1 => ⟨S16, .f32⟩
  | 2 => ⟨S16, .f32⟩
  | 3 => ⟨S16, .f32⟩
  | 4 => ⟨S16, .f32⟩
  | 5 => ⟨S_, .f32⟩
  | 6 => ⟨S16, .f32⟩
  | 7 => ⟨S16, .f32⟩
  | 8 => ⟨S16x1, .f32⟩
  | 9 => ⟨S16x1, .f32⟩
  | 10 => ⟨S16x1, .f32⟩
  | 11 => ⟨S16x1, .f32⟩
  | 12 => ⟨S16x1, .f32⟩
  | 13 => ⟨S16x1, .f32⟩
  | 14 => ⟨S16x1, .f32⟩
  | 15 => ⟨S16x1, .f32⟩
  | 16 => ⟨S16x1, .f32⟩
  | 17 => ⟨S16x9, .f32⟩
  | 18 => ⟨S1x320000, .i32⟩
  | 19 => ⟨S320000, .i32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000, .i32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000x9, .f32⟩
  | 38 => ⟨S320000x18, .f32⟩
  | 39 => ⟨S320000x192, .f32⟩
  | 40 => ⟨S320000x32x6, .f32⟩
  | 41 => ⟨S_, .i32⟩
  | 42 => ⟨S18, .i32⟩
  | 43 => ⟨S18, .i32⟩
  | 44 => ⟨S18, .i32⟩
  | 45 => ⟨S18x1, .i32⟩
  | 46 => ⟨S320000x32x18, .f32⟩
  | 47 => ⟨S320000x1x18, .f32⟩
  | 48 => ⟨S320000x32x18, .f32⟩
  | 49 => ⟨S320000x32x18, .f32⟩
  | _ => ⟨S10000x3, .f32⟩

abbrev hbmTy (i : Nat) : BufTy := match i / 128 with
  | 0 => hbmTy0_0 i
  | 1 => hbmTy0_1 i
  | _ => ⟨S10000x3, .f32⟩

abbrev bufTy : (tb : Table) → Fin (tcTables nBuf tb) → BufTy
  | .hbm, ⟨i, _⟩ => hbmTy i
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_cst_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_v93 : Ref sig .tc := ⟨.hbm, 127, rfl⟩
abbrev main_cst_22 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_23 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_c_24 : Ref sig .tc := ⟨.hbm, 148, rfl⟩
abbrev main_v112 : Ref sig .tc := ⟨.hbm, 149, rfl⟩
abbrev main_v113 : Ref sig .tc := ⟨.hbm, 150, rfl⟩
abbrev main_c_25 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_c_26 : Ref sig .tc := ⟨.hbm, 157, rfl⟩
abbrev main_v119 : Ref sig .tc := ⟨.hbm, 158, rfl⟩
abbrev main_v120 : Ref sig .tc := ⟨.hbm, 159, rfl⟩
abbrev main_c_27 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_c_28 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩

abbrev nD : Nat := 1
abbrev τ : Topo := Topo.v7x

variable {F : FTy → Type} [FloatOps F]

class Facts₀ : Prop where
  slices_S2x320000_S1x320000_1_0 : S2x320000.Slices ![1, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  slices_S2x320000_S1x320000_0_0 : S2x320000.Slices ![0, 0] S1x320000
  reducesTo_S320000x3_S320000_d1 : S320000x3.ReducesTo [1] S320000
  h_S_ : 0 < S_.numel
  bcast_S320000x1_S320000x3_0_1 : S320000x1.BroadcastsInDim S320000x3 (![0, 1] : Fin 2 → Fin S320000x3.rank)
  slices_S320000x3_S320000x1_0_0 : S320000x3.Slices ![0, 0] S320000x1
  shapeCasts_S320000x1_S320000 : S320000x1.ShapeCasts S320000
  slices_S320000x3_S320000x1_0_1 : S320000x3.Slices ![0, 1] S320000x1
  slices_S320000x3_S320000x1_0_2 : S320000x3.Slices ![0, 2] S320000x1
  concatenates_S320000x1_S320000x1_S320000x1_S320000x1_S320000x1_S320000x1_S320000x1_S320000x1_S320000x1_S320000x9_d1 : Shape.Concatenates [S320000x1, S320000x1, S320000x1, S320000x1, S320000x1, S320000x1, S320000x1, S320000x1, S320000x1] S320000x9 1
  slices_S16x3_S16x1_0_0 : S16x3.Slices ![0, 0] S16x1
  shapeCasts_S16x1_S16 : S16x1.ShapeCasts S16
  slices_S16x3_S16x1_0_1 : S16x3.Slices ![0, 1] S16x1
  slices_S16x3_S16x1_0_2 : S16x3.Slices ![0, 2] S16x1
  bcast_S_S16 : S_.BroadcastsInDim S16 (![] : Fin 0 → Fin S16.rank)
  bcast_S16_S16x1_0 : S16.BroadcastsInDim S16x1 (![0] : Fin 1 → Fin S16x1.rank)
  concatenates_S16x1_S16x1_S16x1_S16x1_S16x1_S16x1_S16x1_S16x1_S16x1_S16x9_d1 : Shape.Concatenates [S16x1, S16x1, S16x1, S16x1, S16x1, S16x1, S16x1, S16x1, S16x1] S16x9 1
  concatenates_S320000x9_S320000x9_S320000x18_d1 : Shape.Concatenates [S320000x9, S320000x9] S320000x18 1
  shapeCasts_S320000x192_S320000x32x6 : S320000x192.ShapeCasts S320000x32x6
  bcast_S_S18 : S_.BroadcastsInDim S18 (![] : Fin 0 → Fin S18.rank)
  bcast_S18_S18x1_0 : S18.BroadcastsInDim S18x1 (![0] : Fin 1 → Fin S18x1.rank)
  bcast_S320000x18_S320000x1x18_0_2 : S320000x18.BroadcastsInDim S320000x1x18 (![0, 2] : Fin 2 → Fin S320000x1x18.rank)
  bcast_S320000x1x18_S320000x32x18_0_1_2 : S320000x1x18.BroadcastsInDim S320000x32x18 (![0, 1, 2] : Fin 3 → Fin S320000x32x18.rank)
  gather_S10000x3_S320000x1_S320000x3_1_0_n_n_0_1_13_wf : GatherDims.WF S10000x3 S320000x1 S320000x3 [1] [0] [] [0] [] 1 ![1, 3]
  gather_S10000_S320000x1_S320000_n_0_n_n_0_1_1_wf : GatherDims.WF S10000 S320000x1 S320000 [] [0] [] [0] [] 1 ![1]
  gather_S16x9_S320000x1_S320000x9_1_0_n_n_0_1_19_wf : GatherDims.WF S16x9 S320000x1 S320000x9 [1] [0] [] [0] [] 1 ![1, 9]
  dot_S320000x64_S64x192_S320000x192_1_0_0_1_n_n_wf : DotDims.WF S320000x64 S64x192 S320000x192 [1] [0] [0] [1] [] []
  gather_S320000x32x6_S18x1_S320000x32x18_01_2_n_n_2_1_320000321_wf : GatherDims.WF S320000x32x6 S18x1 S320000x32x18 [0, 1] [2] [] [2] [] 1 ![320000, 32, 1]

variable [Facts₀]

def gather_S10000x3_S320000x1_S320000x3_1_0_n_n_0_1_13 : GatherDims S10000x3 S320000x1 S320000x3 where
  offsetDims := [1]
  collapsedSliceDims := [0]
  operandBatchingDims := []
  startIndicesBatchingDims := []
  startIndexMap := [0]
  indexVectorDim := 1
  sliceSizes := ![1, 3]
  wf := gather_S10000x3_S320000x1_S320000x3_1_0_n_n_0_1_13_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S16x9_S320000x1_S320000x9_1_0_n_n_0_1_19 : GatherDims S16x9 S320000x1 S320000x9 where
  offsetDims := [1]
  collapsedSliceDims := [0]
  operandBatchingDims := []
  startIndicesBatchingDims := []
  startIndexMap := [0]
  indexVectorDim := 1
  sliceSizes := ![1, 9]
  wf := gather_S16x9_S320000x1_S320000x9_1_0_n_n_0_1_19_wf
def dot_S320000x64_S64x192_S320000x192_1_0_0_1_n_n : DotDims S320000x64 S64x192 S320000x192 where
  lhsContracting := [1]
  rhsContracting := [0]
  lhsNonContracting := [0]
  rhsNonContracting := [1]
  lhsBatch := []
  rhsBatch := []
  wf := dot_S320000x64_S64x192_S320000x192_1_0_0_1_n_n_wf
def gather_S320000x32x6_S18x1_S320000x32x18_01_2_n_n_2_1_320000321 : GatherDims S320000x32x6 S18x1 S320000x32x18 where
  offsetDims := [0, 1]
  collapsedSliceDims := [2]
  operandBatchingDims := []
  startIndicesBatchingDims := []
  startIndexMap := [2]
  indexVectorDim := 1
  sliceSizes := ![320000, 32, 1]
  wf := gather_S320000x32x6_S18x1_S320000x32x18_01_2_n_n_2_1_320000321_wf

class Facts : Prop extends Facts₀ where

variable [Facts]
-- ==== Proof.FrameDataK.lean ====
import proofs.«176160_j34325378630297_2_alg».proof.Proof.Gen.Kernel.Launch
import proofs.«176160_j34325378630297_2_alg».proof.Proof.Gen.Kernel.Skeleton
import proofs.«176160_j34325378630297_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
  The proof data of the kernel program as printed's one region, at any float instance: the arrays as the
  region finds them after the host lines before it, each window's block at a grid point, and what the
  body leaves in the output block.

  What each grid point leaves: the output block of point t is the product of the edge-invariant block
  (6400 rows × 64) with the 64 × 576 weight matrix, multiplied entry by entry with the 6400 × 18 block of
  spherical harmonics repeated 32 times along the columns.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch memory after the four stretches of host
    lines before it. -/
abbrev V0 (c : Dev nD) : Valuation τ sig (Elt F) :=
  StableHlo.after (List.flatten [hostOps0, hostOps0_1, hostOps0_2, hostOps0_3]) (fun b => m (c, b))
/-- The same, read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 6400 × 576 rectangle of the output block. -/
abbrev r0_3 : Rect S6400x576 := Rect.unit (s := S6400x576) ![0, 0] S6400x576.size inb_S6400x576_S6400x576_0_0

/-- What the body leaves in the output block from the three input blocks (rows of invariants, rows of
    harmonics, the weight matrix): its one store, of the body's one payload. -/
def out0_3 (x0 : Vec F S6400x64 .f32) (x1 : Vec F S6400x18 .f32) (x2 : Vec F S64x576 .f32) : Vec F S6400x576 .f32 :=
  View.canon [⟨r0_3, k0_pay1 x0 x2 x1⟩]

/-- The proof data of the one pipeline on core `c`: the arrays as the region finds them; after the body at point `t`
    each input buffer at its block and the output buffer at `out0_3` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

end Cert.Kernel.Hand

end
-- ==== Proof.FrameHostK.lean ====
import proofs.«176160_j34325378630297_2_alg».proof.Proof.FrameDataK

/-!
  The host lines of the kernel program as printed around its one region, at any float instance: they allocate
  nothing, the program is the lines before the region, the region, and the reshape after it; no line writes an
  argument array, and the reshape writes no array the region stages.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines allocate nothing -/

set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-! ## No host line writes an argument array -/

/-- The six argument arrays. -/
abbrev argRefs : List (Ref sig .tc) := [main_arg0, main_arg1, main_arg2, main_arg3, main_arg4, main_arg5]

/-- Every buffer the operation writes is a reference that is no argument array. -/
def WritesNoArg (op : HloOp τ sig (Elt F)) : Prop :=
  ∀ b ∈ op.writes, ∃ y : Ref sig .tc, y ∉ argRefs ∧ b = Proc.devRef (τ := τ) .tc y

set_option maxHeartbeats 4000000 in
/-- Each line of the stretch writes its own result buffer only, and that is no argument array. -/
theorem hostOps0_noArg : ∀ op ∈ (hostOps0 : List (HloOp τ sig (Elt F))), WritesNoArg op :=
  List.forall_iff_forall_mem.mp (by
    simp only [hostOps0, WritesNoArg, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton, forall_eq]
    repeat' apply And.intro
    all_goals exact ⟨_, by decide, rfl⟩)
set_option maxHeartbeats 4000000 in
/-- Each line of the stretch writes its own result buffer only, and that is no argument array. -/
theorem hostOps0_1_noArg : ∀ op ∈ (hostOps0_1 : List (HloOp τ sig (Elt F))), WritesNoArg op :=
  List.forall_iff_forall_mem.mp (by
    simp only [hostOps0_1, WritesNoArg, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton, forall_eq]
    repeat' apply And.intro
    all_goals exact ⟨_, by decide, rfl⟩)
set_option maxHeartbeats 4000000 in
/-- Each line of the stretch writes its own result buffer only, and that is no argument array. -/
theorem hostOps0_2_noArg : ∀ op ∈ (hostOps0_2 : List (HloOp τ sig (Elt F))), WritesNoArg op :=
  List.forall_iff_forall_mem.mp (by
    simp only [hostOps0_2, WritesNoArg, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton, forall_eq]
    repeat' apply And.intro
    all_goals exact ⟨_, by decide, rfl⟩)
set_option maxHeartbeats 4000000 in
/-- Each line of the stretch writes its own result buffer only, and that is no argument array. -/
theorem hostOps0_3_noArg : ∀ op ∈ (hostOps0_3 : List (HloOp τ sig (Elt F))), WritesNoArg op :=
  List.forall_iff_forall_mem.mp (by
    simp only [hostOps0_3, WritesNoArg, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton, forall_eq]
    repeat' apply And.intro
    all_goals exact ⟨_, by decide, rfl⟩)
set_option maxHeartbeats 4000000 in
/-- Each line of the stretch writes its own result buffer only, and that is no argument array. -/
theorem hostOps1_noArg : ∀ op ∈ (hostOps1 : List (HloOp τ sig (Elt F))), WritesNoArg op :=
  List.forall_iff_forall_mem.mp (by
    simp only [hostOps1, WritesNoArg, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton, forall_eq]
    repeat' apply And.intro
    all_goals exact ⟨_, by decide, rfl⟩)

/-- An argument array keeps its contents through lines none of which writes an argument array. -/
theorem after_arg (ops : List (HloOp τ sig (Elt F))) (h : ∀ op ∈ ops, WritesNoArg op) (V : Valuation τ sig (Elt F))
    {r : Ref sig .tc} (hr : r ∈ argRefs) :
    StableHlo.after ops V (Proc.devRef .tc r) = V (Proc.devRef .tc r) :=
  StableHlo.after_of_forall_not_mem (b := Proc.devRef .tc r) ops V fun op hop hb => by
    obtain ⟨y, hy, e⟩ := h op hop _ hb
    exact hy (Proc.devRef_injective _ e ▸ hr)

/-- The lines before the region, all four stretches. -/
theorem pre_noArg : ∀ op ∈ (List.flatten [hostOps0, hostOps0_1, hostOps0_2, hostOps0_3] : List (HloOp τ sig (Elt F))), WritesNoArg op := by
  intro op hop
  rw [List.flatten_cons, List.flatten_cons, List.flatten_cons, List.flatten_cons, List.flatten_nil, List.append_nil,
    List.mem_append, List.mem_append, List.mem_append] at hop
  rcases hop with h | h | h | h
  · exact hostOps0_noArg op h
  · exact hostOps0_1_noArg op h
  · exact hostOps0_2_noArg op h
  · exact hostOps0_3_noArg op h

/-- The region finds every argument array as launched. -/
theorem V_arg (c : Dev nD) {r : Ref sig .tc} (hr : r ∈ argRefs) : V m c r = m ((c : Thread nD τ).loc r) :=
  after_arg _ pre_noArg _ hr

theorem V_main_arg0 (c : Dev nD) : V m c main_arg0 = m ((c : Thread nD τ).loc main_arg0) := V_arg m c (by decide)
theorem V_main_arg1 (c : Dev nD) : V m c main_arg1 = m ((c : Thread nD τ).loc main_arg1) := V_arg m c (by decide)
theorem V_main_arg2 (c : Dev nD) : V m c main_arg2 = m ((c : Thread nD τ).loc main_arg2) := V_arg m c (by decide)
theorem V_main_arg3 (c : Dev nD) : V m c main_arg3 = m ((c : Thread nD τ).loc main_arg3) := V_arg m c (by decide)
theorem V_main_arg4 (c : Dev nD) : V m c main_arg4 = m ((c : Thread nD τ).loc main_arg4) := V_arg m c (by decide)
theorem V_main_arg5 (c : Dev nD) : V m c main_arg5 = m ((c : Thread nD τ).loc main_arg5) := V_arg m c (by decide)

/-! ## The program around its region -/

/-- The program is the four stretches of host lines, the region, and the reshape: it reduces to the region continued
    by the reshape, entered at the contents the four stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The reshape touches unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array the region stages (it writes its own result buffer, which is none of the four). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

end Cert.Kernel.Hand

end
-- ==== Proof.FrameBodyK.lean ====
import proofs.«176160_j34325378630297_2_alg».proof.Proof.FrameDataK
import Idealize.ShloMosaic.Lib.Pipeline.Value

/-!
  The body of the kernel program as printed's one region, at any float instance: at every grid point the three input
  buffers hold their blocks, and the body leaves them in place and leaves in the output buffer the one payload
  it stores over the whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input buffers at a grid point -/

/-- Each input's current staging buffer holds its block at every point, fetched there or not: where it is not
    fetched its block index has not moved, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body's triple -/

/-- The one store is over the whole output block, so it covers it. -/
theorem cover0_3 (p0 : Vec F S6400x576 .f32) (y : S6400x576.Idx) :
    ∃ pc ∈ ([⟨r0_3, p0⟩] : List (View.Piece (Elt F) S6400x576 .f32)), y ∈ pc.1.set :=
  View.cover_of_tiled [⟨r0_3, p0⟩] S6400x576.size (by rfl) y

/-- The offsets of every access of the body are zero. -/
theorem hz2 : (![0, 0] : Fin 2 → Nat) = fun _ => 0 := funext fun a => by fin_cases a <;> rfl

set_option maxHeartbeats 2000000 in
/-- The body on whole staging buffers, the inputs' at contents `x0`, `x1`, `x2` and the output's at anything, runs to
    the continuation holding the inputs' as they were and the output's at `out0_3` of them: every load is of a whole
    buffer and reads its contents, the load of the output buffer is not used, and the one store covers the block. -/
theorem sound_kernel (c : Dev nD) (E : Set ℕ) (i : grid0.Coords) (arg1 : Memref sig .tc .vmem S6400x64 .f32) (harg1 : arg1.IsWhole) (arg2 : Memref sig .tc .vmem S6400x18 .f32) (harg2 : arg2.IsWhole) (arg3 : Memref sig .tc .vmem S64x576 .f32) (harg3 : arg3.IsWhole) (arg4 : Memref sig .tc .vmem S6400x576 .f32) (harg4 : arg4.IsWhole)
    (x0 : Vec F S6400x64 .f32) (x1 : Vec F S6400x18 .f32) (x2 : Vec F S64x576 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__tensor_embed_kernel i arg1 harg1 arg2 harg2 arg3 harg3 arg4 harg4) K := by
  simp only [cc0__tensor_embed_kernel_eq_skeleton]; unfold cc0__tensor_embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover0_3 _)]
  unfold out0_3
  simp only [View.readAt_eq_ld, View.ld_unit_zero (S := S6400x64) hz2, View.ld_unit_zero (S := S64x576) hz2,
    View.ld_unit_zero (S := S6400x18) hz2]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the region's invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.FrameK.lean ====
import proofs.«176160_j34325378630297_2_alg».proof.Proof.FrameDataK
import proofs.«176160_j34325378630297_2_alg».proof.Proof.FrameHostK
import proofs.«176160_j34325378630297_2_alg».proof.Proof.FrameBodyK

/-!
  The frame of the kernel program as printed, at any float instance: the host lines before the one region,
  the region run block by block, the reshape after it; every weakly fair execution ends, nothing faults,
  and the six argument arrays end as launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The reshape after the region writes no argument array. -/
theorem tail_noArg : ∀ op ∈ (List.flatten [hostOps1] : List (HloOp τ sig (Elt F))), WritesNoArg op := by
  intro op hop
  rw [List.flatten_cons, List.flatten_nil, List.append_nil] at hop
  exact hostOps1_noArg op hop

/-- An argument array the region does not stage ends as launched: the reshape does not write it, the region passes it
    by, and no line before the region writes it. -/
theorem W_arg (c : Dev nD) {r : Ref sig .tc} (hr : r ∈ argRefs) (hne : ∀ w, Pipeline.arrRef spec0 w ≠ r) :
    Pipeline.afterTail₀ cfgs (dats m) 0 (V0 m) [hostOps1] c r = m ((c : Thread nD τ).loc r) := by
  unfold Pipeline.afterTail₀
  rw [after_arg _ tail_noArg _ hr, Pipeline.withArrays_of_ne (cfgs 0).spec c (V0 m c) _ r hne]
  exact V_arg m c hr

/-- No host line before or after the region writes an argument array: each ends as launched. -/
theorem W_main_arg0 (c : Dev nD) : Pipeline.afterTail₀ cfgs (dats m) 0 (V0 m) [hostOps1] c main_arg0 = m ((c : Thread nD τ).loc main_arg0) := W_arg m c (by decide) (by decide)
theorem W_main_arg1 (c : Dev nD) : Pipeline.afterTail₀ cfgs (dats m) 0 (V0 m) [hostOps1] c main_arg1 = m ((c : Thread nD τ).loc main_arg1) := W_arg m c (by decide) (by decide)
theorem W_main_arg2 (c : Dev nD) : Pipeline.afterTail₀ cfgs (dats m) 0 (V0 m) [hostOps1] c main_arg2 = m ((c : Thread nD τ).loc main_arg2) := W_arg m c (by decide) (by decide)
theorem W_main_arg3 (c : Dev nD) : Pipeline.afterTail₀ cfgs (dats m) 0 (V0 m) [hostOps1] c main_arg3 = m ((c : Thread nD τ).loc main_arg3) := W_arg m c (by decide) (by decide)
/-- The fifth argument array is the first window's: the region only reads it, so it leaves the region as it entered. -/
theorem W_main_arg4 (c : Dev nD) : Pipeline.afterTail₀ cfgs (dats m) 0 (V0 m) [hostOps1] c main_arg4 = m ((c : Thread nD τ).loc main_arg4) := by
  unfold Pipeline.afterTail₀
  rw [after_arg _ tail_noArg _ (by decide)]
  exact (Pipeline.withArrays_arr (cfgs 0).spec launch0.win.arr_inj c (V0 m c) _ 0).trans
    (((dats m 0 c).arrAt_in 0 rfl _).trans ((A_eq m c 0).trans (V_main_arg4 m c)))
theorem W_main_arg5 (c : Dev nD) : Pipeline.afterTail₀ cfgs (dats m) 0 (V0 m) [hostOps1] c main_arg5 = m ((c : Thread nD τ).loc main_arg5) := W_arg m c (by decide) (by decide)

/-- The program runs to the end, faults nowhere, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).1 0).trans (((dats m 0 c).arrAt_in 0 rfl _).trans ((A_eq m c 0).trans (V_main_arg4 m c))),
      ((h c).2 main_arg5 (Pipeline.mem_restRefs_of main_arg5 (by decide) (by decide))).trans (W_main_arg5 m c)⟩) (run_main m ρ)

end Cert.Kernel.Hand

end
-- ==== Proof.FrameDataKI.lean ====
import proofs.«176160_j34325378630297_2_alg».proof.Proof.Gen.KernelIdeal.Launch
import proofs.«176160_j34325378630297_2_alg».proof.Proof.Gen.KernelIdeal.Skeleton
import proofs.«176160_j34325378630297_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
  The proof data of the idealized kernel program's one region, at any float instance: the arrays as the
  region finds them after the host lines before it, each window's block at a grid point, and what the
  body leaves in the output block.

  What each grid point leaves: the output block of point t is the product of the edge-invariant block
  (6400 rows × 64) with the 64 × 576 weight matrix, multiplied entry by entry with the 6400 × 18 block of
  spherical harmonics repeated 32 times along the columns.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch memory after the four stretches of host
    lines before it. -/
abbrev V0 (c : Dev nD) : Valuation τ sig (Elt F) :=
  StableHlo.after (List.flatten [hostOps0, hostOps0_1, hostOps0_2, hostOps0_3]) (fun b => m (c, b))
/-- The same, read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 6400 × 576 rectangle of the output block. -/
abbrev r0_3 : Rect S6400x576 := Rect.unit (s := S6400x576) ![0, 0] S6400x576.size inb_S6400x576_S6400x576_0_0

/-- What the body leaves in the output block from the three input blocks (rows of invariants, rows of
    harmonics, the weight matrix): its one store, of the body's one payload. -/
def out0_3 (x0 : Vec F S6400x64 .f32) (x1 : Vec F S6400x18 .f32) (x2 : Vec F S64x576 .f32) : Vec F S6400x576 .f32 :=
  View.canon [⟨r0_3, k0_pay1 x0 x2 x1⟩]

/-- The proof data of the one pipeline on core `c`: the arrays as the region finds them; after the body at point `t`
    each input buffer at its block and the output buffer at `out0_3` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

end Cert.KernelIdeal.Hand

end
-- ==== Proof.FrameHostKI.lean ====
import proofs.«176160_j34325378630297_2_alg».proof.Proof.FrameDataKI

/-!
  The host lines of the idealized kernel program around its one region, at any float instance: they allocate
  nothing, the program is the lines before the region, the region, and the reshape after it; no line writes an
  argument array, and the reshape writes no array the region stages.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines allocate nothing -/

set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-! ## No host line writes an argument array -/

/-- The six argument arrays. -/
abbrev argRefs : List (Ref sig .tc) := [main_arg0, main_arg1, main_arg2, main_arg3, main_arg4, main_arg5]

/-- Every buffer the operation writes is a reference that is no argument array. -/
def WritesNoArg (op : HloOp τ sig (Elt F)) : Prop :=
  ∀ b ∈ op.writes, ∃ y : Ref sig .tc, y ∉ argRefs ∧ b = Proc.devRef (τ := τ) .tc y

set_option maxHeartbeats 4000000 in
/-- Each line of the stretch writes its own result buffer only, and that is no argument array. -/
theorem hostOps0_noArg : ∀ op ∈ (hostOps0 : List (HloOp τ sig (Elt F))), WritesNoArg op :=
  List.forall_iff_forall_mem.mp (by
    simp only [hostOps0, WritesNoArg, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton, forall_eq]
    repeat' apply And.intro
    all_goals exact ⟨_, by decide, rfl⟩)
set_option maxHeartbeats 4000000 in
/-- Each line of the stretch writes its own result buffer only, and that is no argument array. -/
theorem hostOps0_1_noArg : ∀ op ∈ (hostOps0_1 : List (HloOp τ sig (Elt F))), WritesNoArg op :=
  List.forall_iff_forall_mem.mp (by
    simp only [hostOps0_1, WritesNoArg, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton, forall_eq]
    repeat' apply And.intro
    all_goals exact ⟨_, by decide, rfl⟩)
set_option maxHeartbeats 4000000 in
/-- Each line of the stretch writes its own result buffer only, and that is no argument array. -/
theorem hostOps0_2_noArg : ∀ op ∈ (hostOps0_2 : List (HloOp τ sig (Elt F))), WritesNoArg op :=
  List.forall_iff_forall_mem.mp (by
    simp only [hostOps0_2, WritesNoArg, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton, forall_eq]
    repeat' apply And.intro
    all_goals exact ⟨_, by decide, rfl⟩)
set_option maxHeartbeats 4000000 in
/-- Each line of the stretch writes its own result buffer only, and that is no argument array. -/
theorem hostOps0_3_noArg : ∀ op ∈ (hostOps0_3 : List (HloOp τ sig (Elt F))), WritesNoArg op :=
  List.forall_iff_forall_mem.mp (by
    simp only [hostOps0_3, WritesNoArg, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton, forall_eq]
    repeat' apply And.intro
    all_goals exact ⟨_, by decide, rfl⟩)
set_option maxHeartbeats 4000000 in
/-- Each line of the stretch writes its own result buffer only, and that is no argument array. -/
theorem hostOps1_noArg : ∀ op ∈ (hostOps1 : List (HloOp τ sig (Elt F))), WritesNoArg op :=
  List.forall_iff_forall_mem.mp (by
    simp only [hostOps1, WritesNoArg, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton, forall_eq]
    repeat' apply And.intro
    all_goals exact ⟨_, by decide, rfl⟩)

/-- An argument array keeps its contents through lines none of which writes an argument array. -/
theorem after_arg (ops : List (HloOp τ sig (Elt F))) (h : ∀ op ∈ ops, WritesNoArg op) (V : Valuation τ sig (Elt F))
    {r : Ref sig .tc} (hr : r ∈ argRefs) :
    StableHlo.after ops V (Proc.devRef .tc r) = V (Proc.devRef .tc r) :=
  StableHlo.after_of_forall_not_mem (b := Proc.devRef .tc r) ops V fun op hop hb => by
    obtain ⟨y, hy, e⟩ := h op hop _ hb
    exact hy (Proc.devRef_injective _ e ▸ hr)

/-- The lines before the region, all four stretches. -/
theorem pre_noArg : ∀ op ∈ (List.flatten [hostOps0, hostOps0_1, hostOps0_2, hostOps0_3] : List (HloOp τ sig (Elt F))), WritesNoArg op := by
  intro op hop
  rw [List.flatten_cons, List.flatten_cons, List.flatten_cons, List.flatten_cons, List.flatten_nil, List.append_nil,
    List.mem_append, List.mem_append, List.mem_append] at hop
  rcases hop with h | h | h | h
  · exact hostOps0_noArg op h
  · exact hostOps0_1_noArg op h
  · exact hostOps0_2_noArg op h
  · exact hostOps0_3_noArg op h

/-- The region finds every argument array as launched. -/
theorem V_arg (c : Dev nD) {r : Ref sig .tc} (hr : r ∈ argRefs) : V m c r = m ((c : Thread nD τ).loc r) :=
  after_arg _ pre_noArg _ hr

theorem V_main_arg0 (c : Dev nD) : V m c main_arg0 = m ((c : Thread nD τ).loc main_arg0) := V_arg m c (by decide)
theorem V_main_arg1 (c : Dev nD) : V m c main_arg1 = m ((c : Thread nD τ).loc main_arg1) := V_arg m c (by decide)
theorem V_main_arg2 (c : Dev nD) : V m c main_arg2 = m ((c : Thread nD τ).loc main_arg2) := V_arg m c (by decide)
theorem V_main_arg3 (c : Dev nD) : V m c main_arg3 = m ((c : Thread nD τ).loc main_arg3) := V_arg m c (by decide)
theorem V_main_arg4 (c : Dev nD) : V m c main_arg4 = m ((c : Thread nD τ).loc main_arg4) := V_arg m c (by decide)
theorem V_main_arg5 (c : Dev nD) : V m c main_arg5 = m ((c : Thread nD τ).loc main_arg5) := V_arg m c (by decide)

/-! ## The program around its region -/

/-- The program is the four stretches of host lines, the region, and the reshape: it reduces to the region continued
    by the reshape, entered at the contents the four stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The reshape touches unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array the region stages (it writes its own result buffer, which is none of the four). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

end Cert.KernelIdeal.Hand

end
-- ==== Proof.FrameBodyKI.lean ====
import proofs.«176160_j34325378630297_2_alg».proof.Proof.FrameDataKI
import Idealize.ShloMosaic.Lib.Pipeline.Value

/-!
  The body of the idealized kernel program's one region, at any float instance: at every grid point the three input
  buffers hold their blocks, and the body leaves them in place and leaves in the output buffer the one payload
  it stores over the whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input buffers at a grid point -/

/-- Each input's current staging buffer holds its block at every point, fetched there or not: where it is not
    fetched its block index has not moved, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body's triple -/

/-- The one store is over the whole output block, so it covers it. -/
theorem cover0_3 (p0 : Vec F S6400x576 .f32) (y : S6400x576.Idx) :
    ∃ pc ∈ ([⟨r0_3, p0⟩] : List (View.Piece (Elt F) S6400x576 .f32)), y ∈ pc.1.set :=
  View.cover_of_tiled [⟨r0_3, p0⟩] S6400x576.size (by rfl) y

/-- The offsets of every access of the body are zero. -/
theorem hz2 : (![0, 0] : Fin 2 → Nat) = fun _ => 0 := funext fun a => by fin_cases a <;> rfl

set_option maxHeartbeats 2000000 in
/-- The body on whole staging buffers, the inputs' at contents `x0`, `x1`, `x2` and the output's at anything, runs to
    the continuation holding the inputs' as they were and the output's at `out0_3` of them: every load is of a whole
    buffer and reads its contents, the load of the output buffer is not used, and the one store covers the block. -/
theorem sound_kernel (c : Dev nD) (E : Set ℕ) (i : grid0.Coords) (arg1 : Memref sig .tc .vmem S6400x64 .f32) (harg1 : arg1.IsWhole) (arg2 : Memref sig .tc .vmem S6400x18 .f32) (harg2 : arg2.IsWhole) (arg3 : Memref sig .tc .vmem S64x576 .f32) (harg3 : arg3.IsWhole) (arg4 : Memref sig .tc .vmem S6400x576 .f32) (harg4 : arg4.IsWhole)
    (x0 : Vec F S6400x64 .f32) (x1 : Vec F S6400x18 .f32) (x2 : Vec F S64x576 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__tensor_embed_kernel i arg1 harg1 arg2 harg2 arg3 harg3 arg4 harg4) K := by
  simp only [cc0__tensor_embed_kernel_eq_skeleton]; unfold cc0__tensor_embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover0_3 _)]
  unfold out0_3
  simp only [View.readAt_eq_ld, View.ld_unit_zero (S := S6400x64) hz2, View.ld_unit_zero (S := S64x576) hz2,
    View.ld_unit_zero (S := S6400x18) hz2]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the region's invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameKI.lean ====
import proofs.«176160_j34325378630297_2_alg».proof.Proof.FrameDataKI
import proofs.«176160_j34325378630297_2_alg».proof.Proof.FrameHostKI
import proofs.«176160_j34325378630297_2_alg».proof.Proof.FrameBodyKI

/-!
  The frame of the idealized kernel program, at any float instance: the host lines before the one region,
  the region run block by block, the reshape after it; every weakly fair execution ends, nothing faults,
  and the six argument arrays end as launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The reshape after the region writes no argument array. -/
theorem tail_noArg : ∀ op ∈ (List.flatten [hostOps1] : List (HloOp τ sig (Elt F))), WritesNoArg op := by
  intro op hop
  rw [List.flatten_cons, List.flatten_nil, List.append_nil] at hop
  exact hostOps1_noArg op hop

/-- An argument array the region does not stage ends as launched: the reshape does not write it, the region passes it
    by, and no line before the region writes it. -/
theorem W_arg (c : Dev nD) {r : Ref sig .tc} (hr : r ∈ argRefs) (hne : ∀ w, Pipeline.arrRef spec0 w ≠ r) :
    Pipeline.afterTail₀ cfgs (dats m) 0 (V0 m) [hostOps1] c r = m ((c : Thread nD τ).loc r) := by
  unfold Pipeline.afterTail₀
  rw [after_arg _ tail_noArg _ hr, Pipeline.withArrays_of_ne (cfgs 0).spec c (V0 m c) _ r hne]
  exact V_arg m c hr

/-- No host line before or after the region writes an argument array: each ends as launched. -/
theorem W_main_arg0 (c : Dev nD) : Pipeline.afterTail₀ cfgs (dats m) 0 (V0 m) [hostOps1] c main_arg0 = m ((c : Thread nD τ).loc main_arg0) := W_arg m c (by decide) (by decide)
theorem W_main_arg1 (c : Dev nD) : Pipeline.afterTail₀ cfgs (dats m) 0 (V0 m) [hostOps1] c main_arg1 = m ((c : Thread nD τ).loc main_arg1) := W_arg m c (by decide) (by decide)
theorem W_main_arg2 (c : Dev nD) : Pipeline.afterTail₀ cfgs (dats m) 0 (V0 m) [hostOps1] c main_arg2 = m ((c : Thread nD τ).loc main_arg2) := W_arg m c (by decide) (by decide)
theorem W_main_arg3 (c : Dev nD) : Pipeline.afterTail₀ cfgs (dats m) 0 (V0 m) [hostOps1] c main_arg3 = m ((c : Thread nD τ).loc main_arg3) := W_arg m c (by decide) (by decide)
/-- The fifth argument array is the first window's: the region only reads it, so it leaves the region as it entered. -/
theorem W_main_arg4 (c : Dev nD) : Pipeline.afterTail₀ cfgs (dats m) 0 (V0 m) [hostOps1] c main_arg4 = m ((c : Thread nD τ).loc main_arg4) := by
  unfold Pipeline.afterTail₀
  rw [after_arg _ tail_noArg _ (by decide)]
  exact (Pipeline.withArrays_arr (cfgs 0).spec launch0.win.arr_inj c (V0 m c) _ 0).trans
    (((dats m 0 c).arrAt_in 0 rfl _).trans ((A_eq m c 0).trans (V_main_arg4 m c)))
theorem W_main_arg5 (c : Dev nD) : Pipeline.afterTail₀ cfgs (dats m) 0 (V0 m) [hostOps1] c main_arg5 = m ((c : Thread nD τ).loc main_arg5) := W_arg m c (by decide) (by decide)

/-- The program runs to the end, faults nowhere, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).1 0).trans (((dats m 0 c).arrAt_in 0 rfl _).trans ((A_eq m c 0).trans (V_main_arg4 m c))),
      ((h c).2 main_arg5 (Pipeline.mem_restRefs_of main_arg5 (by decide) (by decide))).trans (W_main_arg5 m c)⟩) (run_main m ρ)

end Cert.KernelIdeal.Hand

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.Payload.lean ====
import proofs.«176160_j34325378630297_2_alg».proof.Proof.Gen.KernelIdeal.Skeleton
import proofs.«176160_j34325378630297_2_alg».proof.Proof.LibMatmulNN
import Idealize.ShloMosaic.Lib.Pipeline.Value
import Idealize.ShloMosaic.Lib.ValueIdx
import Idealize.ShloMosaic.PureOps.Ideal.Laws

/-!
  The body's one stored value, read at an entry, on the extended reals.

  With X the 6400 × 64 block of edge invariants, Wc the 64 × 576 weight matrix and S the 6400 × 18 block of
  spherical harmonics, the stored block at row p and column q is
      (∑ k, X(p, k) · Wc(k, q)) · S(p, q mod 18):
  a matrix product into the zero matrix, times S laid 32 times side by side.
-/

noncomputable section

namespace Cert.KernelIdeal.Hand

open Cert.KernelIdeal Cert.KernelIdeal.Gen
open Idealize.ShloMosaic Idealize.ShloMosaic.ValueIdx

/-- The printed contraction record is the plain rows-by-columns one. -/
theorem dot_plain : dot_S6400x64_S64x576_S6400x576_1_0_0_1_n_n = DotDims.plain 6400 64 576 := rfl

/-- Thirty-two copies of a 6400 × 18 block side by side, read at column q: the block at column q mod 18. -/
theorem tile32_apply (x : FVec Ideal S6400x18 .f32)
    (h : Shape.Concatenates ((List.replicate 32 (⟨S6400x18, x⟩ : (s : Shape) × (s.Idx → EReal))).map (·.1)) S6400x576 1)
    (p : Fin 6400) (q : Fin 576) :
    concatenate S6400x576 1 (List.replicate 32 (⟨S6400x18, x⟩ : (s : Shape) × (s.Idx → EReal))) h (ix2 p q)
      = x (ix2 p (⟨q.val % 18, Nat.mod_lt _ (by decide)⟩ : Fin 18)) :=
  concatenate_replicate_apply (t := S6400x576) (s₁ := S6400x18) (1 : Fin 2) 32 x h rfl
    (j := (ix2 p q : S6400x576.Idx)) (i := (ix2 p (⟨q.val % 18, Nat.mod_lt _ (by decide)⟩ : Fin 18) : S6400x18.Idx))
    rfl (fun b hb => by
      match b with
      | ⟨0, _⟩ => rfl
      | ⟨1, _⟩ => exact absurd rfl hb)

/-- The body's stored value at row p, column q. -/
theorem pay_apply (x0 : Vec Ideal S6400x64 .f32) (x2 : Vec Ideal S64x576 .f32) (x1 : Vec Ideal S6400x18 .f32)
    (p : Fin 6400) (q : Fin 576) :
    k0_pay1 x0 x2 x1 (ix2 p q)
      = (∑ k : Fin 64, x0 (ix2 p k) * x2 (ix2 k q)) * x1 (ix2 p (⟨q.val % 18, Nat.mod_lt _ (by decide)⟩ : Fin 18)) := by
  unfold k0_pay1
  simp only [shapeCast_self]
  refine (mulf_apply _ _ (ix2 p q)).trans ?_
  refine congrArg₂ (· * ·) ?_ ?_
  · exact MatmulNN.matmul_zero_apply (φ₁ := .f32) (φ₂ := .f32) none x0 x2 p q
  · exact (tile32_apply (shapeCast S6400x18 x1 shapeCasts_S6400x18_S6400x18) _ p q).trans
      (congrFun (shapeCast_self x1 shapeCasts_S6400x18_S6400x18) _)

end Cert.KernelIdeal.Hand

end
-- ==== Proof.KernelValue.lean ====
import proofs.«176160_j34325378630297_2_alg».proof.Proof.FrameDataKI
import proofs.«176160_j34325378630297_2_alg».proof.Proof.Payload
import Idealize.ShloMosaic.Lib.Pipeline.Value

/-!
  The region's output array after the run, on the extended reals, as ONE function of the three arrays the region reads.

  With A the 320000 × 64 array of edge invariants, S the 320000 × 18 array of spherical harmonics and Wc the 64 × 576
  weight matrix, the output array holds at row e and column q
      (∑ k, A(e, k) · Wc(k, q)) · S(e, q mod 18).
  Grid point t writes rows 6400·t … 6400·t + 6399: its blocks of A and S are those rows, its block of Wc is all of Wc,
  and the fifty blocks of rows cover the array.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The region's whole output as a function of the arrays it reads. -/
def Gout (A : S320000x64.Idx → EReal) (S : S320000x18.Idx → EReal) (Wc : S64x576.Idx → EReal) : S320000x576.Idx → EReal :=
  fun i => (∑ k : Fin 64, A (ix2 (⟨(i 0).val, idx2_lt0 i⟩ : Fin 320000) k) * Wc (ix2 k (⟨(i 1).val, idx2_lt1 i⟩ : Fin 576)))
    * S (ix2 (⟨(i 0).val, idx2_lt0 i⟩ : Fin 320000) (⟨(i 1).val % 18, Nat.mod_lt _ (by decide)⟩ : Fin 18))

/-- An entry of `Gout` from the entries of the three arrays it reads, named by their own indices. -/
theorem block_entry (A : S320000x64.Idx → EReal) (S : S320000x18.Idx → EReal) (Wc : S64x576.Idx → EReal)
    (i : S320000x576.Idx) (i0 : Fin 64 → S320000x64.Idx) (i2 : Fin 64 → S64x576.Idx) (i1 : S320000x18.Idx)
    (h0 : ∀ k : Fin 64, i0 k = ix2 (⟨(i 0).val, idx2_lt0 i⟩ : Fin 320000) k)
    (h2 : ∀ k : Fin 64, i2 k = ix2 k (⟨(i 1).val, idx2_lt1 i⟩ : Fin 576))
    (h1 : i1 = ix2 (⟨(i 0).val, idx2_lt0 i⟩ : Fin 320000) (⟨(i 1).val % 18, Nat.mod_lt _ (by decide)⟩ : Fin 18)) :
    (∑ k : Fin 64, A (i0 k) * Wc (i2 k)) * S i1 = Gout A S Wc i := by
  unfold Gout
  refine congrArg₂ (· * ·) (Finset.sum_congr rfl fun k _ => ?_) ?_
  · rw [h0 k, h2 k]
  · rw [h1]

theorem hz : (![0, 0] : Fin 2 → Nat) = fun _ => 0 := funext fun a => by fin_cases a <;> rfl

/-- The block indices at grid point t: the row windows sit at block t, every column index is 0, the weight
    matrix's block is the whole of it. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point t writes back is block t of `Gout` of the arrays as the region finds them. -/
theorem flushed3_eq (c : Dev nD) (t : Fin cfg0.N) :
    (dats m 0 c).flushed 3 t
      = ((cfg0.win 3).blk t).view.read (Elt Ideal) (Gout (V m c main_arg4) (V m c main_v126) (V m c main_v127)) := by
  show (cfg0.win 3).cut (grid0.coords t) ((dats m 0 c).after 3 t) = _
  rw [after0_3]
  unfold out0_3
  rw [View.canon_unit_zero hz]
  obtain ⟨e00, e01, e10, e11, e20, e21, e30, e31⟩ := idx_facts t
  funext j
  obtain ⟨p, q, rfl⟩ : ∃ (p : Fin 6400) (q : Fin 576), j = ix2 p q := ⟨j 0, j 1, eq_ix2 j⟩
  refine (pay_apply (iblk m c 0 t) (iblk m c 2 t) (iblk m c 1 t) p q).trans ?_
  have h0 : ∀ k : Fin 64, ((cfg0.win 0).blk t).view.emb (ix2 p k)
      = ix2 (⟨((((cfg0.win 3).blk t).view.emb (ix2 p q)) 0).val, idx2_lt0 _⟩ : Fin 320000) k := by
    intro k; funext a; apply Fin.ext
    match a with
    | ⟨0, _⟩ => show win0_0.index t (0 : Fin 2) * 6400 + 1 * p.val = win0_3.index t (0 : Fin 2) * 6400 + 1 * p.val; omega
    | ⟨1, _⟩ => show win0_0.index t (1 : Fin 2) * 64 + 1 * k.val = k.val; omega
  have h2 : ∀ k : Fin 64, ((cfg0.win 2).blk t).view.emb (ix2 k q)
      = ix2 k (⟨((((cfg0.win 3).blk t).view.emb (ix2 p q)) 1).val, idx2_lt1 _⟩ : Fin 576) := by
    intro k; funext a; apply Fin.ext
    match a with
    | ⟨0, _⟩ => show win0_2.index t (0 : Fin 2) * 64 + 1 * k.val = k.val; omega
    | ⟨1, _⟩ => show win0_2.index t (1 : Fin 2) * 576 + 1 * q.val = win0_3.index t (1 : Fin 2) * 576 + 1 * q.val; omega
  have h1 : ((cfg0.win 1).blk t).view.emb (ix2 p (⟨q.val % 18, Nat.mod_lt _ (by decide)⟩ : Fin 18))
      = ix2 (⟨((((cfg0.win 3).blk t).view.emb (ix2 p q)) 0).val, idx2_lt0 _⟩ : Fin 320000)
          (⟨((((cfg0.win 3).blk t).view.emb (ix2 p q)) 1).val % 18, Nat.mod_lt _ (by decide)⟩ : Fin 18) := by
    funext a; apply Fin.ext
    match a with
    | ⟨0, _⟩ => show win0_1.index t (0 : Fin 2) * 6400 + 1 * p.val = win0_3.index t (0 : Fin 2) * 6400 + 1 * p.val; omega
    | ⟨1, _⟩ =>
      show win0_1.index t (1 : Fin 2) * 18 + 1 * (q.val % 18) = (win0_3.index t (1 : Fin 2) * 576 + 1 * q.val) % 18
      omega
  exact block_entry (V m c main_arg4) (V m c main_v126) (V m c main_v127) (((cfg0.win 3).blk t).view.emb (ix2 p q))
    (fun k => ((cfg0.win 0).blk t).view.emb (ix2 p k)) (fun k => ((cfg0.win 2).blk t).view.emb (ix2 k q))
    (((cfg0.win 1).blk t).view.emb (ix2 p (⟨q.val % 18, Nat.mod_lt _ (by decide)⟩ : Fin 18))) h0 h2 h1

/-- An index of the output array is in point t's block iff each coordinate is in the block's range on its axis. -/
theorem mem_blk3 (t : Fin cfg0.N) (i : S320000x576.Idx) :
    i ∈ ((cfg0.win 3).blk t).view.set ↔ ∀ a : Fin 2, win0_3.index t a * S6400x576.size a ≤ (i a).val
      ∧ (i a).val < win0_3.index t a * S6400x576.size a + S6400x576.size a := by
  show i ∈ ((View.whole main_v128).slice (win0_3.rect t)).set ↔ _
  rw [View.set_slice_whole, Rect.mem_set_unit]
  exact Iff.rfl

/-- Every block of rows is some grid point's. -/
theorem idx_onto3 : ∀ q0 : Fin 50, ∃ t : Fin cfg0.N, win0_3.index t = ![q0.val, 0] :=
  (by decide +kernel : ∀ q0 : Fin 50, ∃ t : Fin grid0.N, win0_3.index t = ![q0.val, 0])

/-- The fifty blocks of 6400 rows cover the output array. -/
theorem cover3 (i : S320000x576.Idx) :
    ∃ t : Fin cfg0.N, (cfg0.win 3).flush t = true ∧ i ∈ ((cfg0.win 3).blk t).view.set := by
  have hi0 : (i 0).val < 320000 := (i 0).isLt
  have hi1 : (i 1).val < 576 := (i 1).isLt
  obtain ⟨t, ht⟩ := idx_onto3 ⟨(i 0).val / 6400, by omega⟩
  have q0 : win0_3.index t (0 : Fin 2) = (i 0).val / 6400 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 6400 ≤ (i 0).val ∧ (i 0).val < win0_3.index t (0 : Fin 2) * 6400 + 6400; omega
  | ⟨1, _⟩ => show win0_3.index t (1 : Fin 2) * 576 ≤ (i 1).val ∧ (i 1).val < win0_3.index t (1 : Fin 2) * 576 + 576; omega

/-- The output array after the run: `Gout` of the three arrays as the region finds them. -/
theorem final3 (c : Dev nD) :
    (dats m 0 c).arrAt 3 cfg0.N = Gout (V m c main_arg4) (V m c main_v126) (V m c main_v127) :=
  (dats m 0 c).arrAt_eq_of_cover 3 _ (fun t _ => flushed3_eq m c t) cover3

end Cert.KernelIdeal.Hand

end
-- ==== Proof.KernelRun.lean ====
import proofs.«176160_j34325378630297_2_alg».proof.Proof.FrameKI
import proofs.«176160_j34325378630297_2_alg».proof.Proof.KernelValue

/-!
  The idealized kernel program's run, read: its result is the region's output array (`Gout` of the three arrays the
  region reads) with its 576 columns split into 32 features of 18 components, and its six argument arrays end as launched.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

set_option pp.proofs false in
/-- The result buffer after the reshape that follows the region. -/
theorem tail_v129 (c : Dev nD) :
    Pipeline.afterTail₀ cfgs (dats m) 0 (V0 m) [hostOps1] c main_v129
      = shapeCast S320000x32x18 (Gout (V m c main_arg4) (V m c main_v126) (V m c main_v127)) shapeCasts_S320000x576_S320000x32x18 := by
  unfold Pipeline.afterTail₀
  show StableHlo.after hostOps1 _ (Proc.devRef .tc main_v129) = _
  after_results
  have e : Pipeline.withArrays (cfgs 0).spec c (V0 m c) (fun w => (dats m 0 c).arrAt w (cfgs 0).N) (Proc.devRef .tc main_v128)
      = Gout (V m c main_arg4) (V m c main_v126) (V m c main_v127) :=
    (Pipeline.withArrays_arr spec0 launch0.win.arr_inj c _ _ 3).trans (final3 m c)
  rw [e]
  rfl

/-- The run, read: the result array is the region's output with its columns split into 32 × 18, and the six
    argument arrays end as launched. -/
theorem run : θ_run defs (onTc (τ := τ) (main (F := Ideal))) ⟨m, fun _ => 0, ρ⟩ (fun r => ∀ c : Dev nD,
      r.2.mem ((c.tc : Thread nD τ).loc main_v129)
        = shapeCast S320000x32x18 (Gout (V m c main_arg4) (V m c main_v126) (V m c main_v127)) shapeCasts_S320000x576_S320000x32x18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v129 (Pipeline.mem_restRefs_of main_v129 (by decide) (by decide))).trans (tail_v129 m c),
      ((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).1 0).trans (((dats m 0 c).arrAt_in 0 rfl _).trans ((A_eq m c 0).trans (V_main_arg4 m c))),
      ((h c).2 main_arg5 (Pipeline.mem_restRefs_of main_arg5 (by decide) (by decide))).trans (W_main_arg5 m c)⟩) (run_main m ρ)

end Cert.KernelIdeal.Hand

end
-- ==== Proof.KernelEntry.lean ====
import proofs.«176160_j34325378630297_2_alg».proof.Proof.KernelValue

/-!
  The kernel program's result read at an entry: feature m, component j of edge e is
      (∑ k, A(e, k) · Wc(k, 18·m + j)) · S(e, j),
  the region's output at row e and column 18·m + j — the reshape after the region splits the 576 columns into 32
  groups of 18 and moves nothing.
-/

set_option maxRecDepth 16384

noncomputable section

namespace Cert.KernelIdeal.Hand

open Cert.KernelIdeal Cert.KernelIdeal.Gen
open Idealize.ShloMosaic Idealize.ShloMosaic.ValueIdx

theorem result_entry (A : S320000x64.Idx → EReal) (S : S320000x18.Idx → EReal) (Wc : S64x576.Idx → EReal)
    (e : Fin 320000) (mm : Fin 32) (j : Fin 18) :
    shapeCast S320000x32x18 (Gout A S Wc) shapeCasts_S320000x576_S320000x32x18 (ix3 e mm j)
      = (∑ k : Fin 64, A (ix2 e k) * Wc (ix2 k (⟨18 * mm.val + j.val, by have := mm.isLt; have := j.isLt; omega⟩ : Fin 576)))
          * S (ix2 e j) := by
  have hq : 18 * mm.val + j.val < 576 := by have := mm.isLt; have := j.isLt; omega
  rw [shapeCast_apply (Gout A S Wc) shapeCasts_S320000x576_S320000x32x18 (ix3 e mm j) (ix2 e (⟨18 * mm.val + j.val, hq⟩ : Fin 576))
    (by rw [Shape.rowMajor_val_two, Shape.rowMajor_val_three]
        show e.val * 576 + (18 * mm.val + j.val) = (e.val * 32 + mm.val) * 18 + j.val
        omega)]
  unfold Gout
  have hj : (⟨(18 * mm.val + j.val) % 18, Nat.mod_lt _ (by decide)⟩ : Fin 18) = j := Fin.ext (by show (18 * mm.val + j.val) % 18 = j.val; have := j.isLt; omega)
  show (∑ k : Fin 64, A (ix2 e k) * Wc (ix2 k (⟨18 * mm.val + j.val, hq⟩ : Fin 576)))
      * S (ix2 e (⟨(18 * mm.val + j.val) % 18, Nat.mod_lt _ (by decide)⟩ : Fin 18)) = _
  rw [hj]

end Cert.KernelIdeal.Hand

end
-- ==== Proof.Irrep.lean ====
import Mathlib.Tactic

/-!
  The irrep of each of the 18 combined spherical-harmonic components, and the weight column each output column reads.

  Component j of the 18 belongs to irrep w(j) ∈ {0,…,5}: one component of degree 0, three of degree 1, five of
  degree 2, for the edge harmonics and again for the field harmonics. Output column c = 18·m + j of feature m reads
  column 6·m + w(j) of the 64 × 192 weight matrix.
-/

namespace Cert.Irrep

/-- The irrep of component j (j < 18). -/
def w : Nat → Nat
  | 0 => 0
  | 1 | 2 | 3 => 1
  | 4 | 5 | 6 | 7 | 8 => 2
  | 9 => 3
  | 10 | 11 | 12 => 4
  | _ => 5

/-- The weight column that output column c reads. -/
def col (c : Nat) : Nat := 6 * (c / 18) + w (c % 18)

theorem w_lt (j : Nat) : w j < 6 := by
  unfold w; split <;> omega

theorem col_lt {c : Nat} (h : c < 576) : col c < 192 := by
  have := w_lt (c % 18); unfold col; omega

/-- Column 18·m + j reads weight column 6·m + w(j). -/
theorem col_mul_add {m j : Nat} (hj : j < 18) : col (18 * m + j) = 6 * m + w j := by
  unfold col
  have h1 : (18 * m + j) / 18 = m := by omega
  have h2 : (18 * m + j) % 18 = j := by omega
  rw [h1, h2]

end Cert.Irrep
-- ==== Proof.TableK.lean ====
import proofs.«176160_j34325378630297_2_alg».proof.KernelIdeal
import proofs.«176160_j34325378630297_2_alg».proof.Proof.Irrep

/-!
  The kernel program's constant table of 576 column indices: entry c is 6·(c / 18) + w(c mod 18), the weight column
  that output column c reads.
-/

namespace Cert.KernelIdeal.Hand

open Cert.Irrep

theorem lit576 : ∀ c : Fin 576, Cert.KernelIdeal.lit0 c = BitVec.ofNat 32 (col c.val) := by decide +kernel

end Cert.KernelIdeal.Hand
-- ==== Proof.LibTakeCols.lean ====
/-
  A gather of columns, read at an index.

  The gather takes an operand `x : [C, N]` and one signed start index per result column (`idx : [R, 1]`); result column
  `r` is the operand's column at `idx r`, read signed and clamped into `[0, N − 1]`, all `C` rows of it. It is the
  mirror image of a gather of rows: gathering the columns of a transposed matrix gives the transposed gathered rows.
-/
import Idealize.ShloMosaic.Lib.ValueIdx

noncomputable section

namespace Cert.TakeCols

open Idealize.ShloMosaic Idealize.ShloMosaic.ValueIdx

variable {α : Type}

/-- The dimension numbers of a column gather: operand `[C, N]`, start indices `[R, 1]`, result `[C, R]`; the result's
    axis 0 is the offset axis (a whole column of `C` entries is taken), the operand's axis 1 is collapsed and is the axis
    the start index addresses. -/
abbrev colDims (C N R : Nat) (wf : GatherDims.WF ⟨2, ![C, N]⟩ ⟨2, ![R, 1]⟩ ⟨2, ![C, R]⟩ [0] [1] [] [1] [] 1 ![C, 1]) :
    GatherDims ⟨2, ![C, N]⟩ ⟨2, ![R, 1]⟩ ⟨2, ![C, R]⟩ where
  offsetDims := [0]
  collapsedSliceDims := [1]
  operandBatchingDims := []
  startIndicesBatchingDims := []
  startIndexMap := [1]
  indexVectorDim := 1
  sliceSizes := ![C, 1]
  wf := wf

/-- The start-indices index `[r, 0]` of result index `(c, r)`. -/
abbrev colIdx {C R : Nat} (y : (⟨2, ![C, R]⟩ : Shape).Idx) : (⟨2, ![R, 1]⟩ : Shape).Idx :=
  ix2 (⟨(y 1).val, idx2_lt1 y⟩ : Fin R) (⟨0, Nat.one_pos⟩ : Fin 1)

/-- THE GATHER READ AT `(c, r)`: row `c` of the operand's column at the start index `idx[r, 0]`, read signed and
    clamped into `[0, N − 1]`. -/
theorem gather_cols_apply {C N R w : Nat} (hN : 0 < N)
    (wf : GatherDims.WF ⟨2, ![C, N]⟩ ⟨2, ![R, 1]⟩ ⟨2, ![C, R]⟩ [0] [1] [] [1] [] 1 ![C, 1])
    (x : (⟨2, ![C, N]⟩ : Shape).Idx → α) (idx : IVec ⟨2, ![R, 1]⟩ w) (y : (⟨2, ![C, R]⟩ : Shape).Idx) :
    Host.gather (colDims C N R wf) x idx y
      = x (ix2 (⟨(y 0).val, idx2_lt0 y⟩ : Fin C) (⟨min (idx (colIdx y)).toInt.toNat (N - 1), by omega⟩ : Fin N)) := by
  unfold Host.gather
  congr 1
  funext a
  refine Fin.ext ?_
  match a with
  | ⟨0, _⟩ =>
    show (colDims C N R wf).start y idx 0 + (colDims C N R wf).batchCoord y 0 + (colDims C N R wf).offCoord y 0 = (y 0).val
    rw [GatherDims.batchCoord_eq_zero _ _ _ List.not_mem_nil]
    have hs : (colDims C N R wf).start y idx 0 = 0 := by
      unfold GatherDims.start
      rw [dif_neg (show ¬ (0 : Fin 2) ∈ (colDims C N R wf).startIndexMap from
        fun h => absurd (Fin.val_eq_of_eq (List.mem_singleton.mp h)) Nat.zero_ne_one)]
    rw [hs]
    simp only [Nat.add_zero, Nat.zero_add]
    rfl
  | ⟨1, _⟩ =>
    show (colDims C N R wf).start y idx 1 + (colDims C N R wf).batchCoord y 1 + (colDims C N R wf).offCoord y 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims C N R wf).startIndexMap from List.mem_singleton.mpr rfl)]
    have hsi : (colDims C N R wf).siIdx y ⟨List.idxOf (1 : Fin 2) (colDims C N R wf).startIndexMap,
        List.idxOf_lt_length_iff.2 (List.mem_singleton.mpr rfl)⟩ = colIdx y := by
      funext b; refine Fin.ext ?_
      match b with
      | ⟨0, _⟩ => rfl
      | ⟨1, _⟩ => rfl
    rw [hsi]
    rfl

end Cert.TakeCols

end
-- ==== Proof.TakeValue.lean ====
import proofs.«176160_j34325378630297_2_alg».proof.Proof.FrameHostKI
import proofs.«176160_j34325378630297_2_alg».proof.Proof.TableK
import proofs.«176160_j34325378630297_2_alg».proof.Proof.LibTakeCols
import Idealize.ShloMosaic.Lib.Pipeline.Value
import Idealize.ShloMosaic.PureOps.Reduce

/-!
  The weight matrix as the region finds it, read at an entry, at the ideal instance.

  The last stretch of host lines before the region is a take of columns: the constant table of 576 column indices is
  normalised (an index below zero has 192 added), laid as a 576 × 1 column, and used to gather columns of the 64 × 192
  weight matrix; a column whose index falls outside 0 … 191 would be replaced by not-a-number. Every table entry is
  in range, so nothing is replaced: column q of the 64 × 576 result is column col(q) of the weight matrix.
-/

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx

variable (m : (ℓ : Loc nD τ sig) → Buf (Elt Ideal) ℓ)

/-! ## The table's entries -/

/-- Every table entry, read as a signed word, is at least 0 and at most 191, and clamping it into 0 … 191 leaves the
    column it names. -/
theorem lit_facts : ∀ c : Fin 576,
    IntOp.cmpi .slt (lit0 c) 0#32 = 0#1 ∧ IntOp.cmpi .sge (lit0 c) 0#32 = 1#1 ∧ IntOp.cmpi .sle (lit0 c) 191#32 = 1#1
      ∧ min (lit0 c).toInt.toNat (192 - 1) = Cert.Irrep.col c.val := by decide +kernel

/-- Normalising a table entry leaves it: it is not below zero. -/
theorem norm_eq (c : Fin 576) :
    Scalar.select (IntOp.cmpi .slt (lit0 c) 0#32) (IntOp.addi (lit0 c) 192#32) (lit0 c) = lit0 c := by
  rw [(lit_facts c).1, select_zero]

/-! ## The take as a function of the weight matrix and the table -/

/-- The table normalised and laid as a 576 × 1 column of start indices. -/
def takeIdx5 (t : IVec S576 32) : IVec S576x1 32 :=
  broadcastInDim S576x1 ![0] bcast_S576_S576x1_0
    (select (cmpi .slt t (broadcastInDim S576 ![] bcast_S_S576 (constantI S_ 32 0#32)))
      (addi t (broadcastInDim S576 ![] bcast_S_S576 (constantI S_ 32 192#32))) t)

/-- Which result columns have their start index inside 0 … 191. -/
def takeMask (v5 : IVec S576x1 32) : IVec S576 1 :=
  Host.reduce IntOp.andi
    (andi (cmpi .sge v5 (broadcastInDim S576x1 ![] bcast_S_S576x1 (constantI S_ 32 0#32)))
      (cmpi .sle v5 (broadcastInDim S576x1 ![0, 1] bcast_S1x1_S576x1_0_1 (broadcastInDim S1x1 ![1] bcast_S1_S1x1_1 (constantI S1 32 191#32)))))
    (constantI S_ 1 1#1) reducesTo_S576x1_S576_d1 h_S_

/-- The take: the gathered columns where the start index is in range, not-a-number elsewhere. -/
def takeTerm (x : FVec Ideal S64x192 .f32) (t : IVec S576 32) : FVec Ideal S64x576 .f32 :=
  select (broadcastInDim S64x576 ![1] bcast_S576_S64x576_1 (takeMask (takeIdx5 t)))
    (Host.gather gather_S64x192_S576x1_S64x576_0_1_n_n_1_1_641 x (takeIdx5 t))
    (broadcastInDim S64x576 ![] bcast_S_S64x576 (constant S_ .f32 0x7FC00000#32))

set_option maxHeartbeats 1000000 in
/-- The last stretch of host lines leaves the take of what it finds at the weight matrix and at the table. -/
theorem v127_term (W : Valuation τ sig (Elt Ideal)) :
    StableHlo.after hostOps0_3 W (Proc.devRef .tc main_v127)
      = takeTerm (W (Proc.devRef .tc main_arg5)) (W (Proc.devRef .tc main_c)) := by
  unfold takeTerm takeMask takeIdx5
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.nullary, TRef.unary, TRef.binary, TRef.ternary, TRef.toBuf, TRef.ofBuf, cast_eq]

/-! ## The contents the last stretch finds -/

/-- Core `c`'s buffer contents before the last stretch of host lines: the launch memory after the first three. -/
def W0 (c : Dev nD) : Valuation τ sig (Elt Ideal) :=
  StableHlo.after hostOps0_2 (StableHlo.after hostOps0_1 (StableHlo.after hostOps0 (fun b => m (c, b))))

/-- The region-entry contents are the last stretch run from there. -/
theorem V0_split (c : Dev nD) : V0 m c = StableHlo.after hostOps0_3 (W0 m c) := by
  show StableHlo.after (List.flatten [hostOps0, hostOps0_1, hostOps0_2, hostOps0_3]) _ = _
  rw [List.flatten_cons, List.flatten_cons, List.flatten_cons, List.flatten_cons, List.flatten_nil, List.append_nil,
    StableHlo.after_append, StableHlo.after_append, StableHlo.after_append]
  rfl

/-- The weight matrix is an argument array: the last stretch finds it as launched. -/
theorem W0_arg5 (c : Dev nD) : W0 m c (Proc.devRef .tc main_arg5) = m ((c : Thread nD τ).loc main_arg5) := by
  unfold W0
  exact (after_arg _ hostOps0_2_noArg _ (by decide)).trans ((after_arg _ hostOps0_1_noArg _ (by decide)).trans
    (after_arg _ hostOps0_noArg _ (by decide)))

set_option maxHeartbeats 4000000 in
/-- No line of the second or third stretch writes the table's buffer. -/
theorem hostOps0_1_noC : ∀ op ∈ (hostOps0_1 : List (HloOp τ sig (Elt Ideal))), Proc.devRef .tc main_c ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))
set_option maxHeartbeats 4000000 in
theorem hostOps0_2_noC : ∀ op ∈ (hostOps0_2 : List (HloOp τ sig (Elt Ideal))), Proc.devRef .tc main_c ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))

set_option maxHeartbeats 1000000 in
/-- The table's buffer holds the table: the first host line writes it there and no later line before the last stretch
    writes it again. -/
theorem W0_c (c : Dev nD) : W0 m c (Proc.devRef .tc main_c) = fun i => lit0 (S576.rowMajor i) := by
  unfold W0
  rw [StableHlo.after_of_forall_not_mem _ _ hostOps0_2_noC, StableHlo.after_of_forall_not_mem _ _ hostOps0_1_noC]
  simp (disch := decide) only [hostOps0, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.nullary, TRef.unary, TRef.binary, TRef.ternary, TRef.toBuf, TRef.ofBuf, cast_eq]
  rfl

/-! ## The take read at an entry -/

/-- A left fold by `and` over one-bit words that are all 1, started at 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- The table as the contents of its buffer. -/
abbrev tab : IVec S576 32 := fun i => lit0 (S576.rowMajor i)

/-- The column of start indices holds the table's entries: row r holds entry r. -/
theorem takeIdx5_apply (i : S576x1.Idx) : ∃ c : Fin 576, c.val = (i 0).val ∧ takeIdx5 tab i = lit0 c := by
  have h : takeIdx5 tab i = lit0 (S576.rowMajor (ix1 ⟨(i 0).val, idx2_lt0 i⟩)) := by
    unfold takeIdx5
    rw [broadcastInDim_apply ![0] _ _ i (ix1 ⟨(i 0).val, idx2_lt0 i⟩) (fun a => by match a with | ⟨0, _⟩ => rfl)]
    exact norm_eq _
  exact ⟨_, (Shape.rowMajor_val_one _).trans rfl, h⟩

/-- Every start index is in range, so every column is kept. -/
theorem takeMask_apply (j : S576.Idx) : takeMask (takeIdx5 tab) j = 1#1 := by
  unfold takeMask
  rw [Host.reduce_eq_foldl]
  exact foldl_andi_ones _ (fun i => by
    obtain ⟨c, -, hc⟩ := takeIdx5_apply i
    show IntOp.andi (IntOp.cmpi .sge (takeIdx5 tab i) 0#32) (IntOp.cmpi .sle (takeIdx5 tab i) 191#32) = 1#1
    rw [hc, (lit_facts c).2.1, (lit_facts c).2.2.1]; decide) _

/-- THE TAKE AT AN ENTRY: row k of column q is row k of the weight matrix's column col(q). -/
theorem takeTerm_apply (x : FVec Ideal S64x192 .f32) (k : Fin 64) (q : Fin 576) :
    takeTerm x tab (ix2 k q) = x (ix2 k ⟨Cert.Irrep.col q.val, Cert.Irrep.col_lt q.isLt⟩) := by
  unfold takeTerm
  rw [select_apply]
  have hM : broadcastInDim S64x576 ![1] bcast_S576_S64x576_1 (takeMask (takeIdx5 tab)) (ix2 k q) = 1#1 := takeMask_apply _
  rw [hM, select_one]
  refine (Cert.TakeCols.gather_cols_apply (C := 64) (N := 192) (R := 576) (by decide)
    gather_S64x192_S576x1_S64x576_0_1_n_n_1_1_641_wf x (takeIdx5 tab) (ix2 k q)).trans ?_
  obtain ⟨c, hcv, hc⟩ := takeIdx5_apply (Cert.TakeCols.colIdx (ix2 k q))
  refine congrArg x ?_
  funext a
  match a with
  | ⟨0, _⟩ => rfl
  | ⟨1, _⟩ =>
    refine Fin.ext ?_
    show min (takeIdx5 tab (Cert.TakeCols.colIdx (ix2 k q))).toInt.toNat (192 - 1) = Cert.Irrep.col q.val
    rw [hc, (lit_facts c).2.2.2, hcv]

/-! ## The weight matrix as the region finds it -/

/-- Entry (k, q) of the 64 × 576 array the region reads as its weight window is entry (k, col q) of the launched
    64 × 192 weight matrix. -/
theorem V_v127_apply (m : (ℓ : Loc nD τ sig) → Buf (Elt Ideal) ℓ) (c : Dev nD) (k : Fin 64) (q : Fin 576) :
    V m c main_v127 (ValueIdx.ix2 k q) = m ((c : Thread nD τ).loc main_arg5) (ValueIdx.ix2 k (⟨Cert.Irrep.col q.val, Cert.Irrep.col_lt q.isLt⟩ : Fin 192)) := by
  show V0 m c (Proc.devRef .tc main_v127) (ix2 k q) = _
  rw [V0_split, v127_term, W0_c, W0_arg5]
  exact takeTerm_apply _ k q

end Cert.KernelIdeal.Hand

end
-- ==== Proof.RefRun.lean ====
import proofs.«176160_j34325378630297_2_alg».proof.Proof.Gen.ReferenceIdeal
import Idealize.ShloMosaic.Lib.StableHlo.Run
import Idealize.ShloMosaic.Lib.Pipeline.Frame

/-!
  The run of the reference program: its @main is one straight line of tensor operations, the one call it makes
  inlined where it stands. The line is cut in two at the concatenation that assembles the angular table
  (`opsPre`, everything up to that value; `opsPost`, the matrix product, its gather and the final product), so
  that what the tail computes can be stated over any contents the head leaves. Every weakly fair execution
  terminates with each buffer at the fold of the operations over its launch contents, and no operation writes
  an argument array.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The first 161 operations of @main, in order: everything up to and including the concatenation whose
    result is `main_v126`; the five operations of the called norm stand where the call does. -/
abbrev opsPre : List (HloOp τ sig (Elt F)) :=
  [ StableHlo.nullary main_c (fun i => lit0 (S18.rowMajor i)),
    StableHlo.nullary main_c_0 (constantI S18 1 0#1),
    StableHlo.unary main_arg1 main_v0 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v0 main_v1 rfl shapeCasts_S1x320000_S320000,
    StableHlo.nullary main_c_1 (constantI S_ 32 0#32),
    StableHlo.unary main_c_1 main_v2 (broadcastInDim S320000 ![] bcast_S_S320000 : (⟨S_, .i32⟩ : BufTy).Contents (Elt F) → (⟨S320000, .i32⟩ : BufTy).Contents (Elt F)),
    StableHlo.binary main_v1 main_v2 main_v3 (cmpi .slt : (⟨S320000, .i32⟩ : BufTy).Contents (Elt F) → (⟨S320000, .i32⟩ : BufTy).Contents (Elt F) → (⟨S320000, .i1⟩ : BufTy).Contents (Elt F)),
    StableHlo.nullary main_c_2 (constantI S_ 32 10000#32),
    StableHlo.unary main_c_2 main_v4 (broadcastInDim S320000 ![] bcast_S_S320000 : (⟨S_, .i32⟩ : BufTy).Contents (Elt F) → (⟨S320000, .i32⟩ : BufTy).Contents (Elt F)),
    StableHlo.binary main_v1 main_v4 main_v5 (addi : (⟨S320000, .i32⟩ : BufTy).Contents (Elt F) → (⟨S320000, .i32⟩ : BufTy).Contents (Elt F) → (⟨S320000, .i32⟩ : BufTy).Contents (Elt F)),
    StableHlo.ternary main_v3 main_v5 main_v1 main_v6 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v6 main_v7 (broadcastInDim S320000x1 ![0] bcast_S320000_S320000x1_0 : (⟨S320000, .i32⟩ : BufTy).Contents (Elt F) → (⟨S320000x1, .i32⟩ : BufTy).Contents (Elt F)),
    StableHlo.binary main_arg0 main_v7 main_v8 ((fun x i => Host.gather gather_S10000x3_S320000x1_S320000x3_1_0_n_n_0_1_13 x i) : (⟨S10000x3, .f32⟩ : BufTy).Contents (Elt F) → (⟨S320000x1, .i32⟩ : BufTy).Contents (Elt F) → (⟨S320000x3, .f32⟩ : BufTy).Contents (Elt F)),
    StableHlo.unary main_arg1 main_v9 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v9 main_v10 rfl shapeCasts_S1x320000_S320000,
    StableHlo.nullary main_c_3 (constantI S_ 32 0#32),
    StableHlo.unary main_c_3 main_v11 (broadcastInDim S320000 ![] bcast_S_S320000 : (⟨S_, .i32⟩ : BufTy).Contents (Elt F) → (⟨S320000, .i32⟩ : BufTy).Contents (Elt F)),
    StableHlo.binary main_v10 main_v11 main_v12 (cmpi .slt : (⟨S320000, .i32⟩ : BufTy).Contents (Elt F) → (⟨S320000, .i32⟩ : BufTy).Contents (Elt F) → (⟨S320000, .i1⟩ : BufTy).Contents (Elt F)),
    StableHlo.nullary main_c_4 (constantI S_ 32 10000#32),
    StableHlo.unary main_c_4 main_v13 (broadcastInDim S320000 ![] bcast_S_S320000 : (⟨S_, .i32⟩ : BufTy).Contents (Elt F) → (⟨S320000, .i32⟩ : BufTy).Contents (Elt F)),
    StableHlo.binary main_v10 main_v13 main_v14 (addi : (⟨S320000, .i32⟩ : BufTy).Contents (Elt F) → (⟨S320000, .i32⟩ : BufTy).Contents (Elt F) → (⟨S320000, .i32⟩ : BufTy).Contents (Elt F)),
    StableHlo.ternary main_v12 main_v14 main_v10 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v15 main_v16 (broadcastInDim S320000x1 ![0] bcast_S320000_S320000x1_0 : (⟨S320000, .i32⟩ : BufTy).Contents (Elt F) → (⟨S320000x1, .i32⟩ : BufTy).Contents (Elt F)),
    StableHlo.binary main_arg0 main_v16 main_v17 ((fun x i => Host.gather gather_S10000x3_S320000x1_S320000x3_1_0_n_n_0_1_13 x i) : (⟨S10000x3, .f32⟩ : BufTy).Contents (Elt F) → (⟨S320000x1, .i32⟩ : BufTy).Contents (Elt F) → (⟨S320000x3, .f32⟩ : BufTy).Contents (Elt F)),
    StableHlo.binary main_v8 main_v17 main_v18 (subf : (⟨S320000x3, .f32⟩ : BufTy).Contents (Elt F) → (⟨S320000x3, .f32⟩ : BufTy).Contents (Elt F) → (⟨S320000x3, .f32⟩ : BufTy).Contents (Elt F)),
    StableHlo.TRef.binary (.of main_v18 : StableHlo.TRef sig ⟨S320000x3, .f32⟩) (.of main_v18 : StableHlo.TRef sig ⟨S320000x3, .f32⟩) (.of main_call0_v0 : StableHlo.TRef sig ⟨S320000x3, .f32⟩) mulf,
    StableHlo.TRef.nullary (.of main_call0_cst : StableHlo.TRef sig ⟨S_, .f32⟩) (constant S_ .f32 0x00000000#32),
    StableHlo.TRef.binary (.of main_call0_v0 : StableHlo.TRef sig ⟨S320000x3, .f32⟩) (.of main_call0_cst : StableHlo.TRef sig ⟨S_, .f32⟩) (.of main_call0_v1 : StableHlo.TRef sig ⟨S320000, .f32⟩) (fun x v => Host.reduceAdd x v reducesTo_S320000x3_S320000_d1 h_S_),
    StableHlo.TRef.unary (.of main_call0_v1 : StableHlo.TRef sig ⟨S320000, .f32⟩) (.of main_call0_v2 : StableHlo.TRef sig ⟨S320000x1, .f32⟩) (broadcastInDim S320000x1 ![0] bcast_S320000_S320000x1_0),
    StableHlo.TRef.unary (.of main_call0_v2 : StableHlo.TRef sig ⟨S320000x1, .f32⟩) (.of main_v19 : StableHlo.TRef sig ⟨S320000x1, .f32⟩) Host.sqrt,
    StableHlo.unary main_v19 main_v20 (broadcastInDim S320000x3 ![0, 1] bcast_S320000x1_S320000x3_0_1 : (⟨S320000x1, .f32⟩ : BufTy).Contents (Elt F) → (⟨S320000x3, .f32⟩ : BufTy).Contents (Elt F)),
    StableHlo.binary main_v18 main_v20 main_v21 (Host.divf : (⟨S320000x3, .f32⟩ : BufTy).Contents (Elt F) → (⟨S320000x3, .f32⟩ : BufTy).Contents (Elt F) → (⟨S320000x3, .f32⟩ : BufTy).Contents (Elt F)),
    StableHlo.unary main_v21 main_v22 ((extractStridedSlice S320000x1 ![0, 0] · slices_S320000x3_S320000x1_0_0) : (⟨S320000x3, .f32⟩ : BufTy).Contents (Elt F) → (⟨S320000x1, .f32⟩ : BufTy).Contents (Elt F)),
    StableHlo.reshape main_v22 main_v23 rfl shapeCasts_S320000x1_S320000,
    StableHlo.unary main_v21 main_v24 ((extractStridedSlice S320000x1 ![0, 1] · slices_S320000x3_S320000x1_0_1) : (⟨S320000x3, .f32⟩ : BufTy).Contents (Elt F) → (⟨S320000x1, .f32⟩ : BufTy).Contents (Elt F)),
    StableHlo.reshape main_v24 main_v25 rfl shapeCasts_S320000x1_S320000,
    StableHlo.unary main_v21 main_v26 ((extractStridedSlice S320000x1 ![0, 2] · slices_S320000x3_S320000x1_0_2) : (⟨S320000x3, .f32⟩ : BufTy).Contents (Elt F) → (⟨S320000x1, .f32⟩ : BufTy).Contents (Elt F)),
    StableHlo.reshape main_v26 main_v27 rfl shapeCasts_S320000x1_S320000,
    StableHlo.binary main_v23 main_v23 main_v28 (mulf : (⟨S320000, .f32⟩ : BufTy).Contents (Elt F) → (⟨S320000, .f32⟩ : BufTy).Contents (Elt F) → (⟨S320000, .f32⟩ : BufTy).Contents (Elt F)),
    StableHlo.binary main_v25 main_v25 main_v29 (mulf : (⟨S320000, .f32⟩ : BufTy).Contents (Elt F) → (⟨S320000, .f32⟩ : BufTy).Contents (Elt F) → (⟨S320000, .f32⟩ : BufTy).Contents (Elt F)),
    StableHlo.binary main_v27 main_v27 main_v30 (mulf : (⟨S320000, .f32⟩ : BufTy).Contents (Elt F) → (⟨S320000, .f32⟩ : BufTy).Contents (Elt F) → (⟨S320000, .f32⟩ : BufTy).Contents (Elt F)),
    StableHlo.nullary main_cst (constant S_ .f32 0x3F800000#32),
    StableHlo.unary main_cst main_v31 (broadcastInDim S320000 ![] bcast_S_S320000 : (⟨S_, .f32⟩ : BufTy).Contents (Elt F) → (⟨S320000, .f32⟩ : BufTy).Contents (Elt F)),
    StableHlo.nullary main_cst_5 (constant S_ .f32 0x3FDDB3D7#32),
    StableHlo.unary main_cst_5 main_v32 (broadcastInDim S320000 ![] bcast_S_S320000 : (⟨S_, .f32⟩ : BufTy).Contents (Elt F) → (⟨S320000, .f32⟩ : BufTy).Contents (Elt F)),
    StableHlo.binary main_v32 main_v23 main_v33 (mulf : (⟨S320000, .f32⟩ : BufTy).Contents (Elt F) → (⟨S320000, .f32⟩ : BufTy).Contents (Elt F) → (⟨S320000, .f32⟩ : BufTy).Contents (Elt F)),
    StableHlo.nullary main_cst_6 (constant S_ .f32 0x3FDDB3D7#32),
    StableHlo.unary main_cst_6 main_v34 (broadcastInDim S320000 ![] bcast_S_S320000 : (⟨S_, .f32⟩ : BufTy).Contents (Elt F) → (⟨S320000, .f32⟩ : BufTy).Contents (Elt F)),
    StableHlo.binary main_v34 main_v25 main_v35 (mulf : (⟨S320000, .f32⟩ : BufTy).Contents (Elt F) → (⟨S320000, .f32⟩ : BufTy).Contents (Elt F) → (⟨S320000, .f32⟩ : BufTy).Contents (Elt F)),
    StableHlo.nullary main_cst_7 (constant S_ .f32 0x3FDDB3D7#32),
    StableHlo.unary main_cst_7 main_v36 (broadcastInDim S320000 ![] bcast_S_S320000 : (⟨S_, .f32⟩ : BufTy).Contents (Elt F) → (⟨S320000, .f32⟩ : BufTy).Contents (Elt F)),
    StableHlo.binary main_v36 main_v27 main_v37 (mulf : (⟨S320000, .f32⟩ : BufTy).Contents (Elt F) → (⟨S320000, .f32⟩ : BufTy).Contents (Elt F) → (⟨S320000, .f32⟩ : BufTy).Contents (Elt F)),
    StableHlo.nullary main_cst_8 (constant S_ .f32 0x4077DEF6#32),
    StableHlo.unary main_cst_8 main_v38 (broadcastInDim S320000 ![] bcast_S_S320000 : (⟨S_, .f32⟩ : BufTy).Contents (Elt F) → (⟨S320000, .f32⟩ : BufTy).Contents (Elt F)),
    StableHlo.binary main_v38 main_v23 main_v39 (mulf : (⟨S320000, .f32⟩ : BufTy).Contents (Elt F) → (⟨S320000, .f32⟩ : BufTy).Contents (Elt F) → (⟨S320000, .f32⟩ : BufTy).Contents (Elt F)),
    StableHlo.binary main_v39 main_v27 main_v40 (mulf : (⟨S320000, .f32⟩ : BufTy).Contents (Elt F) → (⟨S320000, .f32⟩ : BufTy).Contents (Elt F) → (⟨S320000, .f32⟩ : BufTy).Contents (Elt F)),
    StableHlo.nullary main_cst_9 (constant S_ .f32 0x4077DEF6#32),
    StableHlo.unary main_cst_9 main_v41 (broadcastInDim S320000 ![] bcast_S_S320000 : (⟨S_, .f32⟩ : BufTy).Contents (Elt F) → (⟨S320000, .f32⟩ : BufTy).Contents (Elt F)),
    StableHlo.binary main_v41 main_v23 main_v42 (mulf : (⟨S320000, .f32⟩ : BufTy).Contents (Elt F) → (⟨S320000, .f32⟩ : BufTy).Contents (Elt F) → (⟨S320000, .f32⟩ : BufTy).Contents (Elt F)),
    StableHlo.binary main_v42 main_v25 main_v43 (mulf : (⟨S320000, .f32⟩ : BufTy).Contents (Elt F) → (⟨S320000, .f32⟩ : BufTy).Contents (Elt F) → (⟨S320000, .f32⟩ : BufTy).Contents (Elt F)),
    StableHlo.binary main_v28 main_v30 main_v44 (addf : (⟨S320000, .f32⟩ : BufTy).Contents (Elt F) → (⟨S320000, .f32⟩ : BufTy).Contents (Elt F) → (⟨S320000, .f32⟩ : BufTy).Contents (Elt F)),
    StableHlo.nullary main_cst_10 (constant S_ .f32 0x3F000000#32),
    StableHlo.unary main_cst_10 main_v45 (broadcastInDim S320000 ![] bcast_S_S320000 : (⟨S_, .f32⟩ : BufTy).Contents (Elt F) → (⟨S320000, .f32⟩ : BufTy).Contents (Elt F)),
    StableHlo.binary main_v45 main_v44 main_v46 (mulf : (⟨S320000, .f32⟩ : BufTy).Contents (Elt F) → (⟨S320000, .f32⟩ : BufTy).Contents (Elt F) → (⟨S320000, .f32⟩ : BufTy).Contents (Elt F)),
    StableHlo.binary main_v29 main_v46 main_v47 (subf : (⟨S320000, .f32⟩ : BufTy).Contents (Elt F) → (⟨S320000, .f32⟩ : BufTy).Contents (Elt F) → (⟨S320000, .f32⟩ : BufTy).Contents (Elt F)),
    StableHlo.nullary main_cst_11 (constant S_ .f32 0x400F1BBD#32),
    StableHlo.unary main_cst_11 main_v48 (broadcastInDim S320000 ![] bcast_S_S320000 : (⟨S_, .f32⟩ : BufTy).Contents (Elt F) → (⟨S320000, .f32⟩ : BufTy).Contents (Elt F)),
    StableHlo.binary main_v48 main_v47 main_v49 (mulf : (⟨S320000, .f32⟩ : BufTy).Contents (Elt F) → (⟨S320000, .f32⟩ : BufTy).Contents (Elt F) → (⟨S320000, .f32⟩ : BufTy).Contents (Elt F)),
    StableHlo.nullary main_cst_12 (constant S_ .f32 0x4077DEF6#32),
    StableHlo.unary main_cst_12 main_v50 (broadcastInDim S320000 ![] bcast_S_S320000 : (⟨S_, .f32⟩ : BufTy).Contents (Elt F) → (⟨S320000, .f32⟩ : BufTy).Contents (Elt F)),
    StableHlo.binary main_v50 main_v25 main_v51 (mulf : (⟨S320000, .f32⟩ : BufTy).Contents (Elt F) → (⟨S320000, .f32⟩ : BufTy).Contents (Elt F) → (⟨S320000, .f32⟩ : BufTy).Contents (Elt F)),
    StableHlo.binary main_v51 main_v27 main_v52 (mulf : (⟨S320000, .f32⟩ : BufTy).Contents (Elt F) → (⟨S320000, .f32⟩ : BufTy).Contents (Elt F) → (⟨S320000, .f32⟩ : BufTy).Contents (Elt F)),
    StableHlo.binary main_v30 main_v28 main_v53 (subf : (⟨S320000, .f32⟩ : BufTy).Contents (Elt F) → (⟨S320000, .f32⟩ : BufTy).Contents (Elt F) → (⟨S320000, .f32⟩ : BufTy).Contents (Elt F)),
    StableHlo.nullary main_cst_13 (constant S_ .f32 0x3FF7DEF6#32),
    StableHlo.unary main_cst_13 main_v54 (broadcastInDim S320000 ![] bcast_S_S320000 : (⟨S_, .f32⟩ : BufTy).Contents (Elt F) → (⟨S320000, .f32⟩ : BufTy).Contents (Elt F)),
    StableHlo.binary main_v54 main_v53 main_v55 (mulf : (⟨S320000, .f32⟩ : BufTy).Contents (Elt F) → (⟨S320000, .f32⟩ : BufTy).Contents (Elt F) → (⟨S320000, .f32⟩ : BufTy).Contents (Elt F)),
    StableHlo.unary main_v31 main_v56 (broadcastInDim S320000x1 ![0] bcast_S320000_S320000x1_0 : (⟨S320000, .f32⟩ : BufTy).Contents (Elt F) → (⟨S320000x1, .f32⟩ : BufTy).Contents (Elt F)),
    StableHlo.unary main_v33 main_v57 (broadcastInDim S320000x1 ![0] bcast_S320000_S320000x1_0 : (⟨S320000, .f32⟩ : BufTy).Contents (Elt F) → (⟨S320000x1, .f32⟩ : BufTy).Contents (Elt F)),
    StableHlo.unary main_v35 main_v58 (broadcastInDim S320000x1 ![0] bcast_S320000_S320000x1_0 : (⟨S320000, .f32⟩ : BufTy).Contents (Elt F) → (⟨S320000x1, .f32⟩ : BufTy).Contents (Elt F)),
    StableHlo.unary main_v37 main_v59 (broadcastInDim S320000x1 ![0] bcast_S320000_S320000x1_0 : (⟨S320000, .f32⟩ : BufTy).Contents (Elt F) → (⟨S320000x1, .f32⟩ : BufTy).Contents (Elt F)),
    StableHlo.unary main_v40 main_v60 (broadcastInDim S320000x1 ![0] bcast_S320000_S320000x1_0 : (⟨S320000, .f32⟩ : BufTy).Contents (Elt F) → (⟨S320000x1, .f32⟩ : BufTy).Contents (Elt F)),
    StableHlo.unary main_v43 main_v61 (broadcastInDim S320000x1 ![0] bcast_S320000_S320000x1_0 : (⟨S320000, .f32⟩ : BufTy).Contents (Elt F) → (⟨S320000x1, .f32⟩ : BufTy).Contents (Elt F)),
    StableHlo.unary main_v49 main_v62 (broadcastInDim S320000x1 ![0] bcast_S320000_S320000x1_0 : (⟨S320000, .f32⟩ : BufTy).Contents (Elt F) → (⟨S320000x1, .f32⟩ : BufTy).Contents (Elt F)),
    StableHlo.unary main_v52 main_v63 (broadcastInDim S320000x1 ![0] bcast_S320000_S320000x1_0 : (⟨S320000, .f32⟩ : BufTy).Contents (Elt F) → (⟨S320000x1, .f32⟩ : BufTy).Contents (Elt F)),
    StableHlo.unary main_v55 main_v64 (broadcastInDim S320000x1 ![0] bcast_S320000_S320000x1_0 : (⟨S320000, .f32⟩ : BufTy).Contents (Elt F) → (⟨S320000x1, .f32⟩ : BufTy).Contents (Elt F)),
    StableHlo.nary ![main_v56, main_v57, main_v58, main_v59, main_v60, main_v61, main_v62, main_v63, main_v64] main_v65 (fun u => concatenate S320000x9 1 [⟨S320000x1, u 0⟩, ⟨S320000x1, u 1⟩, ⟨S320000x1, u 2⟩, ⟨S320000x1, u 3⟩, ⟨S320000x1, u 4⟩, ⟨S320000x1, u 5⟩, ⟨S320000x1, u 6⟩, ⟨S320000x1, u 7⟩, ⟨S320000x1, u 8⟩] concatenates_S320000x1_S320000x1_S320000x1_S320000x1_S320000x1_S320000x1_S320000x1_S320000x1_S320000x1_S320000x9_d1),
    StableHlo.unary main_arg3 main_v66 ((extractStridedSlice S16x1 ![0, 0] · slices_S16x3_S16x1_0_0) : (⟨S16x3, .f32⟩ : BufTy).Contents (Elt F) → (⟨S16x1, .f32⟩ : BufTy).Contents (Elt F)),
    StableHlo.reshape main_v66 main_v67 rfl shapeCasts_S16x1_S16,
    StableHlo.unary main_arg3 main_v68 ((extractStridedSlice S16x1 ![0, 1] · slices_S16x3_S16x1_0_1) : (⟨S16x3, .f32⟩ : BufTy).Contents (Elt F) → (⟨S16x1, .f32⟩ : BufTy).Contents (Elt F)),
    StableHlo.reshape main_v68 main_v69 rfl shapeCasts_S16x1_S16,
    StableHlo.unary main_arg3 main_v70 ((extractStridedSlice S16x1 ![0, 2] · slices_S16x3_S16x1_0_2) : (⟨S16x3, .f32⟩ : BufTy).Contents (Elt F) → (⟨S16x1, .f32⟩ : BufTy).Contents (Elt F)),
    StableHlo.reshape main_v70 main_v71 rfl shapeCasts_S16x1_S16,
    StableHlo.binary main_v67 main_v67 main_v72 (mulf : (⟨S16, .f32⟩ : BufTy).Contents (Elt F) → (⟨S16, .f32⟩ : BufTy).Contents (Elt F) → (⟨S16, .f32⟩ : BufTy).Contents (Elt F)),
    StableHlo.binary main_v69 main_v69 main_v73 (mulf : (⟨S16, .f32⟩ : BufTy).Contents (Elt F) → (⟨S16, .f32⟩ : BufTy).Contents (Elt F) → (⟨S16, .f32⟩ : BufTy).Contents (Elt F)),
    StableHlo.binary main_v71 main_v71 main_v74 (mulf : (⟨S16, .f32⟩ : BufTy).Contents (Elt F) → (⟨S16, .f32⟩ : BufTy).Contents (Elt F) → (⟨S16, .f32⟩ : BufTy).Contents (Elt F)),
    StableHlo.nullary main_cst_14 (constant S_ .f32 0x3F800000#32),
    StableHlo.unary main_cst_14 main_v75 (broadcastInDim S16 ![] bcast_S_S16 : (⟨S_, .f32⟩ : BufTy).Contents (Elt F) → (⟨S16, .f32⟩ : BufTy).Contents (Elt F)),
    StableHlo.nullary main_cst_15 (constant S_ .f32 0x3FDDB3D7#32),
    StableHlo.unary main_cst_15 main_v76 (broadcastInDim S16 ![] bcast_S_S16 : (⟨S_, .f32⟩ : BufTy).Contents (Elt F) → (⟨S16, .f32⟩ : BufTy).Contents (Elt F)),
    StableHlo.binary main_v76 main_v67 main_v77 (mulf : (⟨S16, .f32⟩ : BufTy).Contents (Elt F) → (⟨S16, .f32⟩ : BufTy).Contents (Elt F) → (⟨S16, .f32⟩ : BufTy).Contents (Elt F)),
    StableHlo.nullary main_cst_16 (constant S_ .f32 0x3FDDB3D7#32),
    StableHlo.unary main_cst_16 main_v78 (broadcastInDim S16 ![] bcast_S_S16 : (⟨S_, .f32⟩ : BufTy).Contents (Elt F) → (⟨S16, .f32⟩ : BufTy).Contents (Elt F)),
    StableHlo.binary main_v78 main_v69 main_v79 (mulf : (⟨S16, .f32⟩ : BufTy).Contents (Elt F) → (⟨S16, .f32⟩ : BufTy).Contents (Elt F) → (⟨S16, .f32⟩ : BufTy).Contents (Elt F)),
    StableHlo.nullary main_cst_17 (constant S_ .f32 0x3FDDB3D7#32),
    StableHlo.unary main_cst_17 main_v80 (broadcastInDim S16 ![] bcast_S_S16 : (⟨S_, .f32⟩ : BufTy).Contents (Elt F) → (⟨S16, .f32⟩ : BufTy).Contents (Elt F)),
    StableHlo.binary main_v80 main_v71 main_v81 (mulf : (⟨S16, .f32⟩ : BufTy).Contents (Elt F) → (⟨S16, .f32⟩ : BufTy).Contents (Elt F) → (⟨S16, .f32⟩ : BufTy).Contents (Elt F)),
    StableHlo.nullary main_cst_18 (constant S_ .f32 0x4077DEF6#32),
    StableHlo.unary main_cst_18 main_v82 (broadcastInDim S16 ![] bcast_S_S16 : (⟨S_, .f32⟩ : BufTy).Contents (Elt F) → (⟨S16, .f32⟩ : BufTy).Contents (Elt F)),
    StableHlo.binary main_v82 main_v67 main_v83 (mulf : (⟨S16, .f32⟩ : BufTy).Contents (Elt F) → (⟨S16, .f32⟩ : BufTy).Contents (Elt F) → (⟨S16, .f32⟩ : BufTy).Contents (Elt F)),
    StableHlo.binary main_v83 main_v71 main_v84 (mulf : (⟨S16, .f32⟩ : BufTy).Contents (Elt F) → (⟨S16, .f32⟩ : BufTy).Contents (Elt F) → (⟨S16, .f32⟩ : BufTy).Contents (Elt F)),
    StableHlo.nullary main_cst_19 (constant S_ .f32 0x4077DEF6#32),
    StableHlo.unary main_cst_19 main_v85 (broadcastInDim S16 ![] bcast_S_S16 : (⟨S_, .f32⟩ : BufTy).Contents (Elt F) → (⟨S16, .f32⟩ : BufTy).Contents (Elt F)),
    StableHlo.binary main_v85 main_v67 main_v86 (mulf : (⟨S16, .f32⟩ : BufTy).Contents (Elt F) → (⟨S16, .f32⟩ : BufTy).Contents (Elt F) → (⟨S16, .f32⟩ : BufTy).Contents (Elt F)),
    StableHlo.binary main_v86 main_v69 main_v87 (mulf : (⟨S16, .f32⟩ : BufTy).Contents (Elt F) → (⟨S16, .f32⟩ : BufTy).Contents (Elt F) → (⟨S16, .f32⟩ : BufTy).Contents (Elt F)),
    StableHlo.binary main_v72 main_v74 main_v88 (addf : (⟨S16, .f32⟩ : BufTy).Contents (Elt F) → (⟨S16, .f32⟩ : BufTy).Contents (Elt F) → (⟨S16, .f32⟩ : BufTy).Contents (Elt F)),
    StableHlo.nullary main_cst_20 (constant S_ .f32 0x3F000000#32),
    StableHlo.unary main_cst_20 main_v89 (broadcastInDim S16 ![] bcast_S_S16 : (⟨S_, .f32⟩ : BufTy).Contents (Elt F) → (⟨S16, .f32⟩ : BufTy).Contents (Elt F)),
    StableHlo.binary main_v89 main_v88 main_v90 (mulf : (⟨S16, .f32⟩ : BufTy).Contents (Elt F) → (⟨S16, .f32⟩ : BufTy).Contents (Elt F) → (⟨S16, .f32⟩ : BufTy).Contents (Elt F)),
    StableHlo.binary main_v73 main_v90 main_v91 (subf : (⟨S16, .f32⟩ : BufTy).Contents (Elt F) → (⟨S16, .f32⟩ : BufTy).Contents (Elt F) → (⟨S16, .f32⟩ : BufTy).Contents (Elt F)),
    StableHlo.nullary main_cst_21 (constant S_ .f32 0x400F1BBD#32),
    StableHlo.unary main_cst_21 main_v92 (broadcastInDim S16 ![] bcast_S_S16 : (⟨S_, .f32⟩ : BufTy).Contents (Elt F) → (⟨S16, .f32⟩ : BufTy).Contents (Elt F)),
    StableHlo.binary main_v92 main_v91 main_v93 (mulf : (⟨S16, .f32⟩ : BufTy).Contents (Elt F) → (⟨S16, .f32⟩ : BufTy).Contents (Elt F) → (⟨S16, .f32⟩ : BufTy).Contents (Elt F)),
    StableHlo.nullary main_cst_22 (constant S_ .f32 0x4077DEF6#32),
    StableHlo.unary main_cst_22 main_v94 (broadcastInDim S16 ![] bcast_S_S16 : (⟨S_, .f32⟩ : BufTy).Contents (Elt F) → (⟨S16, .f32⟩ : BufTy).Contents (Elt F)),
    StableHlo.binary main_v94 main_v69 main_v95 (mulf : (⟨S16, .f32⟩ : BufTy).Contents (Elt F) → (⟨S16, .f32⟩ : BufTy).Contents (Elt F) → (⟨S16, .f32⟩ : BufTy).Contents (Elt F)),
    StableHlo.binary main_v95 main_v71 main_v96 (mulf : (⟨S16, .f32⟩ : BufTy).Contents (Elt F) → (⟨S16, .f32⟩ : BufTy).Contents (Elt F) → (⟨S16, .f32⟩ : BufTy).Contents (Elt F)),
    StableHlo.binary main_v74 main_v72 main_v97 (subf : (⟨S16, .f32⟩ : BufTy).Contents (Elt F) → (⟨S16, .f32⟩ : BufTy).Contents (Elt F) → (⟨S16, .f32⟩ : BufTy).Contents (Elt F)),
    StableHlo.nullary main_cst_23 (constant S_ .f32 0x3FF7DEF6#32),
    StableHlo.unary main_cst_23 main_v98 (broadcastInDim S16 ![] bcast_S_S16 : (⟨S_, .f32⟩ : BufTy).Contents (Elt F) → (⟨S16, .f32⟩ : BufTy).Contents (Elt F)),
    StableHlo.binary main_v98 main_v97 main_v99 (mulf : (⟨S16, .f32⟩ : BufTy).Contents (Elt F) → (⟨S16, .f32⟩ : BufTy).Contents (Elt F) → (⟨S16, .f32⟩ : BufTy).Contents (Elt F)),
    StableHlo.unary main_v75 main_v100 (broadcastInDim S16x1 ![0] bcast_S16_S16x1_0 : (⟨S16, .f32⟩ : BufTy).Contents (Elt F) → (⟨S16x1, .f32⟩ : BufTy).Contents (Elt F)),
    StableHlo.unary main_v77 main_v101 (broadcastInDim S16x1 ![0] bcast_S16_S16x1_0 : (⟨S16, .f32⟩ : BufTy).Contents (Elt F) → (⟨S16x1, .f32⟩ : BufTy).Contents (Elt F)),
    StableHlo.unary main_v79 main_v102 (broadcastInDim S16x1 ![0] bcast_S16_S16x1_0 : (⟨S16, .f32⟩ : BufTy).Contents (Elt F) → (⟨S16x1, .f32⟩ : BufTy).Contents (Elt F)),
    StableHlo.unary main_v81 main_v103 (broadcastInDim S16x1 ![0] bcast_S16_S16x1_0 : (⟨S16, .f32⟩ : BufTy).Contents (Elt F) → (⟨S16x1, .f32⟩ : BufTy).Contents (Elt F)),
    StableHlo.unary main_v84 main_v104 (broadcastInDim S16x1 ![0] bcast_S16_S16x1_0 : (⟨S16, .f32⟩ : BufTy).Contents (Elt F) → (⟨S16x1, .f32⟩ : BufTy).Contents (Elt F)),
    StableHlo.unary main_v87 main_v105 (broadcastInDim S16x1 ![0] bcast_S16_S16x1_0 : (⟨S16, .f32⟩ : BufTy).Contents (Elt F) → (⟨S16x1, .f32⟩ : BufTy).Contents (Elt F)),
    StableHlo.unary main_v93 main_v106 (broadcastInDim S16x1 ![0] bcast_S16_S16x1_0 : (⟨S16, .f32⟩ : BufTy).Contents (Elt F) → (⟨S16x1, .f32⟩ : BufTy).Contents (Elt F)),
    StableHlo.unary main_v96 main_v107 (broadcastInDim S16x1 ![0] bcast_S16_S16x1_0 : (⟨S16, .f32⟩ : BufTy).Contents (Elt F) → (⟨S16x1, .f32⟩ : BufTy).Contents (Elt F)),
    StableHlo.unary main_v99 main_v108 (broadcastInDim S16x1 ![0] bcast_S16_S16x1_0 : (⟨S16, .f32⟩ : BufTy).Contents (Elt F) → (⟨S16x1, .f32⟩ : BufTy).Contents (Elt F)),
    StableHlo.nary ![main_v100, main_v101, main_v102, main_v103, main_v104, main_v105, main_v106, main_v107, main_v108] main_v109 (fun u => concatenate S16x9 1 [⟨S16x1, u 0⟩, ⟨S16x1, u 1⟩, ⟨S16x1, u 2⟩, ⟨S16x1, u 3⟩, ⟨S16x1, u 4⟩, ⟨S16x1, u 5⟩, ⟨S16x1, u 6⟩, ⟨S16x1, u 7⟩, ⟨S16x1, u 8⟩] concatenates_S16x1_S16x1_S16x1_S16x1_S16x1_S16x1_S16x1_S16x1_S16x1_S16x9_d1),
    StableHlo.unary main_arg1 main_v110 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v110 main_v111 rfl shapeCasts_S1x320000_S320000,
    StableHlo.nullary main_c_24 (constantI S_ 32 0#32),
    StableHlo.unary main_c_24 main_v112 (broadcastInDim S320000 ![] bcast_S_S320000 : (⟨S_, .i32⟩ : BufTy).Contents (Elt F) → (⟨S320000, .i32⟩ : BufTy).Contents (Elt F)),
    StableHlo.binary main_v111 main_v112 main_v113 (cmpi .slt : (⟨S320000, .i32⟩ : BufTy).Contents (Elt F) → (⟨S320000, .i32⟩ : BufTy).Contents (Elt F) → (⟨S320000, .i1⟩ : BufTy).Contents (Elt F)),
    StableHlo.nullary main_c_25 (constantI S_ 32 10000#32),
    StableHlo.unary main_c_25 main_v114 (broadcastInDim S320000 ![] bcast_S_S320000 : (⟨S_, .i32⟩ : BufTy).Contents (Elt F) → (⟨S320000, .i32⟩ : BufTy).Contents (Elt F)),
    StableHlo.binary main_v111 main_v114 main_v115 (addi : (⟨S320000, .i32⟩ : BufTy).Contents (Elt F) → (⟨S320000, .i32⟩ : BufTy).Contents (Elt F) → (⟨S320000, .i32⟩ : BufTy).Contents (Elt F)),
    StableHlo.ternary main_v113 main_v115 main_v111 main_v116 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v116 main_v117 (broadcastInDim S320000x1 ![0] bcast_S320000_S320000x1_0 : (⟨S320000, .i32⟩ : BufTy).Contents (Elt F) → (⟨S320000x1, .i32⟩ : BufTy).Contents (Elt F)),
    StableHlo.binary main_arg2 main_v117 main_v118 ((fun x i => Host.gather gather_S10000_S320000x1_S320000_n_0_n_n_0_1_1 x i) : (⟨S10000, .i32⟩ : BufTy).Contents (Elt F) → (⟨S320000x1, .i32⟩ : BufTy).Contents (Elt F) → (⟨S320000, .i32⟩ : BufTy).Contents (Elt F)),
    StableHlo.nullary main_c_26 (constantI S_ 32 0#32),
    StableHlo.unary main_c_26 main_v119 (broadcastInDim S320000 ![] bcast_S_S320000 : (⟨S_, .i32⟩ : BufTy).Contents (Elt F) → (⟨S320000, .i32⟩ : BufTy).Contents (Elt F)),
    StableHlo.binary main_v118 main_v119 main_v120 (cmpi .slt : (⟨S320000, .i32⟩ : BufTy).Contents (Elt F) → (⟨S320000, .i32⟩ : BufTy).Contents (Elt F) → (⟨S320000, .i1⟩ : BufTy).Contents (Elt F)),
    StableHlo.nullary main_c_27 (constantI S_ 32 16#32),
    StableHlo.unary main_c_27 main_v121 (broadcastInDim S320000 ![] bcast_S_S320000 : (⟨S_, .i32⟩ : BufTy).Contents (Elt F) → (⟨S320000, .i32⟩ : BufTy).Contents (Elt F)),
    StableHlo.binary main_v118 main_v121 main_v122 (addi : (⟨S320000, .i32⟩ : BufTy).Contents (Elt F) → (⟨S320000, .i32⟩ : BufTy).Contents (Elt F) → (⟨S320000, .i32⟩ : BufTy).Contents (Elt F)),
    StableHlo.ternary main_v120 main_v122 main_v118 main_v123 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v123 main_v124 (broadcastInDim S320000x1 ![0] bcast_S320000_S320000x1_0 : (⟨S320000, .i32⟩ : BufTy).Contents (Elt F) → (⟨S320000x1, .i32⟩ : BufTy).Contents (Elt F)),
    StableHlo.binary main_v109 main_v124 main_v125 ((fun x i => Host.gather gather_S16x9_S320000x1_S320000x9_1_0_n_n_0_1_19 x i) : (⟨S16x9, .f32⟩ : BufTy).Contents (Elt F) → (⟨S320000x1, .i32⟩ : BufTy).Contents (Elt F) → (⟨S320000x9, .f32⟩ : BufTy).Contents (Elt F)),
    StableHlo.binary main_v65 main_v125 main_v126 ((fun a b => concatenate S320000x18 1 [⟨S320000x9, a⟩, ⟨S320000x9, b⟩] concatenates_S320000x9_S320000x9_S320000x18_d1) : (⟨S320000x9, .f32⟩ : BufTy).Contents (Elt F) → (⟨S320000x9, .f32⟩ : BufTy).Contents (Elt F) → (⟨S320000x18, .f32⟩ : BufTy).Contents (Elt F)) ]

/-- The last 11 operations of @main, in order: the matrix product, its reshape, the index table's
    wrap-around and broadcast, the gather along the last axis, the two broadcasts of the angular table and the product. -/
abbrev opsPost : List (HloOp τ sig (Elt F)) :=
  [ StableHlo.binary main_arg4 main_arg5 main_v127 ((fun l r => Host.dotGeneral dot_S320000x64_S64x192_S320000x192_1_0_0_1_n_n none l r) : (⟨S320000x64, .f32⟩ : BufTy).Contents (Elt F) → (⟨S64x192, .f32⟩ : BufTy).Contents (Elt F) → (⟨S320000x192, .f32⟩ : BufTy).Contents (Elt F)),
    StableHlo.reshape main_v127 main_v128 rfl shapeCasts_S320000x192_S320000x32x6,
    StableHlo.nullary main_c_28 (constantI S_ 32 6#32),
    StableHlo.unary main_c_28 main_v129 (broadcastInDim S18 ![] bcast_S_S18 : (⟨S_, .i32⟩ : BufTy).Contents (Elt F) → (⟨S18, .i32⟩ : BufTy).Contents (Elt F)),
    StableHlo.binary main_c main_v129 main_v130 (addi : (⟨S18, .i32⟩ : BufTy).Contents (Elt F) → (⟨S18, .i32⟩ : BufTy).Contents (Elt F) → (⟨S18, .i32⟩ : BufTy).Contents (Elt F)),
    StableHlo.ternary main_c_0 main_v130 main_c main_v131 (select : (⟨S18, .i1⟩ : BufTy).Contents (Elt F) → (⟨S18, .i32⟩ : BufTy).Contents (Elt F) → (⟨S18, .i32⟩ : BufTy).Contents (Elt F) → (⟨S18, .i32⟩ : BufTy).Contents (Elt F)),
    StableHlo.unary main_v131 main_v132 (broadcastInDim S18x1 ![0] bcast_S18_S18x1_0 : (⟨S18, .i32⟩ : BufTy).Contents (Elt F) → (⟨S18x1, .i32⟩ : BufTy).Contents (Elt F)),
    StableHlo.binary main_v128 main_v132 main_v133 ((fun x i => Host.gather gather_S320000x32x6_S18x1_S320000x32x18_01_2_n_n_2_1_320000321 x i) : (⟨S320000x32x6, .f32⟩ : BufTy).Contents (Elt F) → (⟨S18x1, .i32⟩ : BufTy).Contents (Elt F) → (⟨S320000x32x18, .f32⟩ : BufTy).Contents (Elt F)),
    StableHlo.unary main_v126 main_v134 (broadcastInDim S320000x1x18 ![0, 2] bcast_S320000x18_S320000x1x18_0_2 : (⟨S320000x18, .f32⟩ : BufTy).Contents (Elt F) → (⟨S320000x1x18, .f32⟩ : BufTy).Contents (Elt F)),
    StableHlo.unary main_v134 main_v135 (broadcastInDim S320000x32x18 ![0, 1, 2] bcast_S320000x1x18_S320000x32x18_0_1_2 : (⟨S320000x1x18, .f32⟩ : BufTy).Contents (Elt F) → (⟨S320000x32x18, .f32⟩ : BufTy).Contents (Elt F)),
    StableHlo.binary main_v135 main_v133 main_v136 (mulf : (⟨S320000x32x18, .f32⟩ : BufTy).Contents (Elt F) → (⟨S320000x32x18, .f32⟩ : BufTy).Contents (Elt F) → (⟨S320000x32x18, .f32⟩ : BufTy).Contents (Elt F)) ]

/-- @main is that straight line: both sides unfold to the same chain of operation steps. -/
theorem main_eq (c : Dev nD) : main (F := F) c = StableHlo.seq (opsPre ++ opsPost) := by
  chain_rfl

theorem scopedRefs_eq : (Finset.univ.filter fun b : Ref sig .tc => b.isScoped) = ∅ := by decide
theorem scopedSems_eq : (Finset.univ.filter fun sm : SemLoc sig => sm.isScoped .tc) = ∅ := by decide

set_option maxHeartbeats 40000000 in
/-- Each operation of the head touches TensorCore references only. -/
theorem opsPre_sub : (opsPre : List (HloOp τ sig (Elt F))).Forall fun op => op.bufs ⊆ tcRefs τ sig :=
  ⟨nullary_bufs_sub .., nullary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., binary_bufs_sub .., unary_bufs_sub .., unary_bufs_sub ..,
    unary_bufs_sub .., binary_bufs_sub .., unary_bufs_sub .., reshape_bufs_sub .., unary_bufs_sub .., reshape_bufs_sub ..,
    unary_bufs_sub .., reshape_bufs_sub .., binary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., binary_bufs_sub .., nullary_bufs_sub .., unary_bufs_sub .., binary_bufs_sub .., binary_bufs_sub ..,
    binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., unary_bufs_sub ..,
    unary_bufs_sub .., unary_bufs_sub .., unary_bufs_sub .., unary_bufs_sub .., unary_bufs_sub .., unary_bufs_sub ..,
    unary_bufs_sub .., nary_bufs_sub .., unary_bufs_sub .., reshape_bufs_sub .., unary_bufs_sub .., reshape_bufs_sub ..,
    unary_bufs_sub .., reshape_bufs_sub .., binary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., binary_bufs_sub .., nullary_bufs_sub .., unary_bufs_sub .., binary_bufs_sub .., binary_bufs_sub ..,
    binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., unary_bufs_sub ..,
    unary_bufs_sub .., unary_bufs_sub .., unary_bufs_sub .., unary_bufs_sub .., unary_bufs_sub .., unary_bufs_sub ..,
    unary_bufs_sub .., nary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub ..⟩

/-- Each operation of the tail touches TensorCore references only. -/
theorem opsPost_sub : (opsPost : List (HloOp τ sig (Elt F))).Forall fun op => op.bufs ⊆ tcRefs τ sig :=
  ⟨binary_bufs_sub .., reshape_bufs_sub .., nullary_bufs_sub .., unary_bufs_sub .., binary_bufs_sub .., ternary_bufs_sub ..,
    unary_bufs_sub .., binary_bufs_sub .., unary_bufs_sub .., unary_bufs_sub .., binary_bufs_sub ..⟩

theorem ops_sub : (opsPre ++ opsPost : List (HloOp τ sig (Elt F))).Forall fun op => op.bufs ⊆ tcRefs τ sig :=
  List.forall_iff_forall_mem.mpr fun op h => (List.mem_append.mp h).elim
    (List.forall_iff_forall_mem.mp opsPre_sub op) (List.forall_iff_forall_mem.mp opsPost_sub op)

set_option maxHeartbeats 40000000 in
/-- Every operation of the head determines its result. -/
theorem opsPre_fresh : (opsPre : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩

/-- Every operation of the tail determines its result. -/
theorem opsPost_fresh : (opsPost : List (HloOp τ sig (Elt F))).Forall fun op => op.fresh = ∅ :=
  ⟨rfl, rfl, rfl, rfl, rfl, rfl, rfl, rfl, rfl, rfl, rfl⟩

theorem ops_fresh : ∀ op ∈ (opsPre ++ opsPost : List (HloOp τ sig (Elt F))), op.fresh = ∅ :=
  fun op h => (List.mem_append.mp h).elim
    (List.forall_iff_forall_mem.mp opsPre_fresh op) (List.forall_iff_forall_mem.mp opsPost_fresh op)

/-- On every device, for any float values, from any memory with zero counters: every weakly fair execution of
    @main terminates, and every TensorCore buffer ends at the fold of the operations over its launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after (opsPre ++ opsPost) (StableHlo.launchContents m d) (Proc.devRef .tc b) :=
  run_seq scopedRefs_eq scopedSems_eq defs main (fun _ => opsPre ++ opsPost) main_eq (fun _ => ops_sub) m ρ (fun _ => ops_fresh)

/-! ## What the line writes -/

/-- A one-buffer write set lies in the image of any list holding the buffer's reference. -/
theorem wr_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references the head's operations write, in order: one per operation. -/
abbrev writtenPre : List (Ref sig .tc) :=
  [ main_c, main_c_0, main_v0, main_v1, main_c_1, main_v2, main_v3, main_c_2, main_v4, main_v5,
    main_v6, main_v7, main_v8, main_v9, main_v10, main_c_3, main_v11, main_v12, main_c_4, main_v13,
    main_v14, main_v15, main_v16, main_v17, main_v18, main_call0_v0, main_call0_cst, main_call0_v1, main_call0_v2, main_v19,
    main_v20, main_v21, main_v22, main_v23, main_v24, main_v25, main_v26, main_v27, main_v28, main_v29,
    main_v30, main_cst, main_v31, main_cst_5, main_v32, main_v33, main_cst_6, main_v34, main_v35, main_cst_7,
    main_v36, main_v37, main_cst_8, main_v38, main_v39, main_v40, main_cst_9, main_v41, main_v42, main_v43,
    main_v44, main_cst_10, main_v45, main_v46, main_v47, main_cst_11, main_v48, main_v49, main_cst_12, main_v50,
    main_v51, main_v52, main_v53, main_cst_13, main_v54, main_v55, main_v56, main_v57, main_v58, main_v59,
    main_v60, main_v61, main_v62, main_v63, main_v64, main_v65, main_v66, main_v67, main_v68, main_v69,
    main_v70, main_v71, main_v72, main_v73, main_v74, main_cst_14, main_v75, main_cst_15, main_v76, main_v77,
    main_cst_16, main_v78, main_v79, main_cst_17, main_v80, main_v81, main_cst_18, main_v82, main_v83, main_v84,
    main_cst_19, main_v85, main_v86, main_v87, main_v88, main_cst_20, main_v89, main_v90, main_v91, main_cst_21,
    main_v92, main_v93, main_cst_22, main_v94, main_v95, main_v96, main_v97, main_cst_23, main_v98, main_v99,
    main_v100, main_v101, main_v102, main_v103, main_v104, main_v105, main_v106, main_v107, main_v108, main_v109,
    main_v110, main_v111, main_c_24, main_v112, main_v113, main_c_25, main_v114, main_v115, main_v116, main_v117,
    main_v118, main_c_26, main_v119, main_v120, main_c_27, main_v121, main_v122, main_v123, main_v124, main_v125,
    main_v126 ]

/-- The references the tail's operations write, in order. -/
abbrev writtenPost : List (Ref sig .tc) :=
  [ main_v127, main_v128, main_c_28, main_v129, main_v130, main_v131, main_v132, main_v133, main_v134, main_v135,
    main_v136 ]

set_option maxHeartbeats 40000000 in
theorem opsPre_writes : (opsPre : List (HloOp τ sig (Elt F))).Forall fun op =>
    op.writes ⊆ (writtenPre.map (Proc.devRef (τ := τ) .tc)).toFinset :=
  ⟨wr_sub (y := main_c) (by decide), wr_sub (y := main_c_0) (by decide), wr_sub (y := main_v0) (by decide),
    wr_sub (y := main_v1) (by decide), wr_sub (y := main_c_1) (by decide), wr_sub (y := main_v2) (by decide),
    wr_sub (y := main_v3) (by decide), wr_sub (y := main_c_2) (by decide), wr_sub (y := main_v4) (by decide),
    wr_sub (y := main_v5) (by decide), wr_sub (y := main_v6) (by decide), wr_sub (y := main_v7) (by decide),
    wr_sub (y := main_v8) (by decide), wr_sub (y := main_v9) (by decide), wr_sub (y := main_v10) (by decide),
    wr_sub (y := main_c_3) (by decide), wr_sub (y := main_v11) (by decide), wr_sub (y := main_v12) (by decide),
    wr_sub (y := main_c_4) (by decide), wr_sub (y := main_v13) (by decide), wr_sub (y := main_v14) (by decide),
    wr_sub (y := main_v15) (by decide), wr_sub (y := main_v16) (by decide), wr_sub (y := main_v17) (by decide),
    wr_sub (y := main_v18) (by decide), wr_sub (y := main_call0_v0) (by decide), wr_sub (y := main_call0_cst) (by decide),
    wr_sub (y := main_call0_v1) (by decide), wr_sub (y := main_call0_v2) (by decide), wr_sub (y := main_v19) (by decide),
    wr_sub (y := main_v20) (by decide), wr_sub (y := main_v21) (by decide), wr_sub (y := main_v22) (by decide),
    wr_sub (y := main_v23) (by decide), wr_sub (y := main_v24) (by decide), wr_sub (y := main_v25) (by decide),
    wr_sub (y := main_v26) (by decide), wr_sub (y := main_v27) (by decide), wr_sub (y := main_v28) (by decide),
    wr_sub (y := main_v29) (by decide), wr_sub (y := main_v30) (by decide), wr_sub (y := main_cst) (by decide),
    wr_sub (y := main_v31) (by decide), wr_sub (y := main_cst_5) (by decide), wr_sub (y := main_v32) (by decide),
    wr_sub (y := main_v33) (by decide), wr_sub (y := main_cst_6) (by decide), wr_sub (y := main_v34) (by decide),
    wr_sub (y := main_v35) (by decide), wr_sub (y := main_cst_7) (by decide), wr_sub (y := main_v36) (by decide),
    wr_sub (y := main_v37) (by decide), wr_sub (y := main_cst_8) (by decide), wr_sub (y := main_v38) (by decide),
    wr_sub (y := main_v39) (by decide), wr_sub (y := main_v40) (by decide), wr_sub (y := main_cst_9) (by decide),
    wr_sub (y := main_v41) (by decide), wr_sub (y := main_v42) (by decide), wr_sub (y := main_v43) (by decide),
    wr_sub (y := main_v44) (by decide), wr_sub (y := main_cst_10) (by decide), wr_sub (y := main_v45) (by decide),
    wr_sub (y := main_v46) (by decide), wr_sub (y := main_v47) (by decide), wr_sub (y := main_cst_11) (by decide),
    wr_sub (y := main_v48) (by decide), wr_sub (y := main_v49) (by decide), wr_sub (y := main_cst_12) (by decide),
    wr_sub (y := main_v50) (by decide), wr_sub (y := main_v51) (by decide), wr_sub (y := main_v52) (by decide),
    wr_sub (y := main_v53) (by decide), wr_sub (y := main_cst_13) (by decide), wr_sub (y := main_v54) (by decide),
    wr_sub (y := main_v55) (by decide), wr_sub (y := main_v56) (by decide), wr_sub (y := main_v57) (by decide),
    wr_sub (y := main_v58) (by decide), wr_sub (y := main_v59) (by decide), wr_sub (y := main_v60) (by decide),
    wr_sub (y := main_v61) (by decide), wr_sub (y := main_v62) (by decide), wr_sub (y := main_v63) (by decide),
    wr_sub (y := main_v64) (by decide), wr_sub (y := main_v65) (by decide), wr_sub (y := main_v66) (by decide),
    wr_sub (y := main_v67) (by decide), wr_sub (y := main_v68) (by decide), wr_sub (y := main_v69) (by decide),
    wr_sub (y := main_v70) (by decide), wr_sub (y := main_v71) (by decide), wr_sub (y := main_v72) (by decide),
    wr_sub (y := main_v73) (by decide), wr_sub (y := main_v74) (by decide), wr_sub (y := main_cst_14) (by decide),
    wr_sub (y := main_v75) (by decide), wr_sub (y := main_cst_15) (by decide), wr_sub (y := main_v76) (by decide),
    wr_sub (y := main_v77) (by decide), wr_sub (y := main_cst_16) (by decide), wr_sub (y := main_v78) (by decide),
    wr_sub (y := main_v79) (by decide), wr_sub (y := main_cst_17) (by decide), wr_sub (y := main_v80) (by decide),
    wr_sub (y := main_v81) (by decide), wr_sub (y := main_cst_18) (by decide), wr_sub (y := main_v82) (by decide),
    wr_sub (y := main_v83) (by decide), wr_sub (y := main_v84) (by decide), wr_sub (y := main_cst_19) (by decide),
    wr_sub (y := main_v85) (by decide), wr_sub (y := main_v86) (by decide), wr_sub (y := main_v87) (by decide),
    wr_sub (y := main_v88) (by decide), wr_sub (y := main_cst_20) (by decide), wr_sub (y := main_v89) (by decide),
    wr_sub (y := main_v90) (by decide), wr_sub (y := main_v91) (by decide), wr_sub (y := main_cst_21) (by decide),
    wr_sub (y := main_v92) (by decide), wr_sub (y := main_v93) (by decide), wr_sub (y := main_cst_22) (by decide),
    wr_sub (y := main_v94) (by decide), wr_sub (y := main_v95) (by decide), wr_sub (y := main_v96) (by decide),
    wr_sub (y := main_v97) (by decide), wr_sub (y := main_cst_23) (by decide), wr_sub (y := main_v98) (by decide),
    wr_sub (y := main_v99) (by decide), wr_sub (y := main_v100) (by decide), wr_sub (y := main_v101) (by decide),
    wr_sub (y := main_v102) (by decide), wr_sub (y := main_v103) (by decide), wr_sub (y := main_v104) (by decide),
    wr_sub (y := main_v105) (by decide), wr_sub (y := main_v106) (by decide), wr_sub (y := main_v107) (by decide),
    wr_sub (y := main_v108) (by decide), wr_sub (y := main_v109) (by decide), wr_sub (y := main_v110) (by decide),
    wr_sub (y := main_v111) (by decide), wr_sub (y := main_c_24) (by decide), wr_sub (y := main_v112) (by decide),
    wr_sub (y := main_v113) (by decide), wr_sub (y := main_c_25) (by decide), wr_sub (y := main_v114) (by decide),
    wr_sub (y := main_v115) (by decide), wr_sub (y := main_v116) (by decide), wr_sub (y := main_v117) (by decide),
    wr_sub (y := main_v118) (by decide), wr_sub (y := main_c_26) (by decide), wr_sub (y := main_v119) (by decide),
    wr_sub (y := main_v120) (by decide), wr_sub (y := main_c_27) (by decide), wr_sub (y := main_v121) (by decide),
    wr_sub (y := main_v122) (by decide), wr_sub (y := main_v123) (by decide), wr_sub (y := main_v124) (by decide),
    wr_sub (y := main_v125) (by decide), wr_sub (y := main_v126) (by decide)⟩

theorem opsPost_writes : (opsPost : List (HloOp τ sig (Elt F))).Forall fun op =>
    op.writes ⊆ (writtenPost.map (Proc.devRef (τ := τ) .tc)).toFinset :=
  ⟨wr_sub (y := main_v127) (by decide), wr_sub (y := main_v128) (by decide), wr_sub (y := main_c_28) (by decide),
    wr_sub (y := main_v129) (by decide), wr_sub (y := main_v130) (by decide), wr_sub (y := main_v131) (by decide),
    wr_sub (y := main_v132) (by decide), wr_sub (y := main_v133) (by decide), wr_sub (y := main_v134) (by decide),
    wr_sub (y := main_v135) (by decide), wr_sub (y := main_v136) (by decide)⟩

/-- A reference the head does not write keeps its contents through the head. -/
theorem keptPre (V : Valuation τ sig (Elt F)) {r : Ref sig .tc} (h : r ∉ writtenPre) :
    StableHlo.after opsPre V (Proc.devRef .tc r) = V (Proc.devRef .tc r) :=
  after_of_writes_sub opsPre V opsPre_writes h

/-- A reference the tail does not write keeps its contents through the tail. -/
theorem keptPost (V : Valuation τ sig (Elt F)) {r : Ref sig .tc} (h : r ∉ writtenPost) :
    StableHlo.after opsPost V (Proc.devRef .tc r) = V (Proc.devRef .tc r) :=
  after_of_writes_sub opsPost V opsPost_writes h

/-- A reference neither part writes keeps its contents through the whole line. -/
theorem kept (V : Valuation τ sig (Elt F)) {r : Ref sig .tc} (h₁ : r ∉ writtenPre) (h₂ : r ∉ writtenPost) :
    StableHlo.after (opsPre ++ opsPost) V (Proc.devRef .tc r) = V (Proc.devRef .tc r) := by
  rw [StableHlo.after_append, keptPost _ h₂, keptPre _ h₁]

theorem kept_arg0 (V : Valuation τ sig (Elt F)) :
    StableHlo.after (opsPre ++ opsPost) V (Proc.devRef .tc main_arg0) = V (Proc.devRef .tc main_arg0) :=
  kept V (by decide) (by decide)
theorem kept_arg1 (V : Valuation τ sig (Elt F)) :
    StableHlo.after (opsPre ++ opsPost) V (Proc.devRef .tc main_arg1) = V (Proc.devRef .tc main_arg1) :=
  kept V (by decide) (by decide)
theorem kept_arg2 (V : Valuation τ sig (Elt F)) :
    StableHlo.after (opsPre ++ opsPost) V (Proc.devRef .tc main_arg2) = V (Proc.devRef .tc main_arg2) :=
  kept V (by decide) (by decide)
theorem kept_arg3 (V : Valuation τ sig (Elt F)) :
    StableHlo.after (opsPre ++ opsPost) V (Proc.devRef .tc main_arg3) = V (Proc.devRef .tc main_arg3) :=
  kept V (by decide) (by decide)
theorem kept_arg4 (V : Valuation τ sig (Elt F)) :
    StableHlo.after (opsPre ++ opsPost) V (Proc.devRef .tc main_arg4) = V (Proc.devRef .tc main_arg4) :=
  kept V (by decide) (by decide)
theorem kept_arg5 (V : Valuation τ sig (Elt F)) :
    StableHlo.after (opsPre ++ opsPost) V (Proc.devRef .tc main_arg5) = V (Proc.devRef .tc main_arg5) :=
  kept V (by decide) (by decide)

/-- @main runs to the end and its six argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_arg0).trans (kept_arg0 _), (h c main_arg1).trans (kept_arg1 _),
      (h c main_arg2).trans (kept_arg2 _), (h c main_arg3).trans (kept_arg3 _),
      (h c main_arg4).trans (kept_arg4 _), (h c main_arg5).trans (kept_arg5 _)⟩)
    (run m ρ)

end Cert.ReferenceIdeal.Hand

end
-- ==== Proof.RefPost.lean ====
import proofs.«176160_j34325378630297_2_alg».proof.Proof.RefRun
import Idealize.ShloMosaic.Lib.StableHlo.Run

/-!
  What the reference's last operations compute from whatever the first part leaves: the product of the
  angular table, broadcast along the channel axis, with the matrix product's columns regrouped in sixes
  and gathered along the last axis by the index table; and what the first part leaves at the index table,
  its mask, and the two matrix operands.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- What the last eleven operations compute, as a function of the five contents they read: the angular table `SH`
    (320000 × 18), the two matrix operands `A` (320000 × 64) and `W5` (64 × 192), the index table `tab` (18 entries)
    and its mask `fl`. The angular table is broadcast along the channel axis; the product `A · W5` is regrouped as
    320000 × 32 × 6 and gathered along its last axis at the table's entries (wrapped by 6 where the mask is set); the two
    are multiplied entry by entry. -/
def postTerm (SH : (⟨S320000x18, .f32⟩ : BufTy).Contents (Elt F)) (A : (⟨S320000x64, .f32⟩ : BufTy).Contents (Elt F))
    (W5 : (⟨S64x192, .f32⟩ : BufTy).Contents (Elt F)) (tab : (⟨S18, .i32⟩ : BufTy).Contents (Elt F))
    (fl : (⟨S18, .i1⟩ : BufTy).Contents (Elt F)) : (⟨S320000x32x18, .f32⟩ : BufTy).Contents (Elt F) :=
  mulf
    (broadcastInDim S320000x32x18 ![0, 1, 2] bcast_S320000x1x18_S320000x32x18_0_1_2
      (broadcastInDim S320000x1x18 ![0, 2] bcast_S320000x18_S320000x1x18_0_2 SH))
    (Host.gather gather_S320000x32x6_S18x1_S320000x32x18_01_2_n_n_2_1_320000321
      (shapeCast S320000x32x6
        (Host.dotGeneral dot_S320000x64_S64x192_S320000x192_1_0_0_1_n_n none A W5)
        shapeCasts_S320000x192_S320000x32x6)
      (broadcastInDim S18x1 ![0] bcast_S18_S18x1_0
        (select fl (addi tab (broadcastInDim S18 ![] bcast_S_S18 (constantI S_ 32 6#32))) tab)))

/-- The result of the last eleven operations is that term of the contents `W` they start from, read at the
    angular table, the two matrix operands, the index table and its mask. -/
theorem post_v136 (W : Valuation τ sig (Elt F)) :
    StableHlo.after opsPost W (Proc.devRef .tc main_v136)
      = postTerm (W (Proc.devRef .tc main_v126)) (W (Proc.devRef .tc main_arg4)) (W (Proc.devRef .tc main_arg5))
          (W (Proc.devRef .tc main_c)) (W (Proc.devRef .tc main_c_0)) := by
  after_results
  rfl

/-- The index table after the first part: its literal, no later operation of the part writing it. -/
theorem pre_c (V : Valuation τ sig (Elt F)) :
    StableHlo.after opsPre V (Proc.devRef .tc main_c) = fun i => lit0 (S18.rowMajor i) := by
  after_results_simp
  rfl

/-- The mask after the first part: all false. -/
theorem pre_c_0 (V : Valuation τ sig (Elt F)) :
    StableHlo.after opsPre V (Proc.devRef .tc main_c_0) = constantI S18 1 0#1 := by
  after_results_simp

/-- The two matrix operands are arguments: the first part leaves them as it found them. -/
theorem pre_arg4 (V : Valuation τ sig (Elt F)) :
    StableHlo.after opsPre V (Proc.devRef .tc main_arg4) = V (Proc.devRef .tc main_arg4) :=
  keptPre V (by decide)
theorem pre_arg5 (V : Valuation τ sig (Elt F)) :
    StableHlo.after opsPre V (Proc.devRef .tc main_arg5) = V (Proc.devRef .tc main_arg5) :=
  keptPre V (by decide)

end Cert.ReferenceIdeal.Hand

end
-- ==== Proof.TableR.lean ====
import proofs.«176160_j34325378630297_2_alg».proof.ReferenceIdeal
import proofs.«176160_j34325378630297_2_alg».proof.Proof.Irrep

/-!
  The reference program's constant table of 18 irrep indices: entry j is w(j).
-/

namespace Cert.ReferenceIdeal.Hand

open Cert.Irrep

theorem lit18 : ∀ j : Fin 18, Cert.ReferenceIdeal.lit0 j = BitVec.ofNat 32 (w j.val) := by decide +kernel

end Cert.ReferenceIdeal.Hand
-- ==== Proof.LibRowBlockDot.lean ====
/-
  A row block of a matrix product, at the ideal values.

  For A of M×K and W of K×N the product A · W has at (r, q) the entry  ∑ c < K, A (r, c) · W (c, q):  row r of the
  product depends on row r of A only. So if X (B×K) holds row r of A as its row p — X (p, ·) = A (r, ·) — and W'
  agrees with W on column q, then the product X · W' accumulated onto the zero splat has at (p, q) the entry of
  A · W at (r, q). A product computed one tile of rows at a time is the product. This holds on the extended reals
  with no finiteness: the two sides are the same finite sum of the same products.
-/
import proofs.«176160_j34325378630297_2_alg».proof.Proof.LibMatmulNN

noncomputable section

open scoped BigOperators

namespace Idealize.ShloMosaic.RowBlockDot

open Idealize.ShloMosaic Idealize.ShloMosaic.ValueIdx

variable {M K N : Nat}

/-- The host's A · W (contracting axis 1 of A with axis 0 of W, no batch axis) at (a, b): the sum over the contracted
    coordinate of A (a, c) · W (c, b), whatever the precision and the schedule key. -/
theorem dotGeneral_apply {φ₁ φ₂ : FTy} (prec : Option ContractPrecision) (sched : HostSchedule)
    (A : FVec Ideal ⟨2, ![M, K]⟩ φ₁) (W : FVec Ideal ⟨2, ![K, N]⟩ φ₂) (a : Fin M) (b : Fin N) :
    FloatOps.dotGeneral (DotDims.plain M K N) prec sched A W (ix2 a b) = ∑ c : Fin K, A (ix2 a c) * W (ix2 c b) := by
  rw [Ideal.dotGeneral_apply, ← Equiv.sum_comp (contrEquiv1 (DotDims.plain M K N) K rfl rfl).symm]
  refine Finset.sum_congr rfl fun c _ => ?_
  rw [MatmulNN.lhsIdx_plain, MatmulNN.rhsIdx_plain]

/-- A tile of rows times the right operand, into the zero splat, read at (p, q), is the whole product at (r, q) when
    row p of the tile is row r of the whole left operand and the two right operands agree on column q. -/
theorem matmul_rowBlock {B : Nat} {φ₁ φ₂ ψ₁ ψ₂ : FTy} (prec prec' : Option ContractPrecision) (sched : HostSchedule)
    (A : FVec Ideal ⟨2, ![M, K]⟩ φ₁) (W : FVec Ideal ⟨2, ![K, N]⟩ φ₂)
    (X : FVec Ideal ⟨2, ![B, K]⟩ ψ₁) (W' : FVec Ideal ⟨2, ![K, N]⟩ ψ₂) (p : Fin B) (q : Fin N) (r : Fin M)
    (hX : ∀ c : Fin K, X (ix2 p c) = A (ix2 r c)) (hW : ∀ c : Fin K, W' (ix2 c q) = W (ix2 c q)) :
    FloatOps.matmul (DotDims.plain B K N) prec X W' (constant ⟨2, ![B, N]⟩ .f32 0x00000000#32) (ix2 p q)
      = FloatOps.dotGeneral (DotDims.plain M K N) prec' sched A W (ix2 r q) := by
  rw [MatmulNN.matmul_zero_apply, dotGeneral_apply]
  exact Finset.sum_congr rfl fun c _ => by rw [hX c, hW c]

end Idealize.ShloMosaic.RowBlockDot

end
-- ==== Proof.RefEntry.lean ====
import proofs.«176160_j34325378630297_2_alg».proof.Proof.RefPost
import proofs.«176160_j34325378630297_2_alg».proof.Proof.TableR
import proofs.«176160_j34325378630297_2_alg».proof.Proof.LibRowBlockDot
import Idealize.ShloMosaic.Lib.Pipeline.Value
import Idealize.ShloMosaic.Lib.ValueIdx

/-!
  The reference's last part read at an entry, on the extended reals.

  At (e, m, j) the result is the angular table at (e, j) times the entry (e, 6·m + w(j)) of the matrix product
  A · W5, where w(j) is the irrep of component j: the two broadcasts of the angular table forget the channel
  coordinate m; the index column is the 18-entry table itself (its mask is all false), whose entry j is w(j),
  already inside [0, 5]; the gather along the last axis of the 320000 × 32 × 6 array reads it at (e, m, w(j)); the
  regrouping of 192 columns in 32 sixes puts there column 6·m + w(j); and the product's entry is the finite sum
  over the 64 contracted coordinates.
-/

noncomputable section

open scoped BigOperators

/-! ## A gather along the last axis of a rank-3 array, read at an index -/

namespace Cert.TakeLast

open Idealize.ShloMosaic Idealize.ShloMosaic.ValueIdx

variable {α : Type}

/-- The dimension numbers of a gather along the last axis: operand `[C0, C1, N]`, start indices `[R, 1]`, result
    `[C0, C1, R]`; the result's axes 0 and 1 are the offset axes (a whole `C0 × C1` slab is taken), the operand's
    axis 2 is collapsed and is the axis the start index addresses. -/
abbrev lastDims (C0 C1 N R : Nat)
    (wf : GatherDims.WF ⟨3, ![C0, C1, N]⟩ ⟨2, ![R, 1]⟩ ⟨3, ![C0, C1, R]⟩ [0, 1] [2] [] [2] [] 1 ![C0, C1, 1]) :
    GatherDims ⟨3, ![C0, C1, N]⟩ ⟨2, ![R, 1]⟩ ⟨3, ![C0, C1, R]⟩ where
  offsetDims := [0, 1]
  collapsedSliceDims := [2]
  operandBatchingDims := []
  startIndicesBatchingDims := []
  startIndexMap := [2]
  indexVectorDim := 1
  sliceSizes := ![C0, C1, 1]
  wf := wf

/-- The start-indices index `[r, 0]` of result index `(a, b, r)`. -/
abbrev lastIdx {C0 C1 R : Nat} (y : (⟨3, ![C0, C1, R]⟩ : Shape).Idx) : (⟨2, ![R, 1]⟩ : Shape).Idx :=
  ix2 (⟨(y 2).val, (y 2).isLt⟩ : Fin R) (⟨0, Nat.one_pos⟩ : Fin 1)

/-- THE GATHER READ AT `(a, b, r)`: the operand at `(a, b, ·)` on the last axis at the start index `idx[r, 0]`, read
    signed and clamped into `[0, N − 1]`. -/
theorem gather_last_apply {C0 C1 N R w : Nat} (hN : 0 < N)
    (wf : GatherDims.WF ⟨3, ![C0, C1, N]⟩ ⟨2, ![R, 1]⟩ ⟨3, ![C0, C1, R]⟩ [0, 1] [2] [] [2] [] 1 ![C0, C1, 1])
    (x : (⟨3, ![C0, C1, N]⟩ : Shape).Idx → α) (idx : IVec ⟨2, ![R, 1]⟩ w) (y : (⟨3, ![C0, C1, R]⟩ : Shape).Idx) :
    Host.gather (lastDims C0 C1 N R wf) x idx y
      = x (ix3 (⟨(y 0).val, (y 0).isLt⟩ : Fin C0) (⟨(y 1).val, (y 1).isLt⟩ : Fin C1)
            (⟨min (idx (lastIdx y)).toInt.toNat (N - 1), by omega⟩ : Fin N)) := by
  unfold Host.gather
  refine congrArg x (funext fun a => Fin.ext ?_)
  match a with
  | ⟨0, _⟩ =>
    show (lastDims C0 C1 N R wf).start y idx 0 + (lastDims C0 C1 N R wf).batchCoord y 0 + (lastDims C0 C1 N R wf).offCoord y 0 = (y 0).val
    rw [GatherDims.batchCoord_eq_zero _ _ _ List.not_mem_nil]
    have hs : (lastDims C0 C1 N R wf).start y idx 0 = 0 := by
      unfold GatherDims.start
      rw [dif_neg (show ¬ (0 : Fin 3) ∈ (lastDims C0 C1 N R wf).startIndexMap from
        fun h => absurd (Fin.val_eq_of_eq (List.mem_singleton.mp h)) (show ¬ (0 : Nat) = 2 by decide))]
    rw [hs]
    simp only [Nat.add_zero, Nat.zero_add]
    rfl
  | ⟨1, _⟩ =>
    show (lastDims C0 C1 N R wf).start y idx 1 + (lastDims C0 C1 N R wf).batchCoord y 1 + (lastDims C0 C1 N R wf).offCoord y 1 = (y 1).val
    rw [GatherDims.batchCoord_eq_zero _ _ _ List.not_mem_nil]
    have hs : (lastDims C0 C1 N R wf).start y idx 1 = 0 := by
      unfold GatherDims.start
      rw [dif_neg (show ¬ (1 : Fin 3) ∈ (lastDims C0 C1 N R wf).startIndexMap from
        fun h => absurd (Fin.val_eq_of_eq (List.mem_singleton.mp h)) (show ¬ (1 : Nat) = 2 by decide))]
    rw [hs]
    simp only [Nat.add_zero, Nat.zero_add]
    rfl
  | ⟨2, _⟩ =>
    show (lastDims C0 C1 N R wf).start y idx 2 + (lastDims C0 C1 N R wf).batchCoord y 2 + (lastDims C0 C1 N R wf).offCoord y 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims C0 C1 N R wf).startIndexMap from List.mem_singleton.mpr rfl)]
    have hsi : (lastDims C0 C1 N R wf).siIdx y ⟨List.idxOf (2 : Fin 3) (lastDims C0 C1 N R wf).startIndexMap,
        List.idxOf_lt_length_iff.2 (List.mem_singleton.mpr rfl)⟩ = lastIdx y := by
      funext b; refine Fin.ext ?_
      match b with
      | ⟨0, _⟩ => rfl
      | ⟨1, _⟩ => rfl
    rw [hsi]
    rfl

end Cert.TakeLast

/-! ## The last part at an entry -/

namespace Cert.ReferenceIdeal.Hand

open Cert.ReferenceIdeal Cert.ReferenceIdeal.Gen Idealize.ShloMosaic Idealize.ShloMosaic.ValueIdx Cert.TakeLast

/-- A 32-bit word holding a number below 6, read signed, is that number. -/
theorem ofNat_toInt_toNat : ∀ n : Fin 6, (BitVec.ofNat 32 n.val).toInt.toNat = n.val := by decide

/-- The index column at row j: the mask is all false, so the table's own entry j, which is the irrep of component j. -/
theorem idxcol_apply (j : Fin 18) :
    broadcastInDim S18x1 ![0] bcast_S18_S18x1_0
        (select (constantI S18 1 0#1)
          (addi (fun i => lit0 (S18.rowMajor i)) (broadcastInDim S18 ![] bcast_S_S18 (constantI S_ 32 6#32)))
          (fun i => lit0 (S18.rowMajor i)))
        (ix2 j (⟨0, Nat.one_pos⟩ : Fin 1))
      = BitVec.ofNat 32 (Cert.Irrep.w j.val) := by
  refine (broadcastInDim_apply _ _ _ (ix2 j (⟨0, Nat.one_pos⟩ : Fin 1)) (ix1 j) ?_).trans ?_
  · intro a
    match a with
    | ⟨0, _⟩ => rfl
  · show Scalar.select (0#1 : BitVec 1) _ (lit0 (S18.rowMajor (ix1 j))) = _
    rw [select_zero]
    have hr : (S18.rowMajor (ix1 j) : Fin 18) = j := Fin.ext (Shape.rowMajor_val_one (d := ![18]) (ix1 j))
    exact (congrArg lit0 hr).trans (lit18 j)

/-- The regrouped matrix product at (e, m, n), n the irrep of component j: the sum over the contracted coordinate. -/
theorem regroup_apply (A : S320000x64.Idx → EReal) (W5 : S64x192.Idx → EReal) (e : Fin 320000) (mm : Fin 32) (j : Fin 18)
    (n : Fin 6) (hn : n.val = Cert.Irrep.w j.val) :
    shapeCast S320000x32x6 (Host.dotGeneral (F := Ideal) (φ₁ := .f32) (φ₂ := .f32) dot_S320000x64_S64x192_S320000x192_1_0_0_1_n_n none A W5)
        shapeCasts_S320000x192_S320000x32x6 (ix3 e mm n)
      = ∑ k : Fin 64, A (ix2 e k) * W5 (ix2 k (⟨6 * mm.val + Cert.Irrep.w j.val, by have := Cert.Irrep.w_lt j.val; have := mm.isLt; omega⟩ : Fin 192)) := by
  obtain ⟨n, hlt⟩ := n
  change n = Cert.Irrep.w j.val at hn
  subst hn
  have hc : 6 * mm.val + Cert.Irrep.w j.val < 192 := by have := mm.isLt; omega
  refine (shapeCast_apply _ shapeCasts_S320000x192_S320000x32x6 (ix3 e mm (⟨Cert.Irrep.w j.val, hlt⟩ : Fin 6))
    (ix2 e (⟨6 * mm.val + Cert.Irrep.w j.val, hc⟩ : Fin 192)) ?_).trans ?_
  · rw [Shape.rowMajor_val_two, Shape.rowMajor_val_three]
    show e.val * 192 + (6 * mm.val + Cert.Irrep.w j.val) = (e.val * 32 + mm.val) * 6 + Cert.Irrep.w j.val
    omega
  · exact Idealize.ShloMosaic.RowBlockDot.dotGeneral_apply (M := 320000) (K := 64) (N := 192) (φ₁ := .f32) (φ₂ := .f32)
      none .single A W5 e (⟨6 * mm.val + Cert.Irrep.w j.val, hc⟩ : Fin 192)

/-- THE LAST PART AT (e, m, j): the angular table at (e, j) times the matrix product at (e, 6·m + w(j)). -/
theorem postTerm_apply (SH : S320000x18.Idx → EReal) (A : S320000x64.Idx → EReal) (W5 : S64x192.Idx → EReal)
    (e : Fin 320000) (mm : Fin 32) (j : Fin 18) :
    postTerm (F := Ideal) SH A W5 (fun i => lit0 (S18.rowMajor i)) (constantI S18 1 0#1) (ix3 e mm j)
      = SH (ix2 e j) * ∑ k : Fin 64, A (ix2 e k) * W5 (ix2 k (⟨6 * mm.val + Cert.Irrep.w j.val, by have := Cert.Irrep.w_lt j.val; have := mm.isLt; omega⟩ : Fin 192)) := by
  -- the left factor: the two broadcasts forget the channel coordinate
  have hL : broadcastInDim S320000x32x18 ![0, 1, 2] bcast_S320000x1x18_S320000x32x18_0_1_2
      (broadcastInDim S320000x1x18 ![0, 2] bcast_S320000x18_S320000x1x18_0_2 SH) (ix3 e mm j) = SH (ix2 e j) := by
    refine (broadcastInDim_apply _ _ _ (ix3 e mm j) (ix3 e (0 : Fin 1) j) ?_).trans
      (broadcastInDim_apply _ _ SH (ix3 e (0 : Fin 1) j) (ix2 e j) ?_)
    · intro a
      match a with
      | ⟨0, _⟩ => rfl
      | ⟨1, _⟩ => rfl
      | ⟨2, _⟩ => rfl
    · intro a
      match a with
      | ⟨0, _⟩ => rfl
      | ⟨1, _⟩ => rfl
  -- the right factor: the gather along the last axis at the table's entry
  have hR : Host.gather gather_S320000x32x6_S18x1_S320000x32x18_01_2_n_n_2_1_320000321
      (shapeCast S320000x32x6 (Host.dotGeneral (F := Ideal) (φ₁ := .f32) (φ₂ := .f32) dot_S320000x64_S64x192_S320000x192_1_0_0_1_n_n none A W5)
        shapeCasts_S320000x192_S320000x32x6)
      (broadcastInDim S18x1 ![0] bcast_S18_S18x1_0
        (select (constantI S18 1 0#1)
          (addi (fun i => lit0 (S18.rowMajor i)) (broadcastInDim S18 ![] bcast_S_S18 (constantI S_ 32 6#32)))
          (fun i => lit0 (S18.rowMajor i))))
      (ix3 e mm j)
      = ∑ k : Fin 64, A (ix2 e k) * W5 (ix2 k (⟨6 * mm.val + Cert.Irrep.w j.val, by have := Cert.Irrep.w_lt j.val; have := mm.isLt; omega⟩ : Fin 192)) := by
    refine (gather_last_apply (C0 := 320000) (C1 := 32) (N := 6) (R := 18) (by decide)
      gather_S320000x32x6_S18x1_S320000x32x18_01_2_n_n_2_1_320000321_wf _ _ (ix3 e mm j)).trans ?_
    refine regroup_apply A W5 e mm j _ ?_
    have hw := Cert.Irrep.w_lt j.val
    refine (congrArg (fun b : BitVec 32 => min b.toInt.toNat (6 - 1)) (idxcol_apply j)).trans ?_
    show min (BitVec.ofNat 32 (Cert.Irrep.w j.val)).toInt.toNat (6 - 1) = Cert.Irrep.w j.val
    have h6 : (BitVec.ofNat 32 (Cert.Irrep.w j.val)).toInt.toNat = Cert.Irrep.w j.val := ofNat_toInt_toNat ⟨Cert.Irrep.w j.val, hw⟩
    rw [h6]
    omega
  exact congrArg₂ (· * ·) hL hR

end Cert.ReferenceIdeal.Hand

end
-- ==== Proof.ShAgree.lean ====
import proofs.«176160_j34325378630297_2_alg».proof.Proof.Gen.KernelIdeal.Launch
import proofs.«176160_j34325378630297_2_alg».proof.Proof.RefRun
import Idealize.ShloMosaic.Lib.StableHlo.Run
import Idealize.ShloMosaic.PureOps.Ideal

/-!
  The two programs compute the 320000 × 18 array of combined spherical harmonics by the same host lines.

  Both programs gather the two endpoints of every edge, normalise the edge vector, evaluate the nine real spherical
  harmonics of degree ≤ 2 on it, evaluate the same nine on each frame's field vector and gather them per edge through
  the sender's frame, and lay the two groups of nine side by side. The lines are the same operations on the same
  arguments in the same order, so from memories that agree on the four arguments they read, the two arrays are equal:
  each side's fold over its lines is rewritten to the operations' composed term, and the two terms coincide.
-/

set_option maxRecDepth 16384

noncomputable section

namespace Cert.Bridge

open Idealize.ShloMosaic Idealize.ShloMosaic.TcCoe Idealize.ShloMosaic.StableHlo
open Idealize.SL Idealize.SL.Sem

/-- Two arrays of one shape laid side by side along an axis, as a function of the two arrays. -/
def cat2 {α : Type} (t : Shape) (a : Fin t.rank) (s : Shape) (x y : s.Idx → α)
    (h : Shape.Concatenates [s, s] t a) : t.Idx → α :=
  concatenate t a [⟨s, x⟩, ⟨s, y⟩] h

theorem cat2_eq {α : Type} (t : Shape) (a : Fin t.rank) (s : Shape) (x y : s.Idx → α)
    (h : Shape.Concatenates [s, s] t a) : concatenate t a [⟨s, x⟩, ⟨s, y⟩] h = cat2 t a s x y h := rfl

/-- Nine arrays of one shape laid side by side along an axis, as a function of the nine arrays. -/
def cat9 {α : Type} (t : Shape) (a : Fin t.rank) (s : Shape) (x0 x1 x2 x3 x4 x5 x6 x7 x8 : s.Idx → α)
    (h : Shape.Concatenates [s, s, s, s, s, s, s, s, s] t a) : t.Idx → α :=
  concatenate t a [⟨s, x0⟩, ⟨s, x1⟩, ⟨s, x2⟩, ⟨s, x3⟩, ⟨s, x4⟩, ⟨s, x5⟩, ⟨s, x6⟩, ⟨s, x7⟩, ⟨s, x8⟩] h

theorem cat9_eq {α : Type} (t : Shape) (a : Fin t.rank) (s : Shape) (x0 x1 x2 x3 x4 x5 x6 x7 x8 : s.Idx → α)
    (h : Shape.Concatenates [s, s, s, s, s, s, s, s, s] t a) :
    concatenate t a [⟨s, x0⟩, ⟨s, x1⟩, ⟨s, x2⟩, ⟨s, x3⟩, ⟨s, x4⟩, ⟨s, x5⟩, ⟨s, x6⟩, ⟨s, x7⟩, ⟨s, x8⟩] h
      = cat9 t a s x0 x1 x2 x3 x4 x5 x6 x7 x8 h := rfl

set_option maxHeartbeats 8000000 in
/-- From valuations agreeing on the node positions, the edge list, the frame of each node and the field vectors, the
    reference's first part and the kernel program's host lines leave the same array of combined harmonics. -/
theorem sh_agree (VK : Valuation Cert.KernelIdeal.τ Cert.KernelIdeal.sig (Elt Ideal))
    (VR : Valuation Cert.ReferenceIdeal.τ Cert.ReferenceIdeal.sig (Elt Ideal))
    (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1))
    (h2 : VR (Proc.devRef .tc Cert.ReferenceIdeal.main_arg2) = VK (Proc.devRef .tc Cert.KernelIdeal.main_arg2))
    (h3 : VR (Proc.devRef .tc Cert.ReferenceIdeal.main_arg3) = VK (Proc.devRef .tc Cert.KernelIdeal.main_arg3)) :
    StableHlo.after (Cert.ReferenceIdeal.Hand.opsPre (F := Ideal)) VR (Proc.devRef .tc Cert.ReferenceIdeal.main_v126)
      = StableHlo.after (List.flatten [Cert.KernelIdeal.Gen.hostOps0 (F := Ideal), Cert.KernelIdeal.Gen.hostOps0_1,
          Cert.KernelIdeal.Gen.hostOps0_2, Cert.KernelIdeal.Gen.hostOps0_3]) VK (Proc.devRef .tc Cert.KernelIdeal.main_v126) := by
  repeat simp (disch := decide) only [cat2_eq, cat9_eq, Matrix.cons_val_zero, Matrix.cons_val_one, Matrix.cons_val, List.flatten_cons, List.flatten_nil, List.append_nil, List.cons_append, List.nil_append,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.toBuf, TRef.ofBuf, cast_eq]
  rw [h0, h1, h2, h3]
  rfl

end Cert.Bridge

end
-- ==== Proof.Bridge.lean ====
import proofs.«176160_j34325378630297_2_alg».proof.Proof.KernelRun
import proofs.«176160_j34325378630297_2_alg».proof.Proof.KernelEntry
import proofs.«176160_j34325378630297_2_alg».proof.Proof.TakeValue
import proofs.«176160_j34325378630297_2_alg».proof.Proof.RefEntry
import proofs.«176160_j34325378630297_2_alg».proof.Proof.ShAgree

/-!
  The two programs' results are one array.

  Feature m, component j of edge e is, in the kernel program,
      (∑ k, A(e, k) · Wc(k, 18·m + j)) · S(e, j)        with Wc(k, c) = W(k, 6·(c / 18) + w(c mod 18)),
  and in the reference
      S(e, j) · ∑ k, A(e, k) · W(k, 6·m + w(j)),
  where A is the array of edge invariants, W the 64 × 192 weight matrix, S the array of combined spherical harmonics
  (the same array in both programs) and w(j) the irrep of component j. Column 18·m + j reads weight column
  6·m + w(j), so the two sums have the same terms, and the product of two extended reals commutes: no finiteness of
  the inputs is used.
-/

set_option maxRecDepth 16384

noncomputable section

namespace Cert.Bridge

open Idealize.ShloMosaic Idealize.ShloMosaic.TcCoe Idealize.ShloMosaic.ValueIdx Idealize.ShloMosaic.StableHlo
open Idealize.SL Idealize.SL.Sem
open Cert.Irrep

/-- The entrywise law joining the two programs. -/
theorem entry_law (SH : (⟨2, ![320000, 18]⟩ : Shape).Idx → EReal) (A : (⟨2, ![320000, 64]⟩ : Shape).Idx → EReal)
    (W5 : (⟨2, ![64, 192]⟩ : Shape).Idx → EReal) (Wc : (⟨2, ![64, 576]⟩ : Shape).Idx → EReal)
    (hW : ∀ (k : Fin 64) (q : Fin 576), Wc (ix2 k q) = W5 (ix2 k (⟨col q.val, col_lt q.isLt⟩ : Fin 192)))
    (e : Fin 320000) (mm : Fin 32) (j : Fin 18) :
    SH (ix2 e j) * ∑ k : Fin 64, A (ix2 e k)
        * W5 (ix2 k (⟨6 * mm.val + w j.val, by have := w_lt j.val; have := mm.isLt; omega⟩ : Fin 192))
      = (∑ k : Fin 64, A (ix2 e k)
          * Wc (ix2 k (⟨18 * mm.val + j.val, by have := mm.isLt; have := j.isLt; omega⟩ : Fin 576))) * SH (ix2 e j) := by
  rw [mul_comm]
  refine congrArg (· * SH (ix2 e j)) (Finset.sum_congr rfl fun k _ => ?_)
  rw [hW k]
  refine congrArg (fun n => A (ix2 e k) * W5 (ix2 k n)) (Fin.ext ?_)
  exact (col_mul_add j.isLt).symm

/-- From memories that agree on the six arguments, the reference's result array is the kernel program's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    StableHlo.after (Cert.ReferenceIdeal.Hand.opsPre ++ Cert.ReferenceIdeal.Hand.opsPost) (StableHlo.launchContents m' c)
        (Proc.devRef .tc Cert.ReferenceIdeal.main_v136)
      = shapeCast Cert.KernelIdeal.S320000x32x18
          (Cert.KernelIdeal.Hand.Gout (Cert.KernelIdeal.Hand.V m c Cert.KernelIdeal.main_arg4)
            (Cert.KernelIdeal.Hand.V m c Cert.KernelIdeal.main_v126) (Cert.KernelIdeal.Hand.V m c Cert.KernelIdeal.main_v127))
          Cert.KernelIdeal.Gen.shapeCasts_S320000x576_S320000x32x18 := by
  have hsh : StableHlo.after (Cert.ReferenceIdeal.Hand.opsPre (F := Ideal)) (StableHlo.launchContents m' c)
        (Proc.devRef .tc Cert.ReferenceIdeal.main_v126) = Cert.KernelIdeal.Hand.V m c Cert.KernelIdeal.main_v126 :=
    sh_agree (fun b => m (c, b)) (StableHlo.launchContents m' c) h0 h1 h2 h3
  have hA : StableHlo.launchContents m' c (Proc.devRef .tc Cert.ReferenceIdeal.main_arg4)
      = Cert.KernelIdeal.Hand.V m c Cert.KernelIdeal.main_arg4 :=
    h4.trans (Cert.KernelIdeal.Hand.V_main_arg4 m c).symm
  have hW : StableHlo.launchContents m' c (Proc.devRef .tc Cert.ReferenceIdeal.main_arg5)
      = m ((c.tc : Thread Cert.KernelIdeal.nD Cert.KernelIdeal.τ).loc Cert.KernelIdeal.main_arg5) := h5
  rw [StableHlo.after_append, Cert.ReferenceIdeal.Hand.post_v136, Cert.ReferenceIdeal.Hand.pre_c,
    Cert.ReferenceIdeal.Hand.pre_c_0, Cert.ReferenceIdeal.Hand.pre_arg4, Cert.ReferenceIdeal.Hand.pre_arg5, hsh, hA, hW]
  funext i
  obtain ⟨e, mm, j, rfl⟩ : ∃ (e : Fin 320000) (mm : Fin 32) (j : Fin 18), i = ix3 e mm j := ⟨i 0, i 1, i 2, eq_ix3 i⟩
  refine (Cert.ReferenceIdeal.Hand.postTerm_apply (Cert.KernelIdeal.Hand.V m c Cert.KernelIdeal.main_v126)
    (Cert.KernelIdeal.Hand.V m c Cert.KernelIdeal.main_arg4)
    (m ((c.tc : Thread Cert.KernelIdeal.nD Cert.KernelIdeal.τ).loc Cert.KernelIdeal.main_arg5)) e mm j).trans ?_
  refine Eq.trans ?_ (Cert.KernelIdeal.Hand.result_entry (Cert.KernelIdeal.Hand.V m c Cert.KernelIdeal.main_arg4)
    (Cert.KernelIdeal.Hand.V m c Cert.KernelIdeal.main_v126) (Cert.KernelIdeal.Hand.V m c Cert.KernelIdeal.main_v127) e mm j).symm
  exact entry_law (Cert.KernelIdeal.Hand.V m c Cert.KernelIdeal.main_v126) (Cert.KernelIdeal.Hand.V m c Cert.KernelIdeal.main_arg4)
    (m ((c.tc : Thread Cert.KernelIdeal.nD Cert.KernelIdeal.τ).loc Cert.KernelIdeal.main_arg5))
    (Cert.KernelIdeal.Hand.V m c Cert.KernelIdeal.main_v127)
    (fun k q => Cert.KernelIdeal.Hand.V_v127_apply m c k q) e mm j

end Cert.Bridge

end
-- ==== Proof.lean ====
/-
  The tensor embedding of two-body spherical harmonics: a kernel tiled over blocks of edges against its plain reference, on the extended reals.

  For every edge e, feature m < 32 and component j < 18 the result is
      S(e, j) · ∑ k < 64, A(e, k) · W(k, 6·m + w(j)),
  where A is the 320000 × 64 array of edge invariants, W the 64 × 192 weight matrix, w(j) ∈ {0,…,5} the irrep of
  component j, and S the 320000 × 18 array of combined spherical harmonics (nine of the normalised edge vector beside
  nine of the sender frame's field vector), which both programs compute by the same host lines.

  The reference multiplies A by W once, regroups the 192 columns as 32 × 6, gathers column w(j) for each j and
  multiplies by S. The kernel program first gathers the columns of W into the 64 × 576 matrix Wc with
  Wc(·, 18·m + j) = W(·, 6·m + w(j)) (a take in fill mode whose 576 constant indices are all in range), then runs one
  region over fifty blocks of 6400 edges: each block multiplies its rows of A by Wc and, entry by entry, by its rows
  of S repeated 32 times along the columns; the 576 columns are finally split into 32 × 18. The two results have the
  same entries: the sums have the same terms, and the product of two extended reals commutes; the precondition
  (finite inputs) is not used.

  The three frames: each program runs to the end, faults nowhere, and leaves its six argument arrays as launched.
  The idealization rewrote nothing, so the kernel program as printed and its idealized copy have the same frame
  proof at their two float instances.
-/
import proofs.«176160_j34325378630297_2_alg».proof.Defs
import proofs.«176160_j34325378630297_2_alg».proof.Proof.Gen.Kernel
import proofs.«176160_j34325378630297_2_alg».proof.Proof.Gen.KernelIdeal
import proofs.«176160_j34325378630297_2_alg».proof.Proof.Gen.ReferenceIdeal
import proofs.«176160_j34325378630297_2_alg».proof.Proof.Gen.Pre_finite_inputs
import proofs.«176160_j34325378630297_2_alg».proof.Proof.FrameK
import proofs.«176160_j34325378630297_2_alg».proof.Proof.Bridge
import Idealize.ShloMosaic.Adequacy
import Idealize.ShloMosaic.Init

noncomputable section

namespace Cert.Proof

open Idealize.ShloMosaic Idealize.SL.Sem

/-- The kernel program as printed runs, and its argument arrays end unchanged. -/
theorem frame_k : Cert.frame_Kernel := fun m ρ _ => Cert.Kernel.Hand.frame m ρ

/-- The idealized kernel program runs, and its argument arrays end unchanged. -/
theorem frame_ki : Cert.frame_KernelIdeal := fun m ρ _ => Cert.KernelIdeal.Hand.frame m ρ

/-- The idealized reference runs, and its argument arrays end unchanged. -/
theorem frame_ri : Cert.frame_ReferenceIdeal := fun m ρ _ => Cert.ReferenceIdeal.Hand.frame m ρ

/-- The idealization rewrote no operation. -/
theorem preserves : Cert.preserves_Kernel_KernelIdeal := trivial

/-- On the extended reals, from memories agreeing on the arguments, the two programs end with equal result arrays. -/
theorem algebraic : Cert.algebraic_KernelIdeal_ReferenceIdeal := by
  intro m ρ m' ρ' _ hagree
  refine ⟨fun c => shapeCast Cert.KernelIdeal.S320000x32x18
      (Cert.KernelIdeal.Hand.Gout (Cert.KernelIdeal.Hand.V m c Cert.KernelIdeal.main_arg4)
        (Cert.KernelIdeal.Hand.V m c Cert.KernelIdeal.main_v126) (Cert.KernelIdeal.Hand.V m c Cert.KernelIdeal.main_v127))
      Cert.KernelIdeal.Gen.shapeCasts_S320000x576_S320000x32x18, Cert.KernelIdeal.Hand.run m ρ, ?_⟩
  refine (θ_run Cert.ReferenceIdeal.defs _ _).mono (fun r h c => ?_) (Cert.ReferenceIdeal.Hand.run m' ρ')
  obtain ⟨h0, h1, h2, h3, h4, h5⟩ := hagree c
  exact ⟨(h c Cert.ReferenceIdeal.main_v136).trans (Cert.Bridge.result_eq m m' c h0 h1 h2 h3 h4 h5),
    (h c Cert.ReferenceIdeal.main_arg0).trans (Cert.ReferenceIdeal.Hand.kept_arg0 _),
    (h c Cert.ReferenceIdeal.main_arg1).trans (Cert.ReferenceIdeal.Hand.kept_arg1 _),
    (h c Cert.ReferenceIdeal.main_arg2).trans (Cert.ReferenceIdeal.Hand.kept_arg2 _),
    (h c Cert.ReferenceIdeal.main_arg3).trans (Cert.ReferenceIdeal.Hand.kept_arg3 _),
    (h c Cert.ReferenceIdeal.main_arg4).trans (Cert.ReferenceIdeal.Hand.kept_arg4 _),
    (h c Cert.ReferenceIdeal.main_arg5).trans (Cert.ReferenceIdeal.Hand.kept_arg5 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
